-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S320000x16 : Shape := ⟨2, ![320000, 16]⟩
abbrev S320000x4 : Shape := ⟨2, ![320000, 4]⟩
abbrev S2x320000 : Shape := ⟨2, ![2, 320000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S320000x4 : S_.BroadcastsInDim S320000x4 (![] : Fin 0 → Fin S320000x4.rank)
  reducesTo_S320000x4_S_d0_1 : S320000x4.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg3 : IVec S2x320000 32) (main_v13 : IVec S_ 1) (main_v15 : IVec S2x320000 1) (main_c_5 : IVec S_ 32) : IVec S_ 1 :=
  let main_v16 : IVec S2x320000 32 := broadcastInDim S2x320000 ![] bcast_S_S2x320000 main_c_5
  let main_v17 : IVec S2x320000 1 := cmpi .sle main_arg3 main_v16
  let main_v18 : IVec S2x320000 1 := andi main_v15 main_v17
  let main_c_6 : IVec S_ 1 := constantI S_ 1 1#1
  let main_v19 : IVec S_ 1 := (fun x v => Host.reduce IntOp.andi x v reducesTo_S2x320000_S_d0_1 h_S_) main_v18 main_c_6
  let main_v20 : IVec S_ 1 := andi main_v13 main_v19
  main_v20

def fn {F : FTy → Type} [FloatOps F] (main_arg0 : FVec F S10000x128 .f32) (main_arg1 : FVec F S320000x16 .f32) (main_arg2 : FVec F S320000x4 .f32) (main_arg3 : IVec S2x320000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg1
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S320000x4 .f32 := Host.absf main_arg2
  let main_cst_2 : FVec F S_ .f32 := constant S_ .f32 0x7F800000#32
  let main_v10 : FVec F S320000x4 .f32 := broadcastInDim S320000x4 ![] bcast_S_S320000x4 main_cst_2
  let main_v11 : IVec S320000x4 1 := cmpf .olt main_v9 main_v10
  let main_c_3 : IVec S_ 1 := constantI S_ 1 1#1
  let main_v12 : IVec S_ 1 := (fun x v => Host.reduce IntOp.andi x v reducesTo_S320000x4_S_d0_1 h_S_) main_v11 main_c_3
  let main_v13 : IVec S_ 1 := andi main_v8 main_v12
  let main_c_4 : IVec S_ 32 := constantI S_ 32 0#32
  let main_v14 : IVec S2x320000 32 := broadcastInDim S2x320000 ![] bcast_S_S2x320000 main_c_4
  let main_v15 : IVec S2x320000 1 := cmpi .sge main_arg3 main_v14
  let main_c_5 : IVec S_ 32 := constantI S_ 32 9999#32
  fn_part1 (F := F) main_arg3 main_v13 main_v15 main_c_5
-- ==== Kernel.lean ====
abbrev S10000x128 : Shape := ⟨2, ![10000, 128]⟩
abbrev S320000x16 : Shape := ⟨2, ![320000, 16]⟩
abbrev S320000x4 : Shape := ⟨2, ![320000, 4]⟩
abbrev S2x320000 : Shape := ⟨2, ![2, 320000]⟩
abbrev S1x320000 : Shape := ⟨2, ![1, 320000]⟩
abbrev S320000 : Shape := ⟨1, ![320000]⟩
abbrev S320000x276 : Shape := ⟨2, ![320000, 276]⟩
abbrev S10000 : Shape := ⟨1, ![10000]⟩
abbrev S200x256 : Shape := ⟨2, ![200, 256]⟩
abbrev S_ : Shape := ⟨0, ![]⟩
abbrev S200x128 : Shape := ⟨2, ![200, 128]⟩
abbrev S200 : Shape := ⟨1, ![200]⟩
abbrev S4000x16 : Shape := ⟨2, ![4000, 16]⟩
abbrev S4000x4 : Shape := ⟨2, ![4000, 4]⟩
abbrev S4000x128 : Shape := ⟨2, ![4000, 128]⟩
abbrev S4000x108 : Shape := ⟨2, ![4000, 108]⟩

abbrev nBuf : Table → Nat
  | .hbm => 10
  | .local .tc .vmem => 6
  | .local .scVector .vmem => 4
  | _ => 0

abbrev bufTy : (tb : Table) → Fin (nBuf tb) → BufTy
  | .hbm, ⟨0, _⟩ => ⟨S10000x128, .f32⟩
  | .hbm, ⟨1, _⟩ => ⟨S320000x16, .f32⟩
  | .hbm, ⟨2, _⟩ => ⟨S320000x4, .f32⟩
  | .hbm, ⟨3, _⟩ => ⟨S2x320000, .i32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S320000x276, .f32⟩
  | .hbm, ⟨9, _⟩ => ⟨S320000x276, .f32⟩
  | .local .tc .vmem, ⟨0, _⟩ => ⟨S4000x16, .f32⟩
  | .local .tc .vmem, ⟨1, _⟩ => ⟨S4000x16, .f32⟩
  | .local .tc .vmem, ⟨2, _⟩ => ⟨S4000x4, .f32⟩
  | .local .tc .vmem, ⟨3, _⟩ => ⟨S4000x4, .f32⟩
  | .local .tc .vmem, ⟨4, _⟩ => ⟨S4000x128, .f32⟩
  | .local .tc .vmem, ⟨5, _⟩ => ⟨S4000x128, .f32⟩
  | .local .scVector .vmem, ⟨0, _⟩ => ⟨S10000, .i32⟩
  | .local .scVector .vmem, ⟨1, _⟩ => ⟨S10000, .i32⟩
  | .local .scVector .vmem, ⟨2, _⟩ => ⟨S200x256, .f32⟩
  | .local .scVector .vmem, ⟨3, _⟩ => ⟨S200x256, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg0_scv : Ref sig .scVector := ⟨.hbm, 0, rfl⟩
abbrev main_v1_scv : Ref sig .scVector := ⟨.hbm, 5, rfl⟩
abbrev main_v3_scv : Ref sig .scVector := ⟨.hbm, 7, rfl⟩
abbrev main_v4_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
@[reducible] def k0_t1_loop : Scf.Loop 32 :=
  let c0_i32_0 : BitVec 32 := 0#32
  let c25_i32 : BitVec 32 := 25#32
  let v3 : BitVec 32 := Scalar.addi c0_i32_0 c25_i32
  let c1_i32 : BitVec 32 := 1#32
  ⟨c0_i32_0, v3, c1_i32⟩
def k0_off2 (k0_t1 : Fin k0_t1_loop.trips) (c0_i32_2 : BitVec 32) : Fin 1 → Nat :=
  let c0_i32_0 : BitVec 32 := 0#32
  let c1_i32 : BitVec 32 := 1#32
  let arg16 : BitVec 32 := Scf.iv c0_i32_0 c1_i32 k0_t1
  let c400_i32 : BitVec 32 := 400#32
  let v5 : BitVec 32 := Scalar.muli arg16 c400_i32
  let v6 : BitVec 32 := Scalar.addi v5 c0_i32_2
  ![v6.toNat]
def k0_off3 (i : grid0.Coords) (k0_t1 : Fin k0_t1_loop.trips) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg16 : BitVec 32 := Scf.iv c0_i32_0 c1_i32 k0_t1
  let c400_i32 : BitVec 32 := 400#32
  let v5 : BitVec 32 := Scalar.muli arg16 c400_i32
  let v20 : BitVec 32 := Scalar.addi v2 v5
  let v21 : BitVec 32 := Scalar.addi v20 c0_i32_18
  let c0_i32_27 : BitVec 32 := 0#32
  ![v21.toNat, 0]
abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  inb_S200x256_S200x128_0_0 : ∀ a, (![0, 0] : Fin 2 → Nat) a + S200x128.size a ≤ S200x256.size a
  inb_S10000x128_S10000x128_0_0 : ∀ a, (![0, 0] : Fin 2 → Nat) a + S10000x128.size a ≤ S10000x128.size a
  gathers_S10000x128_S200x128 : S10000x128.Gathers 0 S200x128
  inb_S200x256_S200x128_0_128 : ∀ a, (![0, 128] : Fin 2 → Nat) a + S200x128.size a ≤ S200x256.size a
  inb_S4000x16_S4000x16_0_0 : ∀ a, (![0, 0] : Fin 2 → Nat) a + S4000x16.size a ≤ S4000x16.size a
  h_S4000x16 : 0 < S4000x16.numel
  inb_S4000x4_S4000x4_0_0 : ∀ a, (![0, 0] : Fin 2 → Nat) a + S4000x4.size a ≤ S4000x4.size a
  h_S4000x4 : 0 < S4000x4.numel
  concatenates_S4000x16_S4000x4_S4000x108_S4000x128_d1 : Shape.Concatenates [S4000x16, S4000x4, S4000x108] S4000x128 1
  inb_S4000x128_S4000x128_0_0 : ∀ a, (![0, 0] : Fin 2 → Nat) a + S4000x128.size a ≤ S4000x128.size a
  h_S4000x128 : 0 < S4000x128.numel
  hcc0_scratch4 : 0 + S_.numel ≤ 14
  hcc0_scratch5 : 1 + S_.numel ≤ 14
  hcc0_scratch6 : 2 + S_.numel ≤ 14
  hcc0_scratch7 : 3 + S_.numel ≤ 14
  hcc0_scratch8 : 4 + S_.numel ≤ 14
  hcc0_scratch9 : 5 + S_.numel ≤ 14
  hcc0_scoped0 : 6 + S_.numel ≤ 14
  hcc0_scoped1 : 7 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S10000.size a ≤ S320000.size a
  k0_t1_ok : k0_t1_loop.OK
  k0_off2_inb : ∀ k0_t1 : Fin k0_t1_loop.trips, ∀ (r : Fin 2), ∀ a, (k0_off2 k0_t1 (BitVec.ofNat 32 (200 * r.val))) a + S200.size a ≤ S10000.size a
  k0_off3_inb : ∀ (i : grid0.Coords) (k0_t1 : Fin k0_t1_loop.trips), ∀ (r : Fin 2), ∀ a, (k0_off3 i k0_t1 (BitVec.ofNat 32 (200 * r.val))) a + S200x256.size a ≤ S320000x276.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S320000x16.size a
  hwx1_0 : ∀ i : grid1.Coords, EltTy.bits .f32 = 32 ∨ (Rect.block (s := S320000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S320000x4.size a
  hwx1_1 : ∀ i : grid1.Coords, EltTy.bits .f32 = 32 ∨ (Rect.block (s := S320000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hstart1_2 : ∀ (i : grid1.Coords) a, cc1_transform_3 i a * S4000x128.size a < S320000x276.size a
  hwx1_2 : ∀ i : grid1.Coords, EltTy.bits .f32 = 32 ∨ (Rect.unit (s := S320000x276) (fun a => cc1_transform_3 i a * S4000x128.size a) (fun a => (Pipeline.Clip.of (cc1_transform_3 i a) (S4000x128.size a) (S320000x276.size a)).extent (S4000x128.size a)) fun a => Pipeline.Clip.inb (Pipeline.Clip.ok_of (hstart1_2 i a))).WholeWords (EltTy.packing .f32)
  hwxs1_2 : ∀ i : grid1.Coords, EltTy.bits .f32 = 32 ∨ (Rect.unit (s := S4000x128) (fun _ => 0) (fun a => (Pipeline.Clip.of (cc1_transform_3 i a) (S4000x128.size a) (S320000x276.size a)).extent (S4000x128.size a)) fun a => (Nat.zero_add _).trans_le (Pipeline.Clip.extent_le (Pipeline.Clip.ok_of (hstart1_2 i a)))).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scoped0 : DmaSems sig S_ := SemArray.consecutive 6 S_ hcc0_scoped0
abbrev cc0_scoped1 : DmaSems sig S_ := SemArray.consecutive 7 S_ hcc0_scoped1

abbrev win1_0 : Pipeline.Window sig grid1 :=
  Pipeline.Window.ofSpec (Memref.whole main_arg1) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_v5) S4000x128.size cc1_transform_3 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S320000x16 : Shape := ⟨2, ![320000, 16]⟩
abbrev S320000x4 : Shape := ⟨2, ![320000, 4]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x276 : Shape := ⟨2, ![320000, 276]⟩

abbrev nBuf : Space → Nat
  | .hbm => 55
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x16, .f32⟩
  | .hbm, ⟨2, _⟩ => ⟨S320000x4, .f32⟩
  | .hbm, ⟨3, _⟩ => ⟨S2x320000, .i32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S1, .i32⟩
  | .hbm, ⟨17, _⟩ => ⟨S_, .i32⟩
  | .hbm, ⟨18, _⟩ => ⟨S320000x1, .i32⟩
  | .hbm, ⟨19, _⟩ => ⟨S320000x1, .i1⟩
  | .hbm, ⟨20, _⟩ => ⟨S1x1, .i32⟩
  | .hbm, ⟨21, _⟩ => ⟨S320000x1, .i32⟩
  | .hbm, ⟨22, _⟩ => ⟨S320000x1, .i1⟩
  | .hbm, ⟨23, _⟩ => ⟨S320000x1, .i1⟩
  | .hbm, ⟨24, _⟩ => ⟨S_, .i1⟩
  | .hbm, ⟨25, _⟩ => ⟨S320000, .i1⟩
  | .hbm, ⟨26, _⟩ => ⟨S320000x128, .f32⟩
  | .hbm, ⟨27, _⟩ => ⟨S320000x128, .i1⟩
  | .hbm, ⟨28, _⟩ => ⟨S_, .f32⟩
  | .hbm, ⟨29, _⟩ => ⟨S320000x128, .f32⟩
  | .hbm, ⟨30, _⟩ => ⟨S320000x128, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S1, .i32⟩
  | .hbm, ⟨40, _⟩ => ⟨S_, .i32⟩
  | .hbm, ⟨41, _⟩ => ⟨S320000x1, .i32⟩
  | .hbm, ⟨42, _⟩ => ⟨S320000x1, .i1⟩
  | .hbm, ⟨43, _⟩ => ⟨S1x1, .i32⟩
  | .hbm, ⟨44, _⟩ => ⟨S320000x1, .i32⟩
  | .hbm, ⟨45, _⟩ => ⟨S320000x1, .i1⟩
  | .hbm, ⟨46, _⟩ => ⟨S320000x1, .i1⟩
  | .hbm, ⟨47, _⟩ => ⟨S_, .i1⟩
  | .hbm, ⟨48, _⟩ => ⟨S320000, .i1⟩
  | .hbm, ⟨49, _⟩ => ⟨S320000x128, .f32⟩
  | .hbm, ⟨50, _⟩ => ⟨S320000x128, .i1⟩
  | .hbm, ⟨51, _⟩ => ⟨S_, .f32⟩
  | .hbm, ⟨52, _⟩ => ⟨S320000x128, .f32⟩
  | .hbm, ⟨53, _⟩ => ⟨S320000x128, .f32⟩
  | .hbm, ⟨54, _⟩ => ⟨S320000x276, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x128_S320000x128_S320000x16_S320000x4_S320000x276_d1 : Shape.Concatenates [S320000x128, S320000x128, S320000x16, S320000x4] S320000x276 1
  gather_S10000x128_S320000x1_S320000x128_1_0_n_n_0_1_1128_wf : GatherDims.WF S10000x128 S320000x1 S320000x128 [1] [0] [] [0] [] 1 ![1, 128]

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf

class Facts : Prop extends Facts₀ where

variable [Facts]
-- ==== Proof.HB.Setup.lean ====
/-
  The kernel's program as the SparseCore launch theorem sees it, and the resource algebra its proof runs in:
  the launch handshakes' rounds, the rounds of the tail pipeline's staging cells, and the counters of the tiles' own
  transfers (a tile only copies locally and waits for its own copies, so its protocol needs no schedule).
-/
import proofs.«210912_g7524782702854_cont_9to1c4b_744_40_alg».proof.Defs
import Idealize.ShloMosaic.Lib.SparseCore.Launch
import Idealize.ShloMosaic.Lib.StableHlo.Run
import Idealize.ShloMosaic.Lib.Pipeline.Kit
import Idealize.ShloMosaic.Lib.Tactic
import proofs.«210912_g7524782702854_cont_9to1c4b_744_40_alg».proof.Proof.Gen.Kernel
import proofs.«210912_g7524782702854_cont_9to1c4b_744_40_alg».proof.Proof.Gen.Kernel.Skeleton
import proofs.«210912_g7524782702854_cont_9to1c4b_744_40_alg».proof.Proof.Gen.Kernel.Launch
import proofs.«210912_g7524782702854_cont_9to1c4b_744_40_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline cells' rounds: the left factor of the right factor; the counters are found by instance beside it. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

end Cert.Kernel.Hand

end
-- ==== Proof.Spec.lean ====
/-
  The function both programs compute, index by index, of the argument arrays: row e of the result is row src(e)
  of the node table, then row dst(e) of the node table, then row e of the radial features, then row e of the angular
  features, where src(e) and dst(e) are the two entries of column e of the index array. The table row a 32-bit word
  names is its unsigned value; it is reduced modulo the table's extent only so that the function is total (on the
  claim's domain every word is already below the extent).
-/
import Idealize.ShloMosaic.Lib.ValueIdx

noncomputable section

namespace Cert.Hand.Spec

open Idealize.ShloMosaic Idealize.ShloMosaic.ValueIdx

/-- The table row a word names. -/
def row (v : BitVec 32) : Fin 10000 := ⟨v.toNat % 10000, Nat.mod_lt _ (by decide)⟩

theorem row_val_of_lt {v : BitVec 32} (h : v.toNat < 10000) : (row v).val = v.toNat := Nat.mod_eq_of_lt h

/-- The result array as one function of the argument arrays: the two looked-up table rows side by side, then the
    two feature rows. -/
def G {α : Type} (tbl : (⟨2, ![10000, 128]⟩ : Shape).Idx → α) (rad : (⟨2, ![320000, 16]⟩ : Shape).Idx → α)
    (ang : (⟨2, ![320000, 4]⟩ : Shape).Idx → α) (idx : (⟨2, ![2, 320000]⟩ : Shape).Idx → BitVec 32) :
    (⟨2, ![320000, 276]⟩ : Shape).Idx → α := fun j =>
  if h1 : (j 1).val < 128 then tbl (ix2 (row (idx (ix2 (0 : Fin 2) (j 0)))) ⟨(j 1).val, h1⟩)
  else if h2 : (j 1).val < 256 then tbl (ix2 (row (idx (ix2 (1 : Fin 2) (j 0)))) ⟨(j 1).val - 128, by omega⟩)
  else if h3 : (j 1).val < 272 then rad (ix2 (j 0) ⟨(j 1).val - 256, by omega⟩)
  else ang (ix2 (j 0) ⟨(j 1).val - 272, by have := (j 1).isLt; simp at this; omega⟩)

/-- The left 256 columns alone: what the gather kernel writes. -/
def Gleft {α : Type} (tbl : (⟨2, ![10000, 128]⟩ : Shape).Idx → α) (src dst : (⟨1, ![320000]⟩ : Shape).Idx → BitVec 32)
    (e : Fin 320000) (c : Fin 256) : α :=
  if h1 : c.val < 128 then tbl (ix2 (row (src (ix1 e))) ⟨c.val, h1⟩)
  else tbl (ix2 (row (dst (ix1 e))) ⟨c.val - 128, by omega⟩)

end Cert.Hand.Spec

end
-- ==== Proof.HB.Slabs.lean ====
/-
  The arrays as a vector subcore's task addresses them, in the program's own spelling: the node table whole, the task's
  slab of 10000 entries of each index array, and the task's fifty output chunks of 200 rows by 256 columns (two per
  trip of its loop). Task (core c, subcore s) is worker 2 s + c; its slab starts at entry 10000 (2 s + c), and chunk
  r of trip k starts at row 10000 (2 s + c) + 400 k + 200 r.
-/
import proofs.«210912_g7524782702854_cont_9to1c4b_744_40_alg».proof.Proof.HB.Setup
import proofs.«210912_g7524782702854_cont_9to1c4b_744_40_alg».proof.Proof.Spec

noncomputable section

namespace Cert.Kernel.Hand

open Cert.Kernel Cert.Kernel.Gen

open Idealize.ShloMosaic
open Idealize.ShloMosaic.SparseCore (S V T)

/-! ## The task's memrefs -/

abbrev tblV : Memref sig .scVector .hbm S10000x128 .f32 := Memref.whole main_arg0_scv
abbrev srcV : Memref sig .scVector .hbm S320000 .i32 := Memref.whole main_v1_scv
abbrev dstV : Memref sig .scVector .hbm S320000 .i32 := Memref.whole main_v3_scv
abbrev outV : Memref sig .scVector .hbm S320000x276 .f32 := Memref.whole main_v4_scv

/-- The thread of the task at grid coordinates `L`. -/
abbrev cV (L : grid0.Coords) : Fin τ.nSC := (L 0).castLE hcore0
abbrev jV (L : grid0.Coords) : Fin τ.nSub := (L 1).castLE hsub0

/-- The task's slab of the source-index array, and of the destination-index array. -/
abbrev srcSlab (L : grid0.Coords) : Memref sig .scVector .hbm S10000 .i32 :=
  (srcV).slice (Rect.unit (s := S320000) (k0_off1 L) S10000.size (k0_off1_inb L)) (fun _ => rfl)
abbrev dstSlab (L : grid0.Coords) : Memref sig .scVector .hbm S10000 .i32 :=
  (dstV).slice (Rect.unit (s := S320000) (k0_off1 L) S10000.size (k0_off1_inb L)) (fun _ => rfl)

/-- The task's two output chunks of trip `k`: rows 400 k + [0, 200) and 400 k + [200, 400) of its slab, columns [0, 256). -/
abbrev outChunk0 (L : grid0.Coords) (k : Fin k0_t1_loop.trips) : Memref sig .scVector .hbm S200x256 .f32 :=
  (outV).slice (Rect.unit (s := S320000x276) (k0_off3 L k 0#32) S200x256.size (k0_off3_inb L k 0)) (fun _ => rfl)
abbrev outChunk1 (L : grid0.Coords) (k : Fin k0_t1_loop.trips) : Memref sig .scVector .hbm S200x256 .f32 :=
  (outV).slice (Rect.unit (s := S320000x276) (k0_off3 L k 200#32) S200x256.size (k0_off3_inb L k 1)) (fun _ => rfl)

/-- The first row of the task's slab. -/
def base (L : grid0.Coords) : Nat := 20000 * (L 1).val + 10000 * (L 0).val

theorem base_add_lt (L : grid0.Coords) (k : Fin k0_t1_loop.trips) (r : Fin 2) (a : Fin 200) :
    base L + 400 * k.val + 200 * r.val + a.val < 320000 := by
  have h0 : (L 0).val < 2 := (L 0).isLt
  have h1 : (L 1).val < 16 := (L 1).isLt
  have hk : k.val < 25 := lt_of_lt_of_le k.isLt k0_t1_abs.2.1
  have hr := r.isLt; have ha := a.isLt
  unfold base; omega

/-- The array row that row `a` of chunk `r` of trip `k` is. -/
def chunkRow (L : grid0.Coords) (k : Fin k0_t1_loop.trips) (r : Fin 2) (a : Fin 200) : Fin 320000 :=
  ⟨base L + 400 * k.val + 200 * r.val + a.val, base_add_lt L k r a⟩

end Cert.Kernel.Hand

end
-- ==== Proof.HB.Tile.lean ====
/-
  The body of one vector subcore's task of the gather kernel, once, at a symbolic place: the task copies its slab of
  each index array into its own memory, then in each trip of its loop gathers four blocks of two hundred table rows
  (the source rows and the destination rows of two chunks of edges) into two staging buffers and copies each staging
  buffer to its chunk of the result. After the task every chunk holds, at row a and column b, the left part of the
  specification at the array row the chunk's row a is.
-/
import proofs.«210912_g7524782702854_cont_9to1c4b_744_40_alg».proof.Proof.HB.Slabs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

section Body
variable (d : Dev nD) (L : grid0.Coords)

/-! ## The task's scratch: four buffers and eight transfer semaphores -/

abbrev sc0 : Memref sig .scVector .vmem S10000 .i32 := Memref.whole cc0_scratch0
abbrev sc1 : Memref sig .scVector .vmem S10000 .i32 := Memref.whole cc0_scratch1
abbrev sc2 : Memref sig .scVector .vmem S200x256 .f32 := Memref.whole cc0_scratch2
abbrev sc3 : Memref sig .scVector .vmem S200x256 .f32 := Memref.whole cc0_scratch3

/-- The two hundred entries of each index scratch that a chunk of trip k gathers by. -/
abbrev lst0 (k : Fin k0_t1_loop.trips) : Memref sig .scVector .vmem S200 .i32 :=
  (sc0).slice (Rect.unit (s := S10000) (k0_off2 k 0#32) S200.size (k0_off2_inb k 0)) (fun _ => rfl)
abbrev lst0' (k : Fin k0_t1_loop.trips) : Memref sig .scVector .vmem S200 .i32 :=
  (sc0).slice (Rect.unit (s := S10000) (k0_off2 k 200#32) S200.size (k0_off2_inb k 1)) (fun _ => rfl)
abbrev lst1 (k : Fin k0_t1_loop.trips) : Memref sig .scVector .vmem S200 .i32 :=
  (sc1).slice (Rect.unit (s := S10000) (k0_off2 k 0#32) S200.size (k0_off2_inb k 0)) (fun _ => rfl)
abbrev lst1' (k : Fin k0_t1_loop.trips) : Memref sig .scVector .vmem S200 .i32 :=
  (sc1).slice (Rect.unit (s := S10000) (k0_off2 k 200#32) S200.size (k0_off2_inb k 1)) (fun _ => rfl)

/-- The eight transfer semaphores of a task. -/
def semOf : Fin 8 → SemLoc sig :=
  ![SemLoc.dma cc0_scratch4.sem, SemLoc.dma cc0_scratch5.sem, SemLoc.dma cc0_scratch6.sem, SemLoc.dma cc0_scratch7.sem,
    SemLoc.dma cc0_scratch8.sem, SemLoc.dma cc0_scratch9.sem, SemLoc.dma cc0_scoped0.sem, SemLoc.dma cc0_scoped1.sem]

theorem semOf_inj : Function.Injective semOf := by decide
theorem semOf_scoped : ∀ j, (semOf j).isScoped .scVector = true := by decide

/-- A thread's eight cells. -/
def semE (t : Thread nD τ) : Fin 8 ↪ GSem nD τ sig := ⟨fun j => (t, semOf j), fun _ _ h => semOf_inj (Prod.mk.inj h).2⟩

omit [FloatOps F] in
/-- The task's own cells at zero are its eight transfer semaphores at zero and the rest. -/
theorem ownSems0_V :
    (ownSems0 (V d (cV L) (jV L)) : sProp 𝕄)
      = iprop((semVal (V d (cV L) (jV L), SemLoc.dma cc0_scratch4.sem) 0 ∗ semVal (V d (cV L) (jV L), SemLoc.dma cc0_scratch5.sem) 0
          ∗ semVal (V d (cV L) (jV L), SemLoc.dma cc0_scratch6.sem) 0 ∗ semVal (V d (cV L) (jV L), SemLoc.dma cc0_scratch7.sem) 0
          ∗ semVal (V d (cV L) (jV L), SemLoc.dma cc0_scratch8.sem) 0 ∗ semVal (V d (cV L) (jV L), SemLoc.dma cc0_scratch9.sem) 0
          ∗ semVal (V d (cV L) (jV L), SemLoc.dma cc0_scoped0.sem) 0 ∗ semVal (V d (cV L) (jV L), SemLoc.dma cc0_scoped1.sem) 0)
          ∗ bigSep (ownCells (V d (cV L) (jV L)) \ Finset.univ.map (semE (V d (cV L) (jV L)))) fun g => semVal g 0) := by
  unfold SparseCore.Cfg.ownSems0
  have hsub : Finset.univ.map (semE (V d (cV L) (jV L))) ⊆ ownCells (V d (cV L) (jV L)) := by
    intro g hg
    obtain ⟨j, -, rfl⟩ := Finset.mem_map.mp hg
    exact mem_ownCells.mpr ⟨rfl, semOf_scoped j⟩
  rw [bigSep_sdiff_split hsub, bigSep_map,
    show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

omit [FloatOps F] in
/-- The task's own buffers are its four scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
/-- The same with the scratch buffers as the program addresses them. -/
theorem ownBufs_V' :
    (ownBufs (V d (cV L) (jV L)) : sProp 𝕄)
      = iprop((∃ f, (sc0).view.loc (V d (cV L) (jV L)) ↦{fullShare} f) ∗ (∃ f, (sc1).view.loc (V d (cV L) (jV L)) ↦{fullShare} f)
          ∗ (∃ f, (sc2).view.loc (V d (cV L) (jV L)) ↦{fullShare} f) ∗ (∃ f, (sc3).view.loc (V d (cV L) (jV L)) ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := ownBufs_V d L

end Body

section Value
variable {d : Dev nD} (L : grid0.Coords)

/-- What chunk r of trip k holds after the task: at row a, column b the left part of the specification at the array row. -/
def ChunkOK (L : grid0.Coords) (k : Fin k0_t1_loop.trips) (r : Fin 2)
    (ft : Buf (Elt F) ((tblV).view.loc (V d (cV L) (jV L)))) (fs fd : Buf (Elt F) ((srcV).view.loc (V d (cV L) (jV L))))
    (f : Buf (Elt F) ((outV).view.loc (V d (cV L) (jV L)))) : Prop :=
  ∀ (a : Fin 200) (b : Fin 256), f (ix2 (chunkRow L k r a) ⟨b.val, by omega⟩) = Cert.Hand.Spec.Gleft ft fs fd (chunkRow L k r a) b

/-- The table as the gathers address it. -/
abbrev tblG : Memref sig .scVector .hbm S10000x128 .f32 :=
  (tblV).slice (Rect.unit (s := S10000x128) ![0, 0] S10000x128.size inb_S10000x128_S10000x128_0_0) (fun _ => rfl)
abbrev rectA : Rect S200x256 := Rect.unit (s := S200x256) ![0, 0] S200x128.size inb_S200x256_S200x128_0_0
abbrev rectB : Rect S200x256 := Rect.unit (s := S200x256) ![0, 128] S200x128.size inb_S200x256_S200x128_0_128

omit [FloatOps F] in
/-- Row a of a gather's payload is the table's row at the a-th word of the list. -/
theorem gather_apply (T : S10000x128.Idx → Elt F .f32) (i : S200.Idx → Elt F .i32)
    (hn : S200.numel = S200x128.size (gathers_S10000x128_S200x128).axis')
    (hi : ∀ x, (i x).toNat < S10000x128.size (gathers_S10000x128_S200x128).axis) (a : Fin 200) (c : Fin 128) :
    SparseCore.gatherPayload gathers_S10000x128_S200x128 T (SparseCore.rows i hn hi) (ix2 a c)
      = T (ix2 (⟨(i (ix1 a)).toNat, hi _⟩ : Fin 10000) c) := by
  unfold SparseCore.gatherPayload
  congr 1
  funext e
  match e with
  | ⟨0, _⟩ =>
    apply Fin.ext
    have h := Shape.Gathers.idx_axis gathers_S10000x128_S200x128 (SparseCore.rows i hn hi) (ix2 a c : S200x128.Idx)
    have h' := congrArg Fin.val h
    refine h'.trans ?_
    unfold SparseCore.rows
    show (i _).toNat = (i (ix1 a)).toNat
    congr 2
    rw [Equiv.symm_apply_eq]
    apply Fin.ext
    rw [Shape.rowMajor_val_one]
    rfl
  | ⟨1, _⟩ =>
    apply Fin.ext
    exact Shape.Gathers.idx_of_ne gathers_S10000x128_S200x128 (SparseCore.rows i hn hi) (ix2 a c : S200x128.Idx) ⟨1, by decide⟩ (by decide)

omit [FloatOps F] in
/-- A staging buffer after its two gathers: columns below 128 hold the table's rows at the first list's words, the others the
    rows at the second list's. -/
theorem stage_read {κ : Kind} {sp : Space} (v : View sig κ sp S200x256 .f32) (g : v.ty.Contents (Elt F))
    (T : S10000x128.Idx → Elt F .f32) (i0 i1 : S200.Idx → Elt F .i32)
    (hn : S200.numel = S200x128.size (gathers_S10000x128_S200x128).axis')
    (h0 : ∀ x, (i0 x).toNat < S10000x128.size (gathers_S10000x128_S200x128).axis)
    (h1 : ∀ x, (i1 x).toNat < S10000x128.size (gathers_S10000x128_S200x128).axis) (a : Fin 200) (b : Fin 256) :
    v.read (Elt F) (v.writes (Elt F) g
        [⟨rectB, SparseCore.gatherPayload gathers_S10000x128_S200x128 T (SparseCore.rows i1 hn h1)⟩,
         ⟨rectA, SparseCore.gatherPayload gathers_S10000x128_S200x128 T (SparseCore.rows i0 hn h0)⟩]) (ix2 a b)
      = if h : b.val < 128 then T (ix2 (⟨(i0 (ix1 a)).toNat, h0 _⟩ : Fin 10000) ⟨b.val, h⟩)
        else T (ix2 (⟨(i1 (ix1 a)).toNat, h1 _⟩ : Fin 10000) ⟨b.val - 128, by omega⟩) := by
  by_cases h : b.val < 128
  · rw [dif_pos h]
    have hx : (ix2 a b : S200x256.Idx) = rectA.emb (ix2 a (⟨b.val, h⟩ : Fin 128) : S200x128.Idx) := by
      funext e; apply Fin.ext
      match e with
      | ⟨0, _⟩ => simp [Rect.emb_apply]
      | ⟨1, _⟩ => simp [Rect.emb_apply]
    have hnot : (ix2 a b : S200x256.Idx) ∉ Finset.univ.map rectB.emb := by
      rw [Rect.map_emb_univ, Rect.mem_set_unit]
      intro hh
      have hh1 := hh (⟨1, by decide⟩ : Fin S200x256.rank)
      have h1' : 128 ≤ b.val := hh1.1
      omega
    rw [View.writes_cons, View.read_slice_write_of_not_mem rectB _ _ _ hnot, hx, View.read_writes_cons_emb, gather_apply]
  · rw [dif_neg h]
    have hx : (ix2 a b : S200x256.Idx) = rectB.emb (ix2 a (⟨b.val - 128, by omega⟩ : Fin 128) : S200x128.Idx) := by
      funext e; apply Fin.ext
      match e with
      | ⟨0, _⟩ => simp [Rect.emb_apply]
      | ⟨1, _⟩ => show b.val = 128 + 1 * (b.val - 128); omega
    rw [hx, View.read_writes_cons_emb, gather_apply]

/-- Chunk r of trip k of the result, and the entries of an index scratch it is gathered by, with the chunk's number as a number. -/
abbrev outChunkR (k : Fin k0_t1_loop.trips) (r : Fin 2) : Memref sig .scVector .hbm S200x256 .f32 :=
  (outV).slice (Rect.unit (s := S320000x276) (k0_off3 L k (BitVec.ofNat 32 (200 * r.val))) S200x256.size (k0_off3_inb L k r)) (fun _ => rfl)
abbrev lstR (sc : Memref sig .scVector .vmem S10000 .i32) (k : Fin k0_t1_loop.trips) (r : Fin 2) : Memref sig .scVector .vmem S200 .i32 :=
  sc.slice (Rect.unit (s := S10000) (k0_off2 k (BitVec.ofNat 32 (200 * r.val))) S200.size (k0_off2_inb k r)) (fun _ => rfl)

omit [FloatOps F] in
theorem read_tblV (ft : Buf (Elt F) ((tblV).view.loc (V d (cV L) (jV L)))) (z : S10000x128.Idx) :
    (tblV).view.read (Elt F) ft z = ft z := rfl

omit [FloatOps F] in
theorem read_tblG (ft : Buf (Elt F) ((tblV).view.loc (V d (cV L) (jV L)))) (z : S10000x128.Idx) :
    (tblG).view.read (Elt F) ft z
      = (tblV).view.read (Elt F) ft ((Rect.unit (s := S10000x128) ![0, 0] S10000x128.size inb_S10000x128_S10000x128_0_0).emb z) := rfl

omit [FloatOps F] in
/-- Entry a of the list of chunk r of trip k, read through a scratch that reads as a slab of an index array, is the array's
    word at the chunk's row a. -/
theorem list_read (sl : Memref sig .scVector .hbm S320000 .i32) (sc : Memref sig .scVector .vmem S10000 .i32)
    (fs : Buf (Elt F) (sl.view.loc (V d (cV L) (jV L)))) (S : Buf (Elt F) (sc.view.loc (V d (cV L) (jV L))))
    (hS : ∀ j, sc.view.read (Elt F) S j
      = (sl.slice (Rect.unit (s := S320000) (k0_off1 L) S10000.size (k0_off1_inb L)) (fun _ => rfl)).view.read (Elt F) fs j)
    (k : Fin k0_t1_loop.trips) (r : Fin 2) (a : Fin 200) :
    (lstR sc k r).view.read (Elt F) S (ix1 a) = sl.view.read (Elt F) fs (ix1 (chunkRow L k r a)) := by
  refine (hS ((Rect.unit (s := S10000) (k0_off2 k (BitVec.ofNat 32 (200 * r.val))) S200.size (k0_off2_inb k r)).emb (ix1 a))).trans ?_
  show sl.view.read (Elt F) fs ((Rect.unit (s := S320000) (k0_off1 L) S10000.size (k0_off1_inb L)).emb
    ((Rect.unit (s := S10000) (k0_off2 k (BitVec.ofNat 32 (200 * r.val))) S200.size (k0_off2_inb k r)).emb (ix1 a))) = _
  congr 1
  funext e; apply Fin.ext
  match e with
  | ⟨0, _⟩ =>
    show (k0_off1 L) 0 + 1 * ((k0_off2 k (BitVec.ofNat 32 (200 * r.val))) 0 + 1 * a.val) = base L + 400 * k.val + 200 * r.val + a.val
    rw [k0_off1_eq L, k0_off2_eq k r]
    show 20000 * (L 1).val + 10000 * (L 0).val + 1 * (400 * k.val + 200 * r.val + 1 * a.val) = _
    unfold base; omega

set_option maxHeartbeats 1000000 in
/-- A staging buffer after its two gathers, copied to chunk r of trip k: the chunk holds the specification's left part. -/
theorem chunk_ok (k : Fin k0_t1_loop.trips) (r : Fin 2)
    (ft : Buf (Elt F) ((tblV).view.loc (V d (cV L) (jV L)))) (fs fd : Buf (Elt F) ((srcV).view.loc (V d (cV L) (jV L))))
    (fo : Buf (Elt F) ((outV).view.loc (V d (cV L) (jV L))))
    (S0 : Buf (Elt F) ((sc0).view.loc (V d (cV L) (jV L)))) (S1 : Buf (Elt F) ((sc1).view.loc (V d (cV L) (jV L))))
    {κ : Kind} {sp : Space} (v : View sig κ sp S200x256 .f32) (g : v.ty.Contents (Elt F))
    (hS0 : ∀ j, (sc0).view.read (Elt F) S0 j = (srcSlab L).view.read (Elt F) fs j)
    (hS1 : ∀ j, (sc1).view.read (Elt F) S1 j = (dstSlab L).view.read (Elt F) fd j)
    (hs : ∀ j, (fs j).toNat < 10000) (hd : ∀ j, (fd j).toNat < 10000)
    (hn : S200.numel = S200x128.size (gathers_S10000x128_S200x128).axis')
    (hin0 : ∀ x, ((lstR sc0 k r).view.read (Elt F) S0 x).toNat < S10000x128.size (gathers_S10000x128_S200x128).axis)
    (hin1 : ∀ x, ((lstR sc1 k r).view.read (Elt F) S1 x).toNat < S10000x128.size (gathers_S10000x128_S200x128).axis) :
    ChunkOK (d := d) L k r ft fs fd ((outChunkR L k r).view.writes (Elt F) fo [⟨Rect.whole S200x256, ReadAs.same.apply (v.read (Elt F) (v.writes (Elt F) g
      [⟨rectB, SparseCore.gatherPayload gathers_S10000x128_S200x128 ((tblG).view.read (Elt F) ft) (SparseCore.rows ((lstR sc1 k r).view.read (Elt F) S1) hn hin1)⟩,
       ⟨rectA, SparseCore.gatherPayload gathers_S10000x128_S200x128 ((tblG).view.read (Elt F) ft) (SparseCore.rows ((lstR sc0 k r).view.read (Elt F) S0) hn hin0)⟩]))⟩]) := by
  intro a b
  have hidx : (ix2 (chunkRow L k r a) (⟨b.val, by omega⟩ : Fin 276) : S320000x276.Idx)
      = (Rect.unit (s := S320000x276) (k0_off3 L k (BitVec.ofNat 32 (200 * r.val))) S200x256.size (k0_off3_inb L k r)).emb
          ((Rect.whole S200x256).emb (ix2 a b)) := by
    funext e; apply Fin.ext
    rw [Rect.emb_whole_apply]
    match e with
    | ⟨0, _⟩ =>
      show base L + 400 * k.val + 200 * r.val + a.val = (k0_off3 L k (BitVec.ofNat 32 (200 * r.val))) 0 + 1 * a.val
      rw [k0_off3_eq L k r]
      show _ = 20000 * (L 1).val + 10000 * (L 0).val + 400 * k.val + 200 * r.val + 1 * a.val
      unfold base; omega
    | ⟨1, _⟩ =>
      show b.val = (k0_off3 L k (BitVec.ofNat 32 (200 * r.val))) 1 + 1 * b.val
      rw [k0_off3_eq L k r]
      show _ = 0 + 1 * b.val
      omega
  have hread := View.read_writes_cons_emb (v := (outChunkR L k r).view) (f := fo) (Rect.whole S200x256)
    (ReadAs.same.apply (v.read (Elt F) (v.writes (Elt F) g
      [⟨rectB, SparseCore.gatherPayload gathers_S10000x128_S200x128 ((tblG).view.read (Elt F) ft) (SparseCore.rows ((lstR sc1 k r).view.read (Elt F) S1) hn hin1)⟩,
       ⟨rectA, SparseCore.gatherPayload gathers_S10000x128_S200x128 ((tblG).view.read (Elt F) ft) (SparseCore.rows ((lstR sc0 k r).view.read (Elt F) S0) hn hin0)⟩])))
    [] (ix2 a b)
  rw [hidx]
  refine Eq.trans hread ?_
  show v.read (Elt F) _ (ix2 a b) = _
  rw [stage_read]
  unfold Cert.Hand.Spec.Gleft
  by_cases h : b.val < 128
  · rw [dif_pos h, dif_pos h, read_tblG,
      ← read_tblV L ft (ix2 (Cert.Hand.Spec.row (fs (ix1 (chunkRow L k r a)))) (⟨b.val, h⟩ : Fin 128))]
    refine congrArg ((tblV).view.read (Elt F) ft) ?_
    funext e; apply Fin.ext
    match e with
    | ⟨0, _⟩ =>
      show 0 + 1 * ((lstR sc0 k r).view.read (Elt F) S0 (ix1 a)).toNat = (Cert.Hand.Spec.row (fs (ix1 (chunkRow L k r a)))).val
      rw [Cert.Hand.Spec.row_val_of_lt (hs _), list_read L srcV sc0 fs S0 hS0 k r a]
      show 0 + 1 * (fs (ix1 (chunkRow L k r a))).toNat = (fs (ix1 (chunkRow L k r a))).toNat
      omega
    | ⟨1, _⟩ =>
      show 0 + 1 * b.val = b.val
      omega
  · rw [dif_neg h, dif_neg h, read_tblG,
      ← read_tblV L ft (ix2 (Cert.Hand.Spec.row (fd (ix1 (chunkRow L k r a)))) (⟨b.val - 128, by omega⟩ : Fin 128))]
    refine congrArg ((tblV).view.read (Elt F) ft) ?_
    funext e; apply Fin.ext
    match e with
    | ⟨0, _⟩ =>
      show 0 + 1 * ((lstR sc1 k r).view.read (Elt F) S1 (ix1 a)).toNat = (Cert.Hand.Spec.row (fd (ix1 (chunkRow L k r a)))).val
      rw [Cert.Hand.Spec.row_val_of_lt (hd _), list_read L dstV sc1 fd S1 hS1 k r a]
      show 0 + 1 * (fd (ix1 (chunkRow L k r a))).toNat = (fd (ix1 (chunkRow L k r a))).toNat
      omega
    | ⟨1, _⟩ =>
      show 0 + 1 * (b.val - 128) = b.val - 128
      omega

end Value

section Main
variable (d : Dev nD) (L : grid0.Coords)

omit [FloatOps F] in
/-- A share of an array as four read shares and the remainder. -/
theorem toks4 {ℓ : Loc nD τ sig} {f : Buf (Elt F) ℓ} (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [show Finset.range 4 = {0, 1, 2, 3} by decide, bigSep_insert (by decide), bigSep_insert (by decide), bigSep_insert (by decide),
    bigSep_singleton] at h
  exact h

omit [FloatOps F] in
/-- The chunks of the trips: those below trip n done, those from n on to do. Trip n's are taken out before it -/
theorem chunks_open (n : Fin k0_t1_loop.trips) (A B : Fin k0_t1_loop.trips → sProp 𝕄) :
    (bigSep Finset.univ fun k : Fin k0_t1_loop.trips => if k.val < n.val then A k else B k)
      = iprop(B n ∗ bigSep (Finset.univ.erase n) fun k : Fin k0_t1_loop.trips => if k.val < n.val then A k else B k) := by
  rw [bigSep_univ_split n, if_neg (lt_irrefl _)]
  rfl

omit [FloatOps F] in
/-- and put back after it. -/
theorem chunks_close (n : Fin k0_t1_loop.trips) (A B : Fin k0_t1_loop.trips → sProp 𝕄) :
    iprop(A n ∗ bigSep (Finset.univ.erase n) fun k : Fin k0_t1_loop.trips => if k.val < n.val then A k else B k)
      = (bigSep Finset.univ fun k : Fin k0_t1_loop.trips => if k.val < n.val + 1 then A k else B k) := by
  rw [bigSep_univ_split n (Φ := fun k : Fin k0_t1_loop.trips => if k.val < n.val + 1 then A k else B k), if_pos (Nat.lt_succ_self _)]
  congr 1
  refine bigSep_congr fun k hk => ?_
  have hne : k.val ≠ n.val := fun e => (Finset.mem_erase.mp hk).1 (Fin.ext e)
  by_cases h : k.val < n.val
  · rw [if_pos h, if_pos (by omega)]
  · rw [if_neg h, if_neg (by omega)]

/-- A task's two chunks of trip k, as the task receives them -/
def todo (fo : Buf (Elt F) ((outV).view.loc (V d (cV L) (jV L)))) (k : Fin k0_t1_loop.trips) : sProp 𝕄 :=
  iprop(((outChunk0 L k).view.loc (V d (cV L) (jV L)) ↦[(outChunk0 L k).view.set]{fullShare} fo)
    ∗ ((outChunk1 L k).view.loc (V d (cV L) (jV L)) ↦[(outChunk1 L k).view.set]{fullShare} fo))

/-- and as it leaves them. -/
def done (ft : Buf (Elt F) ((tblV).view.loc (V d (cV L) (jV L)))) (fs fd : Buf (Elt F) ((srcV).view.loc (V d (cV L) (jV L))))
    (k : Fin k0_t1_loop.trips) : sProp 𝕄 :=
  iprop((∃ f, ⌜ChunkOK (d := d) L k 0 ft fs fd f⌝ ∗ (outChunk0 L k).view.loc (V d (cV L) (jV L)) ↦[(outChunk0 L k).view.set]{fullShare} f)
    ∗ (∃ f, ⌜ChunkOK (d := d) L k 1 ft fs fd f⌝ ∗ (outChunk1 L k).view.loc (V d (cV L) (jV L)) ↦[(outChunk1 L k).view.set]{fullShare} f))

/-- The loop's invariant before trip n: the wait evidence, the table's read shares, the two index slabs in the index scratch
    buffers, the two staging buffers at some contents, the six semaphores of the loop at zero, the chunks of the trips below n
    done and the others to do, and what the thread owes. -/
def inv (q : PosShare TreeShare) (ft : Buf (Elt F) ((tblV).view.loc (V d (cV L) (jV L)))) (fs fd : Buf (Elt F) ((srcV).view.loc (V d (cV L) (jV L))))
    (fo : Buf (Elt F) ((outV).view.loc (V d (cV L) (jV L))))
    (S0 : Buf (Elt F) ((sc0).view.loc (V d (cV L) (jV L)))) (S1 : Buf (Elt F) ((sc1).view.loc (V d (cV L) (jV L))))
    (O : CellTallies nD τ sig (HIx 1)) (W : Waits sig (HIx 1)) (n : Nat) (_ : BitVec 32) : sProp 𝕄 :=
  iprop(Transfers.MayWaits (V d (cV L) (jV L)) (none : HIx 1) O
    ∗ ((tblV).view.loc (V d (cV L) (jV L)) ↦{Transfers.shareDrop q 4} ft)
    ∗ ((tblV).view.loc (V d (cV L) (jV L)) ↦{Transfers.shareTokN q 0} ft)
    ∗ ((tblV).view.loc (V d (cV L) (jV L)) ↦{Transfers.shareTokN q 1} ft)
    ∗ ((tblV).view.loc (V d (cV L) (jV L)) ↦{Transfers.shareTokN q 2} ft)
    ∗ ((tblV).view.loc (V d (cV L) (jV L)) ↦{Transfers.shareTokN q 3} ft)
    ∗ ((sc0).view.loc (V d (cV L) (jV L)) ↦{fullShare} S0)
    ∗ ((sc1).view.loc (V d (cV L) (jV L)) ↦{fullShare} S1)
    ∗ (∃ g, (sc2).view.loc (V d (cV L) (jV L)) ↦{fullShare} g)
    ∗ (∃ g, (sc3).view.loc (V d (cV L) (jV L)) ↦{fullShare} g)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ (bigSep Finset.univ fun k : Fin k0_t1_loop.trips => if k.val < n then done d L ft fs fd k else todo d L fo k)
    ∗ ∃ W', ⌜∀ p ∈ W', p ∈ W ∨ p.2 = none⌝ ∗ owes (V d (cV L) (jV L)) O W')

omit [FloatOps F] in
/-- An index scratch after its slab has landed reads as the slab. -/
theorem slab_abs (sl : Memref sig .scVector .hbm S10000 .i32) (sc : Memref sig .scVector .vmem S10000 .i32)
    (fs : Buf (Elt F) (sl.view.loc (V d (cV L) (jV L)))) (g : Buf (Elt F) (sc.view.loc (V d (cV L) (jV L))))
    (w : S10000.Idx → Elt F .i32) (hw : w = ReadAs.same.apply (sl.view.read (Elt F) fs)) :
    (sc.view.loc (V d (cV L) (jV L)) ↦{fullShare} View.write (Elt F) sc.view g w Finset.univ : sProp 𝕄)
      ⊢ iprop(∃ S, ⌜∀ j, sc.view.read (Elt F) S j = sl.view.read (Elt F) fs j⌝ ∗ sc.view.loc (V d (cV L) (jV L)) ↦{fullShare} S) := by
  subst hw
  iintro H
  iexists (View.write (Elt F) sc.view g (ReadAs.same.apply (sl.view.read (Elt F) fs)) Finset.univ)
  isplitr
  · ipureintro; intro j; rw [View.read_write_univ]
  · iexact H

omit [FloatOps F] in
theorem chunks_init (A B : Fin k0_t1_loop.trips → sProp 𝕄) :
    (bigSep Finset.univ fun k : Fin k0_t1_loop.trips => if k.val < 0 then A k else B k) = bigSep Finset.univ B :=
  bigSep_congr fun k _ => if_neg (Nat.not_lt_zero _)

omit [FloatOps F] in
theorem chunks_done (A B : Fin k0_t1_loop.trips → sProp 𝕄) :
    (bigSep Finset.univ fun k : Fin k0_t1_loop.trips => if k.val < k0_t1_loop.trips then A k else B k) = bigSep Finset.univ A :=
  bigSep_congr fun k _ => if_pos k.isLt

theorem todo_def (fo : Buf (Elt F) ((outV).view.loc (V d (cV L) (jV L)))) (k : Fin k0_t1_loop.trips) :
    todo d L fo k = iprop(((outChunk0 L k).view.loc (V d (cV L) (jV L)) ↦[(outChunk0 L k).view.set]{fullShare} fo)
      ∗ ((outChunk1 L k).view.loc (V d (cV L) (jV L)) ↦[(outChunk1 L k).view.set]{fullShare} fo)) := rfl

theorem done_def (ft : Buf (Elt F) ((tblV).view.loc (V d (cV L) (jV L)))) (fs fd : Buf (Elt F) ((srcV).view.loc (V d (cV L) (jV L))))
    (k : Fin k0_t1_loop.trips) :
    done d L ft fs fd k = iprop((∃ f, ⌜ChunkOK (d := d) L k 0 ft fs fd f⌝ ∗ (outChunk0 L k).view.loc (V d (cV L) (jV L)) ↦[(outChunk0 L k).view.set]{fullShare} f)
      ∗ (∃ f, ⌜ChunkOK (d := d) L k 1 ft fs fd f⌝ ∗ (outChunk1 L k).view.loc (V d (cV L) (jV L)) ↦[(outChunk1 L k).view.set]{fullShare} f)) := rfl

theorem chunks_take (n : Fin k0_t1_loop.trips) (A : Fin k0_t1_loop.trips → sProp 𝕄) (fo : Buf (Elt F) ((outV).view.loc (V d (cV L) (jV L)))) :
    (bigSep Finset.univ fun k : Fin k0_t1_loop.trips => if k.val < n.val then A k else todo d L fo k)
      = iprop((((outChunk0 L n).view.loc (V d (cV L) (jV L)) ↦[(outChunk0 L n).view.set]{fullShare} fo)
          ∗ ((outChunk1 L n).view.loc (V d (cV L) (jV L)) ↦[(outChunk1 L n).view.set]{fullShare} fo))
        ∗ bigSep (Finset.univ.erase n) fun k : Fin k0_t1_loop.trips => if k.val < n.val then A k else todo d L fo k) :=
  chunks_open n A (todo d L fo)

theorem tile_body (q : PosShare TreeShare)
    (ft : Buf (Elt F) ((tblV).view.loc (V d (cV L) (jV L)))) (fs fd : Buf (Elt F) ((srcV).view.loc (V d (cV L) (jV L))))
    (fo : Buf (Elt F) ((outV).view.loc (V d (cV L) (jV L))))
    (hs : ∀ j, (fs j).toNat < 10000) (hd : ∀ j, (fd j).toNat < 10000)
    (O : CellTallies nD τ sig (HIx 1)) (W : Waits sig (HIx 1)) (hO : ∀ g, O g none = 0) :
    iprop(levAts (K (F := F)).L (K (F := F)).lev
        ∗ ((tblV).view.loc (V d (cV L) (jV L)) ↦{q} ft)
        ∗ ((srcSlab L).view.loc (V d (cV L) (jV L)) ↦[(srcSlab L).view.set]{fullShare} fs)
        ∗ ((dstSlab L).view.loc (V d (cV L) (jV L)) ↦[(dstSlab L).view.set]{fullShare} fd)
        ∗ (bigSep Finset.univ fun k : Fin k0_t1_loop.trips =>
            iprop(((outChunk0 L k).view.loc (V d (cV L) (jV L)) ↦[(outChunk0 L k).view.set]{fullShare} fo)
              ∗ ((outChunk1 L k).view.loc (V d (cV L) (jV L)) ↦[(outChunk1 L k).view.set]{fullShare} fo)))
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__gather_kernel L tblV (Memref.isWhole_whole _) srcV (Memref.isWhole_whole _) dstV (Memref.isWhole_whole _) outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0 cc0_scoped1)
          fun _ => iprop((((tblV).view.loc (V d (cV L) (jV L)) ↦{q} ft)
            ∗ ((srcSlab L).view.loc (V d (cV L) (jV L)) ↦[(srcSlab L).view.set]{fullShare} fs)
            ∗ ((dstSlab L).view.loc (V d (cV L) (jV L)) ↦[(dstSlab L).view.set]{fullShare} fd)
            ∗ (bigSep Finset.univ fun k : Fin k0_t1_loop.trips =>
                iprop((∃ f, ⌜ChunkOK (d := d) L k 0 ft fs fd f⌝ ∗ (outChunk0 L k).view.loc (V d (cV L) (jV L)) ↦[(outChunk0 L k).view.set]{fullShare} f)
                  ∗ (∃ f, ⌜ChunkOK (d := d) L k 1 ft fs fd f⌝ ∗ (outChunk1 L k).view.loc (V d (cV L) (jV L)) ↦[(outChunk1 L k).view.set]{fullShare} f))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_kernel_eq_skeleton]; unfold cc0__gather_kernel_skel
  rw [(K (F := F)).scopedBufs_V facts d (cV L) (jV L), SparseCore.Cfg.scopedSems0_V (Val := Elt F) d (cV L) (jV L), ownSems0_V, ownBufs_V']
  iintro ⟨#Hlv, Ht, Hs, Hd, Hb, ⟨⟨%g0, H0⟩, ⟨%g1, H1⟩, ⟨%g2, H2⟩, ⟨%g3, H3⟩, Hbufs⟩, ⟨⟨Hs4, Hs5, Hs6, Hs7, Hs8, Hs9, Hq0, Hq1⟩, Hsems⟩, HO⟩
  ihave Hmw := ((K (F := F)).mayWaits_none (thr := V d (cV L) (jV L)) hO) $$ Hlv
  ihave Ht' := (toks4 (F := F) q).1 $$ Ht
  icases Ht' with ⟨Htr, Ht0, Ht1, Ht2, Ht3⟩
  sl_exec
  ihave H0' := (slab_abs d L (srcSlab L) sc0 fs g0 (tile_body.sl.dma0 d L fs) rfl) $$ H0
  icases H0' with ⟨%S0, %hS0, H0⟩
  ihave H1' := (slab_abs d L (dstSlab L) sc1 fd g1 (tile_body.sl.dma0_1 d L fd) rfl) $$ H1
  icases H1' with ⟨%S1, %hS1, H1⟩
  have hin0 : ∀ (k : Fin k0_t1_loop.trips) x, ((lst0 k).view.read (Elt F) S0 x).toNat < S10000x128.size (gathers_S10000x128_S200x128).axis :=
    fun k x => (congrArg BitVec.toNat (hS0 _)).trans_lt (hs _)
  have hin0' : ∀ (k : Fin k0_t1_loop.trips) x, ((lst0' k).view.read (Elt F) S0 x).toNat < S10000x128.size (gathers_S10000x128_S200x128).axis :=
    fun k x => (congrArg BitVec.toNat (hS0 _)).trans_lt (hs _)
  have hin1 : ∀ (k : Fin k0_t1_loop.trips) x, ((lst1 k).view.read (Elt F) S1 x).toNat < S10000x128.size (gathers_S10000x128_S200x128).axis :=
    fun k x => (congrArg BitVec.toNat (hS1 _)).trans_lt (hd _)
  have hin1' : ∀ (k : Fin k0_t1_loop.trips) x, ((lst1' k).view.read (Elt F) S1 x).toNat < S10000x128.size (gathers_S10000x128_S200x128).axis :=
    fun k x => (congrArg BitVec.toNat (hS1 _)).trans_lt (hd _)
  sl_for (inv d L q ft fs fd fo S0 S1 O W) $$ [Hmw Htr Ht0 Ht1 Ht2 Ht3 H0 H1 H2 H3 Hs4 Hs5 Hs6 Hs7 Hs8 Hs9 Hb HO]
  case region =>
    intro k acc
    unfold inv
    iintro ⟨Hmw, Htr, Ht0, Ht1, Ht2, Ht3, H0, H1, ⟨%g2, H2⟩, ⟨%g3, H3⟩, Hs4, Hs5, Hs6, Hs7, Hs8, Hs9, Hb, %W', %hW', HO⟩
    ihave Hb' := (Entails.of_eq (chunks_take d L k _ fo)) $$ Hb
    icases Hb' with ⟨⟨Ho0, Ho1⟩, Hb⟩
    sl_exec
    sl_step
    isplitl [Hmw]; · iexact Hmw
    isplitl [Htr]; · iexact Htr
    isplitl [Ht0]; · iexact Ht0
    isplitl [Ht1]; · iexact Ht1
    isplitl [Ht2]; · iexact Ht2
    isplitl [Ht3]; · iexact Ht3
    isplitl [H0]; · iexact H0
    isplitl [H1]; · iexact H1
    isplitl [H2]; · iexists _; iexact H2
    isplitl [H3]; · iexists _; iexact H3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Ho0 Ho1 Hb]
    · iapply (Entails.of_eq (chunks_close k (done d L ft fs fd) (todo d L fo)))
      isplitl [Ho0 Ho1]
      · rw [done_def]
        isplitl [Ho0]
        · iexists _
          isplitr
          swap
          · iexact Ho0
          · ipureintro
            exact chunk_ok L k 0 ft fs fd fo S0 S1 (sc2).view g2 hS0 hS1 hs hd rfl (hin0 k) (hin1 k)
        · iexists _
          isplitr
          swap
          · iexact Ho1
          · ipureintro
            exact chunk_ok L k 1 ft fs fd fo S0 S1 (sc3).view g3 hS0 hS1 hs hd rfl (hin0' k) (hin1' k)
      · iexact Hb
    iexists _; isplitr
    swap
    · iexact HO
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      exact hW' p hp
  · unfold inv
    isplitl [Hmw]; · iexact Hmw
    isplitl [Htr]; · iexact Htr
    isplitl [Ht0]; · iexact Ht0
    isplitl [Ht1]; · iexact Ht1
    isplitl [Ht2]; · iexact Ht2
    isplitl [Ht3]; · iexact Ht3
    isplitl [H0]; · iexact H0
    isplitl [H1]; · iexact H1
    isplitl [H2]; · iexists _; iexact H2
    isplitl [H3]; · iexists _; iexact H3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hb]
    · iapply (Entails.of_eq (chunks_init (done d L ft fs fd) (todo d L fo)).symm)
      iexact Hb
    iexists _; isplitr
    swap
    · iexact HO
    · ipureintro; intro p hp
      rcases Finset.mem_insert.mp hp with hp | hp
      · exact .inr (by subst hp; rfl)
      rcases Finset.mem_insert.mp hp with hp | hp
      · exact .inr (by subst hp; rfl)
      exact .inl hp
  iintro %acc HI
  unfold inv
  icases HI with ⟨Hmw, Htr, Ht0, Ht1, Ht2, Ht3, H0, H1, ⟨%g2', H2⟩, ⟨%g3', H3⟩, Hs4, Hs5, Hs6, Hs7, Hs8, Hs9, Hb, %W', %hW', HO⟩
  sl_exec
  sl_step
  isplitl [Htr Ht0 Ht1 Ht2 Ht3 Hs Hd Hb]
  · isplitl [Htr Ht0 Ht1 Ht2 Ht3]
    · iapply (toks4 (F := F) q).2
      isplitl [Htr]; · iexact Htr
      isplitl [Ht0]; · iexact Ht0
      isplitl [Ht1]; · iexact Ht1
      isplitl [Ht2]; · iexact Ht2
      iexact Ht3
    isplitl [Hs]; · iexact Hs
    isplitl [Hd]; · iexact Hd
    ihave Hb' := (Entails.of_eq (chunks_done (done d L ft fs fd) (todo d L fo))) $$ Hb
    iexact Hb'
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs4 Hs5 Hs6 Hs7 Hs8 Hs9 Hq0 Hq1 Hsems]
  · isplitl [Hs4 Hs5 Hs6 Hs7 Hs8 Hs9 Hq0 Hq1]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hq0]; · iexact Hq0
      iexact Hq1
    · iexact Hsems
  iexists W'; isplitr
  · ipureintro; exact hW'
  · iexact HO

end Main

end Cert.Kernel.Hand

end
-- ==== Proof.HB.Pay.lean ====
/-
  What the one SparseCore call carries. The call hands each SparseCore the conjunction of what its sixteen tasks
  need, so the split of a SparseCore's operands into its tasks' is the identity and all cutting of arrays is done
  once, in @main's proof. A task is handed a read share of the node table, its slab of each index array and its
  fifty chunks of the result's left 256 columns; it hands back the same, each chunk now holding the left part of the
  specification.
-/
import proofs.«210912_g7524782702854_cont_9to1c4b_744_40_alg».proof.Proof.HB.Tile

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

local notation "𝕄" => MT nD τ sig (HIx 1) (Elt F) ℕ UU ℕ

/-! ## The arrays as the TensorCore names them -/

abbrev tblLoc (d : Dev nD) : Loc nD τ sig := (SparseCore.T d).loc main_arg0
abbrev radLoc (d : Dev nD) : Loc nD τ sig := (SparseCore.T d).loc main_arg1
abbrev angLoc (d : Dev nD) : Loc nD τ sig := (SparseCore.T d).loc main_arg2
abbrev idxLoc (d : Dev nD) : Loc nD τ sig := (SparseCore.T d).loc main_arg3
abbrev srcLoc (d : Dev nD) : Loc nD τ sig := (SparseCore.T d).loc main_v1
abbrev dstLoc (d : Dev nD) : Loc nD τ sig := (SparseCore.T d).loc main_v3
abbrev outLoc (d : Dev nD) : Loc nD τ sig := (SparseCore.T d).loc main_v4
abbrev resLoc (d : Dev nD) : Loc nD τ sig := (SparseCore.T d).loc main_v5

/-! ## A task's coordinates and its read token -/

theorem bound_zero : grid0.bound 0 = 2 := rfl
theorem bound_one : grid0.bound 1 = 16 := rfl

/-- The grid coordinates of task `i` of SparseCore `c` of the call. -/
def coordsV (c : Fin (grid0.bound 0)) (s : Fin (grid0.bound 1)) : grid0.Coords :=
  fun | 0 => c | 1 => s | ⟨_ + 2, h⟩ => absurd h (Nat.not_lt.2 (Nat.le_add_left _ _))

abbrev coordsOf (c : Fin ((K (F := F)).nCore 0)) (i : Fin ((K (F := F)).nSub 0)) : grid0.Coords :=
  coordsV ⟨c.val, c.isLt⟩ ⟨i.val, i.isLt⟩

/-- The worker number of a task: 2 s + c, below 32. -/
def worker (L : grid0.Coords) : Nat := 2 * (L 1).val + (L 0).val

/-- The task's share of the table: the read token of its worker number. -/
abbrev tok (L : grid0.Coords) : PosShare TreeShare := Transfers.shareTokN fullShare (worker L)

variable [FloatOps F]

/-! ## What a task is handed and hands back -/

section Res

variable (d : Dev nD) (ft : Buf (Elt F) (tblLoc d)) (fs : Buf (Elt F) (srcLoc d)) (fd : Buf (Elt F) (dstLoc d)) (fo : Buf (Elt F) (outLoc d))

/-- The table at the task's read token, the task's two index slabs and its fifty chunks at the result array's entry contents. -/
def goRes (L : grid0.Coords) : sProp 𝕄 :=
  iprop((tblLoc d ↦{tok L} ft)
    ∗ (srcLoc d ↦[(srcSlab L).view.set]{fullShare} fs)
    ∗ (dstLoc d ↦[(dstSlab L).view.set]{fullShare} fd)
    ∗ (bigSep Finset.univ fun k : Fin k0_t1_loop.trips =>
        iprop((outLoc d ↦[(outChunk0 L k).view.set]{fullShare} fo) ∗ (outLoc d ↦[(outChunk1 L k).view.set]{fullShare} fo))))

/-- The same back, every chunk holding the left part of the specification. -/
def tdRes (L : grid0.Coords) : sProp 𝕄 :=
  iprop((tblLoc d ↦{tok L} ft)
    ∗ (srcLoc d ↦[(srcSlab L).view.set]{fullShare} fs)
    ∗ (dstLoc d ↦[(dstSlab L).view.set]{fullShare} fd)
    ∗ (bigSep Finset.univ fun k : Fin k0_t1_loop.trips =>
        iprop((∃ f, ⌜ChunkOK (d := d) L k 0 ft fs fd f⌝ ∗ outLoc d ↦[(outChunk0 L k).view.set]{fullShare} f)
          ∗ (∃ f, ⌜ChunkOK (d := d) L k 1 ft fs fd f⌝ ∗ outLoc d ↦[(outChunk1 L k).view.set]{fullShare} f))))

instance goRes_storable (L : grid0.Coords) : BI.Storable (upEmb : UEmb _ 𝕄) (goRes d ft fs fd fo L) := by
  unfold goRes; infer_instance
instance tdRes_storable (L : grid0.Coords) : BI.Storable (upEmb : UEmb _ 𝕄) (tdRes d ft fs fd L) := by
  unfold tdRes; infer_instance

end Res

/-! ## The call's payloads -/

/-- The contents of the table, the two index arrays and the result array when the call is made, per device. -/
structure CallData where
  ft : (d : Dev nD) → Buf (Elt F) (tblLoc d)
  fs : (d : Dev nD) → Buf (Elt F) (srcLoc d)
  fd : (d : Dev nD) → Buf (Elt F) (dstLoc d)
  fo : (d : Dev nD) → Buf (Elt F) (outLoc d)
  hs : ∀ d j, (fs d j).toNat < 10000
  hd : ∀ d j, (fd d j).toNat < 10000

variable (X : CallData (F := F))

/-- What task `i` of SparseCore `c` is handed, and hands back; what the SparseCore is handed, and hands back. -/
def goP (d : Dev nD) (c : Fin ((K (F := F)).nCore 0)) (i : Fin ((K (F := F)).nSub 0)) : sProp 𝕄 :=
  goRes d (X.ft d) (X.fs d) (X.fd d) (X.fo d) (coordsOf c i)
def tdP (d : Dev nD) (c : Fin ((K (F := F)).nCore 0)) (i : Fin ((K (F := F)).nSub 0)) : sProp 𝕄 :=
  tdRes d (X.ft d) (X.fs d) (X.fd d) (coordsOf c i)
def stP (d : Dev nD) (c : Fin ((K (F := F)).nCore 0)) : sProp 𝕄 := bigSep Finset.univ fun i : Fin ((K (F := F)).nSub 0) => goP X d c i
def dnP (d : Dev nD) (c : Fin ((K (F := F)).nCore 0)) : sProp 𝕄 := bigSep Finset.univ fun i : Fin ((K (F := F)).nSub 0) => tdP X d c i

instance goP_storable (d : Dev nD) (c) (i) : BI.Storable (upEmb : UEmb _ 𝕄) (goP X d c i) := by unfold goP; infer_instance
instance tdP_storable (d : Dev nD) (c) (i) : BI.Storable (upEmb : UEmb _ 𝕄) (tdP X d c i) := by unfold tdP; infer_instance
instance stP_storable (d : Dev nD) (c) : BI.Storable (upEmb : UEmb _ 𝕄) (stP X d c) := by unfold stP; infer_instance
instance dnP_storable (d : Dev nD) (c) : BI.Storable (upEmb : UEmb _ 𝕄) (dnP X d c) := by unfold dnP; infer_instance

def P : (K (F := F)).Pay (nD := nD) (Val := Elt F) (Name := ℕ) (U := UU) where
  st := fun q d c => match q with | 0 => stP X d c
  dn := fun q d c => match q with | 0 => dnP X d c
  go := fun q d c i => match q with | 0 => goP X d c i
  td := fun q d c i => match q with | 0 => tdP X d c i
  x := fun _ _ => iprop(emp)

theorem P_st (d : Dev nD) (c) : (P X).st 0 d c = stP X d c := rfl
theorem P_dn (d : Dev nD) (c) : (P X).dn 0 d c = dnP X d c := rfl
theorem P_go (d : Dev nD) (c) (i) : (P X).go 0 d c i = goP X d c i := rfl
theorem P_td (d : Dev nD) (c) (i) : (P X).td 0 d c i = tdP X d c i := rfl

instance P_storable : (P (F := F) X).IsStorable where
  st q d c := match q with | 0 => (inferInstance : BI.Storable (upEmb : UEmb _ 𝕄) (stP X d c))
  dn q d c := match q with | 0 => (inferInstance : BI.Storable (upEmb : UEmb _ 𝕄) (dnP X d c))
  go q d c i := match q with | 0 => (inferInstance : BI.Storable (upEmb : UEmb _ 𝕄) (goP X d c i))
  td q d c i := match q with | 0 => (inferInstance : BI.Storable (upEmb : UEmb _ 𝕄) (tdP X d c i))

/-- A SparseCore's operands are its tasks', and its results theirs. -/
theorem vecSplit : (K (F := F)).VecSplit' (P X) 0 := by
  intro d c
  rw [P_st, P_dn]
  simp only [P_go, P_td]
  unfold stP dnP
  iintro H; imodintro
  isplitl [H]; · iexact H
  iintro H; iexact H

/-! ## The task's obligation -/

theorem defs₀_vector (c : Fin τ.nSC) (s : Fin τ.nSub) :
    defs₀ (F := F) (.scVector c s) 0 ()
      = SparseCore.onTile hcore0 hsub0 (fun c s => cc0__gather_kernel (coordsV c s)
          tblV (Memref.isWhole_whole _) srcV (Memref.isWhole_whole _) dstV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task's resources, as the launch hands them, are the body's precondition. -/
theorem tile_pre (d : Dev nD) (c : Fin ((K (F := F)).nCore 0)) (i : Fin ((K (F := F)).nSub 0))
    (O : CellTallies nD τ sig (HIx 1)) (W : Waits sig (HIx 1)) :
    iprop(levAts (K (F := F)).L (K (F := F)).lev ∗ iprop(emp) ∗ goP X d c i
        ∗ scopedBufs (V d (cV (coordsOf c i)) (jV (coordsOf c i))) ∗ scopedSems0 (V d (cV (coordsOf c i)) (jV (coordsOf c i)))
        ∗ owes (V d (cV (coordsOf c i)) (jV (coordsOf c i))) O W : sProp 𝕄)
      ⊢ iprop(levAts (K (F := F)).L (K (F := F)).lev
        ∗ (tblLoc d ↦{tok (coordsOf c i)} X.ft d)
        ∗ (srcLoc d ↦[(srcSlab (coordsOf c i)).view.set]{fullShare} X.fs d)
        ∗ (dstLoc d ↦[(dstSlab (coordsOf c i)).view.set]{fullShare} X.fd d)
        ∗ (bigSep Finset.univ fun k : Fin k0_t1_loop.trips =>
            iprop((outLoc d ↦[(outChunk0 (coordsOf c i) k).view.set]{fullShare} X.fo d)
              ∗ (outLoc d ↦[(outChunk1 (coordsOf c i) k).view.set]{fullShare} X.fo d)))
        ∗ scopedBufs (V d (cV (coordsOf c i)) (jV (coordsOf c i))) ∗ scopedSems0 (V d (cV (coordsOf c i)) (jV (coordsOf c i)))
        ∗ owes (V d (cV (coordsOf c i)) (jV (coordsOf c i))) O W) := by
  unfold goP goRes
  iintro ⟨Hlv, -, ⟨Ht, Hs, Hd, Ho⟩, Hsb, Hss, HO⟩
  isplitl [Hlv]; · iexact Hlv
  isplitl [Ht]; · iexact Ht
  isplitl [Hs]; · iexact Hs
  isplitl [Hd]; · iexact Hd
  isplitl [Ho]; · iexact Ho
  isplitl [Hsb]; · iexact Hsb
  isplitl [Hss]; · iexact Hss
  iexact HO

/-- What the body leaves is what the task hands back. -/
theorem tile_post (d : Dev nD) (c : Fin ((K (F := F)).nCore 0)) (i : Fin ((K (F := F)).nSub 0))
    (O : CellTallies nD τ sig (HIx 1)) (W : Waits sig (HIx 1)) (A B : sProp 𝕄) :
    iprop(((tblLoc d ↦{tok (coordsOf c i)} X.ft d)
        ∗ (srcLoc d ↦[(srcSlab (coordsOf c i)).view.set]{fullShare} X.fs d)
        ∗ (dstLoc d ↦[(dstSlab (coordsOf c i)).view.set]{fullShare} X.fd d)
        ∗ (bigSep Finset.univ fun k : Fin k0_t1_loop.trips =>
            iprop((∃ f, ⌜ChunkOK (d := d) (coordsOf c i) k 0 (X.ft d) (X.fs d) (X.fd d) f⌝ ∗ outLoc d ↦[(outChunk0 (coordsOf c i) k).view.set]{fullShare} f)
              ∗ (∃ f, ⌜ChunkOK (d := d) (coordsOf c i) k 1 (X.ft d) (X.fs d) (X.fd d) f⌝ ∗ outLoc d ↦[(outChunk1 (coordsOf c i) k).view.set]{fullShare} f))))
        ∗ A ∗ B ∗ ∃ W', ⌜∀ p ∈ W', p ∈ W ∨ p.2 = none⌝ ∗ owes (V d (cV (coordsOf c i)) (jV (coordsOf c i))) O W' : sProp 𝕄)
      ⊢ iprop(tdP X d c i ∗ A ∗ B
        ∗ ∃ W', ⌜∀ p ∈ W', p ∈ W ∨ p.2 = none ∨ p.2 = some (0 : Fin 1)⌝ ∗ owes (V d (cV (coordsOf c i)) (jV (coordsOf c i))) O W') := by
  unfold tdP tdRes
  exact obl_post

theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_pre X d c i O W).trans ((tile_body d (coordsOf c i) (tok (coordsOf c i)) (X.ft d) (X.fs d) (X.fd d) (X.fo d) (X.hs d) (X.hd d) O W hO).trans
    (wp_mono frame _ _ fun _ => tile_post X d c i O W _ _))

end Cert.Kernel.Hand

end
-- ==== Proof.HB.Host.lean ====
/-
  The host operations of @main around the SparseCore call: the two rows of the index array are sliced out and
  flattened into the source-index and destination-index arrays before the call; after it the gathered array is copied
  into the result's buffer. Here: the device's buffer contents after the first four operations, and what the two
  index arrays then hold — entry e of the source-index array is entry (0, e) of the index array, of the
  destination-index array entry (1, e).
-/
import proofs.«210912_g7524782702854_cont_9to1c4b_744_40_alg».proof.Proof.HB.Pay
import Idealize.ShloMosaic.Lib.Pipeline.Value
import Idealize.ShloMosaic.Lib.ValueLayout

noncomputable section

namespace Cert.Kernel.Hand

open Cert.Kernel Cert.Kernel.Gen

open Idealize.ShloMosaic
open Idealize.ShloMosaic.SparseCore (S V T)
open Idealize.SL Idealize.SL.Sem
open Idealize.ShloMosaic.StableHlo (held held_split held_sdiff_result wp_hlo_within)
open Idealize.ShloMosaic.ValueIdx (ix1 ix2)

variable {F : FTy → Type} [FloatOps F]

variable (m : (ℓ : Loc nD τ sig) → Buf (Elt F) ℓ)

/-! ## The operations -/

abbrev op0 : HloOp τ sig (Elt F) :=
  StableHlo.unary main_arg3 main_v0 ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 rfl shapeCasts_S1x320000_S320000
abbrev op2 : HloOp τ sig (Elt F) :=
  StableHlo.unary main_arg3 main_v2 ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 rfl shapeCasts_S1x320000_S320000
abbrev op5 : HloOp τ sig (Elt F) := StableHlo.unary main_v4 main_v5 id

/-- The device's buffer contents at the launch, and after the four operations before the call. -/
def V0 (d : Dev nD) : Valuation τ sig (Elt F) := fun b => m (d, b)
def Vh (d : Dev nD) : Valuation τ sig (Elt F) := StableHlo.after [op0, op1, op2, op3] (V0 m d)

/-- The source-index and the destination-index array as the call finds them. -/
def srcW (d : Dev nD) : Buf (Elt F) (srcLoc d) := Vh m d (Proc.devRef .tc main_v1)
def dstW (d : Dev nD) : Buf (Elt F) (dstLoc d) := Vh m d (Proc.devRef .tc main_v3)

theorem Vh_arg0 (d : Dev nD) : Vh m d (Proc.devRef .tc main_arg0) = m (tblLoc d) := by
  unfold Vh; after_results; rfl
theorem Vh_arg1 (d : Dev nD) : Vh m d (Proc.devRef .tc main_arg1) = m (radLoc d) := by
  unfold Vh; after_results; rfl
theorem Vh_arg2 (d : Dev nD) : Vh m d (Proc.devRef .tc main_arg2) = m (angLoc d) := by
  unfold Vh; after_results; rfl
theorem Vh_arg3 (d : Dev nD) : Vh m d (Proc.devRef .tc main_arg3) = m (idxLoc d) := by
  unfold Vh; after_results; rfl
theorem Vh_v4 (d : Dev nD) : Vh m d (Proc.devRef .tc main_v4) = m (outLoc d) := by
  unfold Vh; after_results; rfl
theorem Vh_v5 (d : Dev nD) : Vh m d (Proc.devRef .tc main_v5) = m (resLoc d) := by
  unfold Vh; after_results; rfl

theorem srcW_eq (d : Dev nD) : srcW m d = shapeCast S320000 (extractStridedSlice S1x320000 ![0, 0] (m (idxLoc d)) slices_S2x320000_S1x320000_0_0) shapeCasts_S1x320000_S320000 := by
  unfold srcW Vh; after_results; rfl
theorem dstW_eq (d : Dev nD) : dstW m d = shapeCast S320000 (extractStridedSlice S1x320000 ![1, 0] (m (idxLoc d)) slices_S2x320000_S1x320000_1_0) shapeCasts_S1x320000_S320000 := by
  unfold dstW Vh; after_results; rfl

/-! ## The index arrays' entries -/

theorem srcW_apply (d : Dev nD) (e : Fin 320000) : srcW m d (ix1 e) = m (idxLoc d) (ix2 (0 : Fin 2) e) := by
  rw [srcW_eq]
  refine (Idealize.ShloMosaic.ValueIdx.shapeCast_1a_a_apply _ shapeCasts_S1x320000_S320000 e).trans ?_
  refine extractStridedSlice_apply _ _ _ _ _ fun a => ?_
  match a with
  | ⟨0, _⟩ => rfl
  | ⟨1, _⟩ => exact (Nat.zero_add _).symm

theorem dstW_apply (d : Dev nD) (e : Fin 320000) : dstW m d (ix1 e) = m (idxLoc d) (ix2 (1 : Fin 2) e) := by
  rw [dstW_eq]
  refine (Idealize.ShloMosaic.ValueIdx.shapeCast_1a_a_apply _ shapeCasts_S1x320000_S320000 e).trans ?_
  refine extractStridedSlice_apply _ _ _ _ _ fun a => ?_
  match a with
  | ⟨0, _⟩ => rfl
  | ⟨1, _⟩ => exact (Nat.zero_add _).symm

/-- What the proof asks of the launch memory: every word of the index array names a table row. -/
def PreOK : Prop := ∀ (d : Dev nD) (j : S2x320000.Idx), (m (idxLoc d) j).toNat < 10000

variable {m}

theorem srcW_lt (h : PreOK m) (d : Dev nD) (j : S320000.Idx) : (srcW m d j).toNat < 10000 := by
  have e : srcW m d j = m (idxLoc d) (ix2 (0 : Fin 2) (j 0)) :=
    (congrArg (srcW m d) (Idealize.ShloMosaic.ValueIdx.eq_ix1 j)).trans (srcW_apply m d (j 0))
  rw [e]; exact h d _
theorem dstW_lt (h : PreOK m) (d : Dev nD) (j : S320000.Idx) : (dstW m d j).toNat < 10000 := by
  have e : dstW m d j = m (idxLoc d) (ix2 (1 : Fin 2) (j 0)) :=
    (congrArg (dstW m d) (Idealize.ShloMosaic.ValueIdx.eq_ix1 j)).trans (dstW_apply m d (j 0))
  rw [e]; exact h d _

/-- The arrays as the call finds them. -/
def callData (h : PreOK m) : CallData (F := F) where
  ft := fun d => m (tblLoc d)
  fs := srcW m
  fd := dstW m
  fo := fun d => m (outLoc d)
  hs := srcW_lt h
  hd := dstW_lt h

end Cert.Kernel.Hand

end
-- ==== Proof.HB.Cuts.lean ====
/-
  Arithmetic of the cut of the arrays among the tasks. A task's index slab is the 10000 entries from its base; its
  chunk r of trip k is the 200 rows from base + 400 k + 200 r, columns below 256. Bases are 10000 (2 s + c), so the
  thirty-two slabs are pairwise disjoint, the sixteen hundred chunks are pairwise disjoint, and every position of the
  result left of column 256 lies in exactly one chunk.
-/
import proofs.«210912_g7524782702854_cont_9to1c4b_744_40_alg».proof.Proof.HB.Pay

noncomputable section

namespace Cert.Kernel.Hand

open Cert.Kernel Cert.Kernel.Gen

open Idealize.ShloMosaic
open Idealize.ShloMosaic.ValueIdx (ix1 ix2)

/-! ## Membership -/

theorem trips_le : ∀ k : Fin k0_t1_loop.trips, k.val < 25 := fun k => lt_of_lt_of_le k.isLt k0_t1_abs.2.1

theorem set_srcSlab (L : grid0.Coords) : (srcSlab L).view.set = (Rect.unit (s := S320000) (k0_off1 L) S10000.size (k0_off1_inb L)).set :=
  View.set_slice_whole main_v1_scv _
theorem set_dstSlab (L : grid0.Coords) : (dstSlab L).view.set = (Rect.unit (s := S320000) (k0_off1 L) S10000.size (k0_off1_inb L)).set :=
  View.set_slice_whole main_v3_scv _
theorem set_outChunk0 (L : grid0.Coords) (k : Fin k0_t1_loop.trips) :
    (outChunk0 L k).view.set = (Rect.unit (s := S320000x276) (k0_off3 L k 0#32) S200x256.size (k0_off3_inb L k 0)).set :=
  View.set_slice_whole main_v4_scv _
theorem set_outChunk1 (L : grid0.Coords) (k : Fin k0_t1_loop.trips) :
    (outChunk1 L k).view.set = (Rect.unit (s := S320000x276) (k0_off3 L k 200#32) S200x256.size (k0_off3_inb L k 1)).set :=
  View.set_slice_whole main_v4_scv _

theorem mem_srcSlab (L : grid0.Coords) (j : S320000.Idx) :
    j ∈ (srcSlab L).view.set ↔ base L ≤ (j 0).val ∧ (j 0).val < base L + 10000 := by
  rw [set_srcSlab, Rect.mem_set_unit, k0_off1_eq]
  constructor
  · intro h; have := h 0; simpa [base] using this
  · intro h a; obtain rfl : a = 0 := Subsingleton.elim _ _; simpa [base] using h

theorem mem_dstSlab (L : grid0.Coords) (j : S320000.Idx) :
    j ∈ (dstSlab L).view.set ↔ base L ≤ (j 0).val ∧ (j 0).val < base L + 10000 := by
  rw [set_dstSlab, Rect.mem_set_unit, k0_off1_eq]
  constructor
  · intro h; have := h 0; simpa [base] using this
  · intro h a; obtain rfl : a = 0 := Subsingleton.elim _ _; simpa [base] using h

theorem mem_outChunk0 (L : grid0.Coords) (k : Fin k0_t1_loop.trips) (j : S320000x276.Idx) :
    j ∈ (outChunk0 L k).view.set ↔ (base L + 400 * k.val ≤ (j 0).val ∧ (j 0).val < base L + 400 * k.val + 200) ∧ (j 1).val < 256 := by
  rw [set_outChunk0, Rect.mem_set_unit, show k0_off3 L k 0#32 = _ from k0_off3_eq L k 0]
  constructor
  · intro h; have h0 := h 0; have h1 := h 1
    simp [base] at h0 h1 ⊢; omega
  · intro h a
    match a with
    | ⟨0, _⟩ => simp [base] at h ⊢; omega
    | ⟨1, _⟩ => simp [base] at h ⊢; omega

theorem mem_outChunk1 (L : grid0.Coords) (k : Fin k0_t1_loop.trips) (j : S320000x276.Idx) :
    j ∈ (outChunk1 L k).view.set ↔ (base L + 400 * k.val + 200 ≤ (j 0).val ∧ (j 0).val < base L + 400 * k.val + 400) ∧ (j 1).val < 256 := by
  rw [set_outChunk1, Rect.mem_set_unit, show k0_off3 L k 200#32 = _ from k0_off3_eq L k 1]
  constructor
  · intro h; have h0 := h 0; have h1 := h 1
    simp [base] at h0 h1 ⊢; omega
  · intro h a
    match a with
    | ⟨0, _⟩ => simp [base] at h ⊢; omega
    | ⟨1, _⟩ => simp [base] at h ⊢; omega

/-! ## Tasks are told apart by their base -/

theorem coords_ext {L L' : grid0.Coords} (h0 : (L 0).val = (L' 0).val) (h1 : (L 1).val = (L' 1).val) : L = L' := by
  funext a
  match a with
  | ⟨0, _⟩ => exact Fin.ext h0
  | ⟨1, _⟩ => exact Fin.ext h1

theorem coords_lt (L : grid0.Coords) : (L 0).val < 2 ∧ (L 1).val < 16 := ⟨(L 0).isLt, (L 1).isLt⟩

/-- Two tasks' index slabs are disjoint. -/
theorem disjoint_srcSlab {L L' : grid0.Coords} (h : L ≠ L') : Disjoint (srcSlab L).view.set (srcSlab L').view.set := by
  refine Finset.disjoint_left.mpr fun j h1 h2 => h ?_
  rw [mem_srcSlab] at h1 h2
  have := coords_lt L; have := coords_lt L'
  unfold base at h1 h2
  exact coords_ext (by omega) (by omega)

theorem disjoint_dstSlab {L L' : grid0.Coords} (h : L ≠ L') : Disjoint (dstSlab L).view.set (dstSlab L').view.set := by
  refine Finset.disjoint_left.mpr fun j h1 h2 => h ?_
  rw [mem_dstSlab] at h1 h2
  have := coords_lt L; have := coords_lt L'
  unfold base at h1 h2
  exact coords_ext (by omega) (by omega)

/-! ## The chunks as one family -/

/-- Chunk `r` of trip `k` of the task at `L`, as a set of positions of the result array. -/
def chunkSet (L : grid0.Coords) (k : Fin k0_t1_loop.trips) (r : Fin 2) : Finset S320000x276.Idx :=
  if r.val = 0 then (outChunk0 L k).view.set else (outChunk1 L k).view.set

theorem chunkSet_zero (L : grid0.Coords) (k : Fin k0_t1_loop.trips) : chunkSet L k 0 = (outChunk0 L k).view.set := if_pos rfl
theorem chunkSet_one (L : grid0.Coords) (k : Fin k0_t1_loop.trips) : chunkSet L k 1 = (outChunk1 L k).view.set := if_neg (by decide)

theorem mem_chunkSet (L : grid0.Coords) (k : Fin k0_t1_loop.trips) (r : Fin 2) (j : S320000x276.Idx) :
    j ∈ chunkSet L k r ↔ (base L + 400 * k.val + 200 * r.val ≤ (j 0).val ∧ (j 0).val < base L + 400 * k.val + 200 * r.val + 200) ∧ (j 1).val < 256 := by
  match r with
  | ⟨0, _⟩ => rw [show (⟨0, by omega⟩ : Fin 2) = 0 from rfl, chunkSet_zero, mem_outChunk0]; simp
  | ⟨1, _⟩ => rw [show (⟨1, by omega⟩ : Fin 2) = 1 from rfl, chunkSet_one, mem_outChunk1]; simp

/-- Two different chunks are disjoint. -/
theorem disjoint_chunkSet {L L' : grid0.Coords} {k k' : Fin k0_t1_loop.trips} {r r' : Fin 2} (h : ¬ (L = L' ∧ k = k' ∧ r = r')) :
    Disjoint (chunkSet L k r) (chunkSet L' k' r') := by
  refine Finset.disjoint_left.mpr fun j h1 h2 => h ?_
  rw [mem_chunkSet] at h1 h2
  have := coords_lt L; have := coords_lt L'
  have := trips_le k; have := trips_le k'
  have := r.isLt; have := r'.isLt
  unfold base at h1 h2
  exact ⟨coords_ext (by omega) (by omega), Fin.ext (by omega), Fin.ext (by omega)⟩

/-- Every position left of column 256 lies in a chunk. -/
theorem exists_chunk (j : S320000x276.Idx) (h : (j 1).val < 256) :
    ∃ (c : Fin (grid0.bound 0)) (s : Fin (grid0.bound 1)) (k : Fin k0_t1_loop.trips) (r : Fin 2), j ∈ chunkSet (coordsV c s) k r := by
  have he : (j 0).val < 320000 := (j 0).isLt
  have htr : k0_t1_loop.trips = 25 := by decide
  refine ⟨⟨((j 0).val / 10000) % 2, Nat.mod_lt _ (by decide)⟩, ⟨(j 0).val / 20000, by show _ < 16; omega⟩,
    ⟨((j 0).val % 10000) / 400, by rw [htr]; omega⟩, ⟨((j 0).val % 400) / 200, by omega⟩, ?_⟩
  rw [mem_chunkSet]
  refine ⟨?_, h⟩
  show base (coordsV _ _) + 400 * (((j 0).val % 10000) / 400) + 200 * (((j 0).val % 400) / 200) ≤ (j 0).val ∧ _
  unfold base
  show 20000 * ((j 0).val / 20000) + 10000 * (((j 0).val / 10000) % 2) + 400 * (((j 0).val % 10000) / 400) + 200 * (((j 0).val % 400) / 200) ≤ (j 0).val ∧
    (j 0).val < 20000 * ((j 0).val / 20000) + 10000 * (((j 0).val / 10000) % 2) + 400 * (((j 0).val % 10000) / 400) + 200 * (((j 0).val % 400) / 200) + 200
  omega

end Cert.Kernel.Hand

end
-- ==== Proof.HB.Split.lean ====
/-
  Cutting the arrays among the thirty-two tasks before the one SparseCore call, and joining them after it. The node
  table is held under thirty-two read shares, one per task, and a remainder; each index array is cut into the tasks'
  slabs; the result array is cut into the sixteen hundred chunks (two per trip of each task's loop) and the rest.
  After the call the read shares are put back under the remainder, and the chunks, each now holding the left part of
  the specification at its own rows, are joined with the rest into one array whose left 256 columns hold the left
  part of the specification at every row.
-/
import proofs.«210912_g7524782702854_cont_9to1c4b_744_40_alg».proof.Proof.HB.Cuts
import Idealize.ShloMosaic.Rules.PointsTo
import Idealize.ShloMosaic.Lib.Transfers
import Idealize.SL.ProofMode.BigOp

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F]

local notation "𝕄" => MT nD τ sig (HIx 1) (Elt F) ℕ UU ℕ

/-! ## The index sets -/

/-- A task, by its two grid coordinates; a chunk, by its task, its trip and which of the trip's two it is. -/
abbrev Task : Type := Fin (grid0.bound 0) × Fin (grid0.bound 1)
abbrev Quad : Type := Fin (grid0.bound 0) × Fin (grid0.bound 1) × Fin k0_t1_loop.trips × Fin 2

theorem coordsV_zero (c : Fin (grid0.bound 0)) (s : Fin (grid0.bound 1)) : (coordsV c s) 0 = c := rfl
theorem coordsV_one (c : Fin (grid0.bound 0)) (s : Fin (grid0.bound 1)) : (coordsV c s) 1 = s := rfl

/-- Different tasks have different coordinates. -/
theorem coordsV_inj {c c' : Fin (grid0.bound 0)} {s s' : Fin (grid0.bound 1)} (h : coordsV c s = coordsV c' s') : c = c' ∧ s = s' :=
  ⟨congrFun h 0, congrFun h 1⟩

theorem worker_coordsV (c : Fin (grid0.bound 0)) (s : Fin (grid0.bound 1)) : worker (coordsV c s) = 2 * s.val + c.val := rfl

/-- The positions of the result array some task's chunk covers. -/
def leftSet : Finset S320000x276.Idx :=
  (Finset.univ : Finset Quad).biUnion fun t => chunkSet (coordsV t.1 t.2.1) t.2.2.1 t.2.2.2

theorem chunks_disjoint : ∀ t ∈ (Finset.univ : Finset Quad), ∀ t' ∈ (Finset.univ : Finset Quad), t ≠ t' →
    Disjoint (chunkSet (coordsV t.1 t.2.1) t.2.2.1 t.2.2.2) (chunkSet (coordsV t'.1 t'.2.1) t'.2.2.1 t'.2.2.2) := by
  intro t _ t' _ hne
  refine disjoint_chunkSet fun h => hne ?_
  obtain ⟨hL, hk, hr⟩ := h
  obtain ⟨hc, hs⟩ := coordsV_inj hL
  obtain ⟨c, s, k, r⟩ := t
  obtain ⟨c', s', k', r'⟩ := t'
  simp only at hc hs hk hr
  subst hc hs hk hr
  rfl

theorem srcSlabs_disjoint : ∀ t ∈ (Finset.univ : Finset Task), ∀ t' ∈ (Finset.univ : Finset Task), t ≠ t' →
    Disjoint (srcSlab (coordsV t.1 t.2)).view.set (srcSlab (coordsV t'.1 t'.2)).view.set := by
  intro t _ t' _ hne
  refine disjoint_srcSlab fun h => hne ?_
  obtain ⟨hc, hs⟩ := coordsV_inj h
  exact Prod.ext hc hs

theorem dstSlabs_disjoint : ∀ t ∈ (Finset.univ : Finset Task), ∀ t' ∈ (Finset.univ : Finset Task), t ≠ t' →
    Disjoint (dstSlab (coordsV t.1 t.2)).view.set (dstSlab (coordsV t'.1 t'.2)).view.set := by
  intro t _ t' _ hne
  refine disjoint_dstSlab fun h => hne ?_
  obtain ⟨hc, hs⟩ := coordsV_inj h
  exact Prod.ext hc hs

/-- The worker numbers of the thirty-two tasks are the numbers below 32, each once. -/
theorem range_eq_image : Finset.range 32 = (Finset.univ : Finset Task).image fun t => worker (coordsV t.1 t.2) := by
  ext n
  rw [Finset.mem_range, Finset.mem_image]
  constructor
  · intro hn
    exact ⟨(⟨n % 2, Nat.mod_lt _ (by decide)⟩, ⟨n / 2, by show n / 2 < 16; omega⟩), Finset.mem_univ _, by
      rw [worker_coordsV]; show 2 * (n / 2) + n % 2 = n; omega⟩
  · rintro ⟨⟨c, s⟩, _, rfl⟩
    rw [worker_coordsV]
    have hc : c.val < 2 := c.isLt
    have hs : s.val < 16 := s.isLt
    show 2 * s.val + c.val < 32
    omega

theorem worker_injOn : Set.InjOn (fun t : Task => worker (coordsV t.1 t.2)) (Finset.univ : Finset Task) := by
  rintro ⟨c, s⟩ _ ⟨c', s'⟩ _ h
  simp only [worker_coordsV] at h
  have hc : c.val < 2 := c.isLt
  have hc' : c'.val < 2 := c'.isLt
  exact Prod.ext (Fin.ext (by show c.val = c'.val; omega)) (Fin.ext (by show s.val = s'.val; omega))

/-! ## The four arrays, each cut and joined -/

section Arrays

variable (d : Dev nD)

/-- The table under the remainder share and the tasks' read shares. -/
theorem tbl_toks (ft : Buf (Elt F) (tblLoc d)) :
    (tblLoc d ↦{fullShare} ft : sProp 𝕄) ⊣⊢ iprop((tblLoc d ↦{Transfers.shareDrop fullShare 32} ft)
      ∗ bigSep Finset.univ fun c : Fin (grid0.bound 0) => bigSep Finset.univ fun s : Fin (grid0.bound 1) =>
          tblLoc d ↦{tok (coordsV c s)} ft) := by
  have e : (bigSep (Finset.range 32) fun i => (tblLoc d ↦{Transfers.shareTokN fullShare i} ft : sProp 𝕄))
      = bigSep Finset.univ fun c : Fin (grid0.bound 0) => bigSep Finset.univ fun s : Fin (grid0.bound 1) =>
          tblLoc d ↦{tok (coordsV c s)} ft := by
    rw [range_eq_image, SparseCore.bigSep_image_of_injOn worker_injOn,
      bigSep_univ_prod (fun t : Task => (tblLoc d ↦{Transfers.shareTokN fullShare (worker (coordsV t.1 t.2))} ft : sProp 𝕄))]
  rw [← e]
  exact Transfers.pointsTo_toks_range fullShare 32

/-- The source-index array holds the tasks' slabs. -/
theorem src_slabs (fs : Buf (Elt F) (srcLoc d)) :
    (srcLoc d ↦{fullShare} fs : sProp 𝕄) ⊢ bigSep Finset.univ fun c : Fin (grid0.bound 0) => bigSep Finset.univ fun s : Fin (grid0.bound 1) =>
      srcLoc d ↦[(srcSlab (coordsV c s)).view.set]{fullShare} fs := by
  rw [← bigSep_univ_prod (fun t : Task => (srcLoc d ↦[(srcSlab (coordsV t.1 t.2)).view.set]{fullShare} fs : sProp 𝕄)),
    ← pointsTo_biUnion Finset.univ (ℓ := srcLoc d) (fun t : Task => (srcSlab (coordsV t.1 t.2)).view.set) srcSlabs_disjoint]
  refine (pointsTo_split_subset (I := Finset.univ.biUnion fun t : Task => (srcSlab (coordsV t.1 t.2)).view.set)
    (Finset.subset_univ _)).1.trans ?_
  iintro ⟨H, -⟩; iexact H

/-- The destination-index array holds the tasks' slabs. -/
theorem dst_slabs (fd : Buf (Elt F) (dstLoc d)) :
    (dstLoc d ↦{fullShare} fd : sProp 𝕄) ⊢ bigSep Finset.univ fun c : Fin (grid0.bound 0) => bigSep Finset.univ fun s : Fin (grid0.bound 1) =>
      dstLoc d ↦[(dstSlab (coordsV c s)).view.set]{fullShare} fd := by
  rw [← bigSep_univ_prod (fun t : Task => (dstLoc d ↦[(dstSlab (coordsV t.1 t.2)).view.set]{fullShare} fd : sProp 𝕄)),
    ← pointsTo_biUnion Finset.univ (ℓ := dstLoc d) (fun t : Task => (dstSlab (coordsV t.1 t.2)).view.set) dstSlabs_disjoint]
  refine (pointsTo_split_subset (I := Finset.univ.biUnion fun t : Task => (dstSlab (coordsV t.1 t.2)).view.set)
    (Finset.subset_univ _)).1.trans ?_
  iintro ⟨H, -⟩; iexact H

/-- The covered part of the result array is the chunks, task by task, trip by trip, two per trip. -/
theorem left_chunks (fo : Buf (Elt F) (outLoc d)) :
    (outLoc d ↦[leftSet]{fullShare} fo : sProp 𝕄)
      = bigSep Finset.univ fun c : Fin (grid0.bound 0) => bigSep Finset.univ fun s : Fin (grid0.bound 1) =>
          bigSep Finset.univ fun k : Fin k0_t1_loop.trips =>
            iprop((outLoc d ↦[(outChunk0 (coordsV c s) k).view.set]{fullShare} fo)
              ∗ (outLoc d ↦[(outChunk1 (coordsV c s) k).view.set]{fullShare} fo)) := by
  unfold leftSet
  rw [pointsTo_biUnion Finset.univ (ℓ := outLoc d) (fun t : Quad => chunkSet (coordsV t.1 t.2.1) t.2.2.1 t.2.2.2) chunks_disjoint,
    bigSep_univ_prod]
  refine bigSep_congr fun c _ => ?_
  rw [bigSep_univ_prod]
  refine bigSep_congr fun s _ => ?_
  rw [bigSep_univ_prod]
  refine bigSep_congr fun k _ => ?_
  rw [bigSep_univ_two, chunkSet_zero, chunkSet_one]

end Arrays

/-! ## A double conjunction of four-part resources is four double conjunctions -/

theorem bigSep2_sep4 {M : Type} [URA M] {α β : Type} [Fintype α] [Fintype β] (A B C D : α → β → sProp M) :
    (bigSep Finset.univ fun a => bigSep Finset.univ fun b => iprop(A a b ∗ B a b ∗ C a b ∗ D a b))
      = iprop((bigSep Finset.univ fun a => bigSep Finset.univ fun b => A a b)
        ∗ (bigSep Finset.univ fun a => bigSep Finset.univ fun b => B a b)
        ∗ (bigSep Finset.univ fun a => bigSep Finset.univ fun b => C a b)
        ∗ (bigSep Finset.univ fun a => bigSep Finset.univ fun b => D a b)) := by
  have step : ∀ a, (bigSep Finset.univ fun b => iprop(A a b ∗ B a b ∗ C a b ∗ D a b))
      = iprop((bigSep Finset.univ fun b => A a b) ∗ (bigSep Finset.univ fun b => B a b)
        ∗ (bigSep Finset.univ fun b => C a b) ∗ (bigSep Finset.univ fun b => D a b)) := fun a => by
    rw [bigSep_sep', bigSep_sep', bigSep_sep']
  rw [bigSep_congr fun a _ => step a, bigSep_sep', bigSep_sep', bigSep_sep']

section Families

variable (X : CallData (F := F)) (d : Dev nD)

/-- What the two SparseCores are handed, as four families over the tasks. -/
theorem st_families :
    (bigSep Finset.univ fun c : Fin ((K (F := F)).nCore 0) => (P X).st 0 d c)
      = iprop((bigSep Finset.univ fun c : Fin (grid0.bound 0) => bigSep Finset.univ fun s : Fin (grid0.bound 1) =>
            tblLoc d ↦{tok (coordsV c s)} X.ft d)
        ∗ (bigSep Finset.univ fun c : Fin (grid0.bound 0) => bigSep Finset.univ fun s : Fin (grid0.bound 1) =>
            srcLoc d ↦[(srcSlab (coordsV c s)).view.set]{fullShare} X.fs d)
        ∗ (bigSep Finset.univ fun c : Fin (grid0.bound 0) => bigSep Finset.univ fun s : Fin (grid0.bound 1) =>
            dstLoc d ↦[(dstSlab (coordsV c s)).view.set]{fullShare} X.fd d)
        ∗ (bigSep Finset.univ fun c : Fin (grid0.bound 0) => bigSep Finset.univ fun s : Fin (grid0.bound 1) =>
            bigSep Finset.univ fun k : Fin k0_t1_loop.trips =>
              iprop((outLoc d ↦[(outChunk0 (coordsV c s) k).view.set]{fullShare} X.fo d)
                ∗ (outLoc d ↦[(outChunk1 (coordsV c s) k).view.set]{fullShare} X.fo d)))) :=
  bigSep2_sep4 (fun (c : Fin (grid0.bound 0)) (s : Fin (grid0.bound 1)) => (tblLoc d ↦{tok (coordsV c s)} X.ft d : sProp 𝕄))
    (fun c s => srcLoc d ↦[(srcSlab (coordsV c s)).view.set]{fullShare} X.fs d)
    (fun c s => dstLoc d ↦[(dstSlab (coordsV c s)).view.set]{fullShare} X.fd d)
    (fun c s => bigSep Finset.univ fun k : Fin k0_t1_loop.trips =>
      iprop((outLoc d ↦[(outChunk0 (coordsV c s) k).view.set]{fullShare} X.fo d)
        ∗ (outLoc d ↦[(outChunk1 (coordsV c s) k).view.set]{fullShare} X.fo d)))

set_option maxHeartbeats 1600000 in
/-- What the two SparseCores hand back, as four families over the tasks. -/
theorem dn_families :
    (bigSep Finset.univ fun c : Fin ((K (F := F)).nCore 0) => (P X).dn 0 d c)
      = iprop((bigSep Finset.univ fun c : Fin (grid0.bound 0) => bigSep Finset.univ fun s : Fin (grid0.bound 1) =>
            tblLoc d ↦{tok (coordsV c s)} X.ft d)
        ∗ (bigSep Finset.univ fun c : Fin (grid0.bound 0) => bigSep Finset.univ fun s : Fin (grid0.bound 1) =>
            srcLoc d ↦[(srcSlab (coordsV c s)).view.set]{fullShare} X.fs d)
        ∗ (bigSep Finset.univ fun c : Fin (grid0.bound 0) => bigSep Finset.univ fun s : Fin (grid0.bound 1) =>
            dstLoc d ↦[(dstSlab (coordsV c s)).view.set]{fullShare} X.fd d)
        ∗ (bigSep Finset.univ fun c : Fin (grid0.bound 0) => bigSep Finset.univ fun s : Fin (grid0.bound 1) =>
            bigSep Finset.univ fun k : Fin k0_t1_loop.trips =>
              iprop((∃ f, ⌜ChunkOK (d := d) (coordsV c s) k 0 (X.ft d) (X.fs d) (X.fd d) f⌝
                    ∗ outLoc d ↦[(outChunk0 (coordsV c s) k).view.set]{fullShare} f)
                ∗ (∃ f, ⌜ChunkOK (d := d) (coordsV c s) k 1 (X.ft d) (X.fs d) (X.fd d) f⌝
                    ∗ outLoc d ↦[(outChunk1 (coordsV c s) k).view.set]{fullShare} f)))) := by
  show (bigSep Finset.univ fun c : Fin (grid0.bound 0) => bigSep Finset.univ fun s : Fin (grid0.bound 1) =>
      tdRes d (X.ft d) (X.fs d) (X.fd d) (coordsV c s)) = _
  exact
    bigSep2_sep4 (fun (c : Fin (grid0.bound 0)) (s : Fin (grid0.bound 1)) => (tblLoc d ↦{tok (coordsV c s)} X.ft d : sProp 𝕄))
      (fun c s => srcLoc d ↦[(srcSlab (coordsV c s)).view.set]{fullShare} X.fs d)
      (fun c s => dstLoc d ↦[(dstSlab (coordsV c s)).view.set]{fullShare} X.fd d)
      (fun c s => bigSep Finset.univ fun k : Fin k0_t1_loop.trips =>
        iprop((∃ f, ⌜ChunkOK (d := d) (coordsV c s) k 0 (X.ft d) (X.fs d) (X.fd d) f⌝
              ∗ outLoc d ↦[(outChunk0 (coordsV c s) k).view.set]{fullShare} f)
          ∗ (∃ f, ⌜ChunkOK (d := d) (coordsV c s) k 1 (X.ft d) (X.fs d) (X.fd d) f⌝
              ∗ outLoc d ↦[(outChunk1 (coordsV c s) k).view.set]{fullShare} f)))

/-- The result array whole is the chunks and the uncovered rest. -/
theorem out_split (fo : Buf (Elt F) (outLoc d)) :
    (outLoc d ↦{fullShare} fo : sProp 𝕄)
      ⊢ iprop((bigSep Finset.univ fun c : Fin (grid0.bound 0) => bigSep Finset.univ fun s : Fin (grid0.bound 1) =>
            bigSep Finset.univ fun k : Fin k0_t1_loop.trips =>
              iprop((outLoc d ↦[(outChunk0 (coordsV c s) k).view.set]{fullShare} fo)
                ∗ (outLoc d ↦[(outChunk1 (coordsV c s) k).view.set]{fullShare} fo)))
          ∗ (outLoc d ↦[Finset.univ \ leftSet]{fullShare} fo)) := by
  rw [← left_chunks d fo]
  exact (pointsTo_split_subset (Finset.subset_univ leftSet)).1

/-- The chunks handed back, as one family over the chunks. -/
theorem chunks_back_eq :
    (bigSep Finset.univ fun c : Fin (grid0.bound 0) => bigSep Finset.univ fun s : Fin (grid0.bound 1) =>
        bigSep Finset.univ fun k : Fin k0_t1_loop.trips =>
          iprop((∃ f, ⌜ChunkOK (d := d) (coordsV c s) k 0 (X.ft d) (X.fs d) (X.fd d) f⌝
                ∗ outLoc d ↦[(outChunk0 (coordsV c s) k).view.set]{fullShare} f)
            ∗ (∃ f, ⌜ChunkOK (d := d) (coordsV c s) k 1 (X.ft d) (X.fs d) (X.fd d) f⌝
                ∗ outLoc d ↦[(outChunk1 (coordsV c s) k).view.set]{fullShare} f)) : sProp 𝕄)
      = bigSep Finset.univ fun t : Quad =>
          iprop(∃ f : Buf (Elt F) (outLoc d), ⌜ChunkOK (d := d) (coordsV t.1 t.2.1) t.2.2.1 t.2.2.2 (X.ft d) (X.fs d) (X.fd d) f⌝
            ∗ outLoc d ↦[chunkSet (coordsV t.1 t.2.1) t.2.2.1 t.2.2.2]{fullShare} f) := by
  rw [bigSep_univ_prod]
  refine bigSep_congr fun c _ => ?_
  rw [bigSep_univ_prod]
  refine bigSep_congr fun s _ => ?_
  rw [bigSep_univ_prod]
  refine bigSep_congr fun k _ => ?_
  rw [bigSep_univ_two, chunkSet_zero, chunkSet_one]

/-- The chunks handed back and the uncovered rest are the result array whole, its left 256 columns the left part of the
    specification: a position left of column 256 lies in one chunk, at the row of that chunk that the position's row is,
    and the chunk holds the specification there. -/
theorem out_join :
    iprop((bigSep Finset.univ fun c : Fin (grid0.bound 0) => bigSep Finset.univ fun s : Fin (grid0.bound 1) =>
        bigSep Finset.univ fun k : Fin k0_t1_loop.trips =>
          iprop((∃ f, ⌜ChunkOK (d := d) (coordsV c s) k 0 (X.ft d) (X.fs d) (X.fd d) f⌝
                ∗ outLoc d ↦[(outChunk0 (coordsV c s) k).view.set]{fullShare} f)
            ∗ (∃ f, ⌜ChunkOK (d := d) (coordsV c s) k 1 (X.ft d) (X.fs d) (X.fd d) f⌝
                ∗ outLoc d ↦[(outChunk1 (coordsV c s) k).view.set]{fullShare} f)))
        ∗ (outLoc d ↦[Finset.univ \ leftSet]{fullShare} X.fo d) : sProp 𝕄)
      ⊢ iprop(∃ g : Buf (Elt F) (outLoc d), ⌜∀ (e : Fin 320000) (b : Fin 256), g (ix2 e ⟨b.val, by omega⟩)
              = Cert.Hand.Spec.Gleft (X.ft d) (X.fs d) (X.fd d) e b⌝ ∗ outLoc d ↦{fullShare} g) := by
  rw [chunks_back_eq X d]
  iintro ⟨Hch, Hor⟩
  ihave H1 := (bigSep_exists_pi Finset.univ (fun (t : Quad) (f : Buf (Elt F) (outLoc d)) =>
      (iprop(⌜ChunkOK (d := d) (coordsV t.1 t.2.1) t.2.2.1 t.2.2.2 (X.ft d) (X.fs d) (X.fd d) f⌝
        ∗ outLoc d ↦[chunkSet (coordsV t.1 t.2.1) t.2.2.1 t.2.2.2]{fullShare} f) : sProp 𝕄))) $$ Hch
  icases H1 with ⟨%fs, H1⟩
  ihave H2 := (bigSep_pure_sep Finset.univ
      (fun t : Quad => ChunkOK (d := d) (coordsV t.1 t.2.1) t.2.2.1 t.2.2.2 (X.ft d) (X.fs d) (X.fd d) (fs t))
      (fun t : Quad => (outLoc d ↦[chunkSet (coordsV t.1 t.2.1) t.2.2.1 t.2.2.2]{fullShare} fs t : sProp 𝕄))) $$ H1
  icases H2 with ⟨%hok, H2⟩
  ihave H3 := (pointsTo_biUnion_join Finset.univ (ℓ := outLoc d) (fun t : Quad => chunkSet (coordsV t.1 t.2.1) t.2.2.1 t.2.2.2)
      fs (X.fo d) chunks_disjoint) $$ H2
  icases H3 with ⟨%g, %hg, H3⟩
  ihave H4 := (pointsTo_join_subset (ℓ := outLoc d) (I := leftSet) (S := Finset.univ) (g := g) (f := X.fo d) (q := fullShare)
      (Finset.subset_univ leftSet)) $$ [H3 Hor]
  · isplitl [H3]
    · iexact H3
    · iexact Hor
  iexists (leftSet.piecewise g (X.fo d))
  isplitr
  · ipureintro
    intro e b
    have hb : b.val < 256 := b.isLt
    obtain ⟨c, s, k, r, hj⟩ := exists_chunk (ix2 e (⟨b.val, by omega⟩ : Fin 276)) hb
    have hjl : (ix2 e (⟨b.val, by omega⟩ : Fin 276) : S320000x276.Idx) ∈ leftSet :=
      Finset.mem_biUnion.mpr ⟨(c, s, k, r), Finset.mem_univ _, hj⟩
    rw [Finset.piecewise_eq_of_mem _ _ _ hjl, hg (c, s, k, r) (Finset.mem_univ _) _ hj]
    obtain ⟨⟨hlo, hhi⟩, _⟩ := (mem_chunkSet (coordsV c s) k r _).1 hj
    have hlo' : base (coordsV c s) + 400 * k.val + 200 * r.val ≤ e.val := hlo
    have hhi' : e.val < base (coordsV c s) + 400 * k.val + 200 * r.val + 200 := hhi
    have hrow : chunkRow (coordsV c s) k r ⟨e.val - (base (coordsV c s) + 400 * k.val + 200 * r.val), by omega⟩ = e :=
      Fin.ext (by show base (coordsV c s) + 400 * k.val + 200 * r.val + (e.val - (base (coordsV c s) + 400 * k.val + 200 * r.val)) = e.val; omega)
    have h := hok (c, s, k, r) (Finset.mem_univ _) ⟨e.val - (base (coordsV c s) + 400 * k.val + 200 * r.val), by omega⟩ b
    rw [hrow] at h
    exact h
  · iexact H4

end Families

/-! ## The call's operands and results -/

variable (X : CallData (F := F))

/-- Before the call: the four arrays whole are what the two SparseCores are handed, the table's remainder share and the
    part of the result array no chunk covers. -/
theorem call_split (d : Dev nD) :
    iprop((tblLoc d ↦{fullShare} X.ft d) ∗ (srcLoc d ↦{fullShare} X.fs d) ∗ (dstLoc d ↦{fullShare} X.fd d)
        ∗ (outLoc d ↦{fullShare} X.fo d) : sProp 𝕄)
      ⊢ iprop((bigSep Finset.univ fun c : Fin ((K (F := F)).nCore 0) => (P X).st 0 d c)
          ∗ (tblLoc d ↦{Transfers.shareDrop fullShare 32} X.ft d) ∗ (outLoc d ↦[Finset.univ \ leftSet]{fullShare} X.fo d)) := by
  rw [st_families X d]
  iintro ⟨Ht, Hs, Hd, Ho⟩
  ihave Ht' := (tbl_toks d (X.ft d)).1 $$ Ht
  icases Ht' with ⟨Htd, Htt⟩
  ihave Hs' := (src_slabs d (X.fs d)) $$ Hs
  ihave Hd' := (dst_slabs d (X.fd d)) $$ Hd
  ihave Ho' := (out_split d (X.fo d)) $$ Ho
  icases Ho' with ⟨Hol, Hor⟩
  isplitl [Htt Hs' Hd' Hol]
  · isplitl [Htt]; · iexact Htt
    isplitl [Hs']; · iexact Hs'
    isplitl [Hd']; · iexact Hd'
    iexact Hol
  isplitl [Htd]; · iexact Htd
  iexact Hor

/-- After the call: what the two SparseCores hand back, the table's remainder share and the uncovered part of the result
    array are the table whole and the result array whole, its left 256 columns the left part of the specification. -/
theorem call_join (d : Dev nD) :
    iprop((bigSep Finset.univ fun c : Fin ((K (F := F)).nCore 0) => (P X).dn 0 d c)
        ∗ (tblLoc d ↦{Transfers.shareDrop fullShare 32} X.ft d) ∗ (outLoc d ↦[Finset.univ \ leftSet]{fullShare} X.fo d) : sProp 𝕄)
      ⊢ iprop((tblLoc d ↦{fullShare} X.ft d)
          ∗ ∃ g : Buf (Elt F) (outLoc d), ⌜∀ (e : Fin 320000) (b : Fin 256), g (ix2 e ⟨b.val, by omega⟩)
              = Cert.Hand.Spec.Gleft (X.ft d) (X.fs d) (X.fd d) e b⌝ ∗ outLoc d ↦{fullShare} g) := by
  rw [dn_families X d]
  iintro ⟨⟨Htt, -, -, Hch⟩, Htd, Hor⟩
  isplitl [Htt Htd]
  · iapply (tbl_toks d (X.ft d)).2
    isplitl [Htd]; · iexact Htd
    iexact Htt
  iapply (out_join X d)
  isplitl [Hch]; · iexact Hch
  iexact Hor

end Cert.Kernel.Hand

end
-- ==== Proof.HB.TailData.lean ====
/-
  The tail pipeline's proof data and its body obligation.

  The tail call runs over a grid of 80 points. At point t it fetches rows 4000 t + [0, 4000) of the radial array
  (16 columns) and of the angular array (4 columns) into staging buffers, runs the body, and writes the result's
  staging block back to the result array at rows 4000 t + [0, 4000), columns 256 + [0, 128) cut at the array's 276
  columns. The body stores into the whole result staging block the radial block, the angular block and 108 zero
  columns side by side. The proof data names these contents exactly: after the body the two input buffers hold their
  blocks and the result's buffer holds the stored block. Nothing is owed by the TensorCore during the region and the
  body keeps no invariant of its own.
-/
import proofs.«210912_g7524782702854_cont_9to1c4b_744_40_alg».proof.Proof.HB.Setup
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

/-- The one admissible contents of each pipeline: none has a prefetched table. -/
abbrev adm : (p : Fin 1) → (pcfgs (F := F) p).Adm := fun p => (cfgs p).toPCfg_adm

/-- The result's window is never fetched. -/
theorem fetch1_2 : ∀ t : Fin cfg1.N, (cfg1.win 2).fetch t = false :=
  (by decide +kernel : ∀ t : Fin grid1.N, win1_2.fetch t = false)

section Data

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

/-- The radial block of point `t`: rows `4000 t + [0, 4000)` of the radial array. -/
def radBlk (c : Dev nD) (t : Fin cfg1.N) : S4000x16.Idx → Elt F .f32 := (win1_0.blk t).view.read (Elt F) (A1 c)
/-- The angular block of point `t`. -/
def angBlk (c : Dev nD) (t : Fin cfg1.N) : S4000x4.Idx → Elt F .f32 := (win1_1.blk t).view.read (Elt F) (A2 c)
/-- What the body stores at point `t`: the two blocks side by side, then zero columns. -/
def outBlk (c : Dev nD) (t : Fin cfg1.N) : S4000x128.Idx → Elt F .f32 := k1_pay1 (radBlk A1 c t) (angBlk A2 c t)

/-- The proof data on device `c`. -/
def dats (_ : Fin 1) (c : Dev nD) : Dat τ (Elt F) (HIx 1) ℕ UU ℕ cfg1 c where
  A w := match w with
    | ⟨0, _⟩ => A1 c
    | ⟨1, _⟩ => A2 c
    | ⟨2, _⟩ => F5 c
  after w t := match w with
    | ⟨0, _⟩ => radBlk A1 c t
    | ⟨1, _⟩ => angBlk A2 c t
    | ⟨2, _⟩ => outBlk A1 A2 c t
  Φ _ := iprop(emp)
  q _ := fullShare
  owed _ := 0
  recorded _ := {p | (K (F := F)).lev ((c : Thread nD τ), p.1) p.2 ≤ 8}

theorem before_0 (c : Dev nD) (t : Fin cfg1.N) (d) : (dats A1 A2 F5 0 c).before (0 : Fin 3) t d = radBlk A1 c t := by
  unfold Dat.before; rw [if_pos (fetch1_0 t)]; rfl
theorem before_1 (c : Dev nD) (t : Fin cfg1.N) (d) : (dats A1 A2 F5 0 c).before (1 : Fin 3) t d = angBlk A2 c t := by
  unfold Dat.before; rw [if_pos (fetch1_1 t)]; rfl
theorem before_2 (c : Dev nD) (t : Fin cfg1.N) (d) : (dats A1 A2 F5 0 c).before (2 : Fin 3) t d = d := by
  unfold Dat.before
  rw [if_neg (by rw [fetch1_2 t]; exact Bool.false_ne_true)]
  split
  · rfl
  · exact if_pos (flush1_2 _)

end Data

/-! ## The kernel body's obligation -/

theorem hz2 : (![0, 0] : Fin 2 → Nat) = fun _ => 0 := funext fun a => by fin_cases a <;> rfl

set_option maxHeartbeats 1600000 in
/-- The kernel body on staging buffers `s0` of the radial window, `s1` of the angular window and `s2` of the result's:
    the whole loads of the first two, the dead load of the third, the whole store — the result's buffer ends holding
    the two blocks side by side and the zero columns, the other two unchanged. -/
theorem sound_body (c : Dev nD) (E : Set ℕ) (i : grid1.Coords) (s0 s1 s2 : Fin 2)
    (X0 : S4000x16.Idx → Elt F .f32) (X1 : S4000x4.Idx → Elt F .f32) (X2 : S4000x128.Idx → Elt F .f32) (Kp : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ Kp ⟨⟩))
      ⊢ wp frame (wpE (defs₀ (F := F)) 𝒱₀ c none) E
          (cc1__tail_kernel i (stage1_0 s0) (hstage1_0 s0) (stage1_1 s1) (hstage1_1 s1) (Memref.whole main_v4) (Memref.isWhole_whole _)
            (stage1_2 s2) (hstage1_2 s2)) Kp := by
  -- the accesses are at offsets zero and the buffers' own sizes, the whole buffers: a load reads the contents, an
  -- unmasked store writes the payload, at whichever of its window's two buffers each memref is
  have hr00 : (Memref.whole cc1_stg0_0 : Memref sig .tc _ _ _).view.readAt (Elt F) (Rect.unit (s := S4000x16) ![0, 0] S4000x16.size
      inb_S4000x16_S4000x16_0_0).toLoadRect = id := funext (Memref.readAt_unit_zero (Elt F) cc1_stg0_0 hz2 _)
  have hr01 : (Memref.whole cc1_stg0_1 : Memref sig .tc _ _ _).view.readAt (Elt F) (Rect.unit (s := S4000x16) ![0, 0] S4000x16.size
      inb_S4000x16_S4000x16_0_0).toLoadRect = id := funext (Memref.readAt_unit_zero (Elt F) cc1_stg0_1 hz2 _)
  have hr10 : (Memref.whole cc1_stg1_0 : Memref sig .tc _ _ _).view.readAt (Elt F) (Rect.unit (s := S4000x4) ![0, 0] S4000x4.size
      inb_S4000x4_S4000x4_0_0).toLoadRect = id := funext (Memref.readAt_unit_zero (Elt F) cc1_stg1_0 hz2 _)
  have hr11 : (Memref.whole cc1_stg1_1 : Memref sig .tc _ _ _).view.readAt (Elt F) (Rect.unit (s := S4000x4) ![0, 0] S4000x4.size
      inb_S4000x4_S4000x4_0_0).toLoadRect = id := funext (Memref.readAt_unit_zero (Elt F) cc1_stg1_1 hz2 _)
  have hw20 : ∀ f w, (((Memref.whole cc1_stg2_0).access (Rect.unit (s := S4000x128) ![0, 0] S4000x128.size inb_S4000x128_S4000x128_0_0)) :
      View sig .tc _ _ _).write (Elt F) f w Finset.univ = w := Memref.write_access_unit_zero_univ (Elt F) cc1_stg2_0 hz2 _
  have hw21 : ∀ f w, (((Memref.whole cc1_stg2_1).access (Rect.unit (s := S4000x128) ![0, 0] S4000x128.size inb_S4000x128_S4000x128_0_0)) :
      View sig .tc _ _ _).write (Elt F) f w Finset.univ = w := Memref.write_access_unit_zero_univ (Elt F) cc1_stg2_1 hz2 _
  fin_cases s0 <;> fin_cases s1 <;> fin_cases s2 <;>
  · simp only [owns_whole_eq, cc1__tail_kernel_eq_skeleton]; unfold cc1__tail_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    first | rw [hr00] | rw [hr01]
    first | rw [hr10] | rw [hr11]
    first | rw [hw20] | rw [hw21]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2

section Obligation

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

/-- The library's body obligation, from `sound_body` at the point's staging buffers: the radial and angular buffers
    arrive just fetched, holding their blocks, the result's holding anything; the first two leave as they came and the
    result's holding the stored block. Nothing is owed and the invariant is empty at either position. -/
theorem body_obligation (c : Dev nD) : BodyObligation (dats A1 A2 F5 0 c) (defs₀ (F := F)) 𝒱₀ (none : HIx 1) Set.univ := fun t => by
  rw [bigSep_W1, bigSep_W1]
  simp only
  rw [show (dats A1 A2 F5 0 c).Φ t.succ = (dats A1 A2 F5 0 c).Φ t.castSucc from rfl,
    show (dats A1 A2 F5 0 c).owesAt (none : HIx 1) t.succ = (dats A1 A2 F5 0 c).owesAt (none : HIx 1) t.castSucc from rfl]
  iintro ⟨HΦ, Ho, ⟨%d0, H0⟩, ⟨%d1, H1⟩, ⟨%d2, H2⟩⟩
  rw [before_0 A1 A2 F5 c t d0, before_1 A1 A2 F5 c t d1, before_2 A1 A2 F5 c t d2]
  iapply (sound_body (F := F) c Set.univ (grid1.coords t) (cfg1.slots t 0) (cfg1.slots t 1) (cfg1.slots t 2)
    (radBlk A1 c t) (angBlk A2 c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]; · iexact H0
  isplitl [H1]; · iexact H1
  iexact H2

end Obligation

end Cert.Kernel.Hand

end
-- ==== Proof.LibScRegion.lean ====
/-
  A TensorCore pipeline region entered from inside a SparseCore program.

  In a program with SparseCore kernels, @main on the TensorCore calls each TensorCore pipeline through the
  SparseCore wrapper's copy of the pipeline's entry label. Such a call is the lifting of the pipeline-level call,
  so the pipeline library's region rule applies below the wrapper and its conclusion is carried above it: from the
  region boundary, the region's entry state, the level facts and the pipeline's cells' ghost state, the wrapped
  call runs to the boundary and the region's exit state. Stated for the relational proof data (exact data enter
  through `Dat.toR`), for any number of pipelines and of SparseCore calls, against any postcondition; the ghost
  state of the pipelines' cells is funded in the launch element (`Pipeline.fund_ghost`), the index of the cells'
  waits is the kernels' own (`none`) and the level assignment is the launch's.
-/
import Idealize.ShloMosaic.Lib.SparseCore.Launch
import Idealize.ShloMosaic.Lib.Pipeline.Regions

noncomputable section

namespace Idealize.ShloMosaic.SparseCore.ScRegion

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : SL.Sem.Labels} {P : Type} [Fintype P] {Q : Nat}
variable {Name : Type} [DecidableEq Name] {U : Type} [URA U]
variable (pcs : P → Pipeline.PCfg sig Λ₀ Val) (a : (p : P) → (pcs p).Adm)
  (rdats : (p : P) → (c : Dev nD) → Pipeline.RDat τ Val (HIx Q) Name U ℕ (Pipeline.pin pcs a p) c)
  (phinj : Function.Injective (Pipeline.cellOf (nD := nD) (τ := τ) (Pipeline.pin pcs a)))
  (EP : Emb (URounds (GSem nD τ sig) Unit) (MT nD τ sig (HIx Q) Val Name U ℕ))
  (defs₀ : Defs nD τ sig Val Λ₀) (𝒱₀ : Variants)
  (K : SparseCore.Cfg τ sig (Pipeline.Sig Λ₀ P fun p => (pcs p).Adm) Q)

set_option backward.isDefEq.respectTransparency.types false in
include phinj in
/-- The wrapped call of pipeline `p`'s entry on TensorCore `d`, against any postcondition `Φ`. -/
theorem enter [∀ e, Nonempty (Val e)] [Infinite Name] [EP.LandsIn (upEmb : UEmb _ (MT nD τ sig (HIx Q) Val Name U ℕ))] {p : P}
    (R : Pipeline.RDat.RegionSeg pcs a rdats none defs₀ 𝒱₀ K.L K.lev p) (d : Dev nD)
    (Φ : PUnit → sProp (MT nD τ sig (HIx Q) Val Name U ℕ)) :
    iprop((iprop(boundary (T d) ∗ R.post d) -∗ Φ ⟨⟩)
        ∗ boundary (T d) ∗ R.pre d ∗ levAts K.L K.lev
        ∗ Pipeline.cellsGhost (Pipeline.pin pcs a) EP p d ∗ Pipeline.toksInit (Pipeline.pin pcs a) EP p d)
      ⊢ wp frame (wpE (K.defs (Pipeline.defs pcs defs₀)) 𝒱₀.lift (T d) none) Set.univ
          (Prog.lift (.customCall (SparseCore.inner (Pipeline.entry p)) ())) Φ := by
  show _ ⊢ wp frame (wpE (K.defs (Pipeline.defs pcs defs₀)) 𝒱₀.lift (T d) none) Set.univ
      (SparseCore.liftProg (Q := Q) (Prog.lift (.customCall (Pipeline.entry p) ()))) _
  refine BI.Entails.trans ?_ (K.wp_liftProg (Pipeline.defs pcs defs₀) 𝒱₀.lift (T d) Set.univ none _ _)
  have hreg := Pipeline.RDat.RegionSeg.wp pcs a rdats none phinj EP defs₀ 𝒱₀ K.L K.lev R d none (fun _ h => nomatch h)
    (fun _ => .ret ⟨⟩) Φ
  refine BI.Entails.trans ?_ hreg
  refine sep_mono_left (PROP := sProp (MT nD τ sig (HIx Q) Val Name U ℕ)) (wand_mono_right (PROP := sProp (MT nD τ sig (HIx Q) Val Name U ℕ)) ?_)
  rw [wp_ret]
  exact fupd_intro

end Idealize.ShloMosaic.SparseCore.ScRegion

end
-- ==== Proof.HB.TailRegion.lean ====
/-
  The tail pipeline as a region of the TensorCore's program, entered from inside the SparseCore program.

  After the one SparseCore call the TensorCore owes nothing and every wait it has recorded sits at or below that
  call's band of levels. The region takes the TensorCore's handshake state, the radial and angular arrays and the
  result array, each whole; it gives the handshake state back unchanged (the pipeline's own waits are recorded at the
  kernels' own index, the lowest level), the two input arrays unchanged, and the result array at the contents the
  eighty write-backs compute. Anything else the caller holds is framed around the call.
-/
import proofs.«210912_g7524782702854_cont_9to1c4b_744_40_alg».proof.Proof.HB.TailData
import proofs.«210912_g7524782702854_cont_9to1c4b_744_40_alg».proof.Proof.LibScRegion

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

section Region

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

/-- The TensorCore's debt and recorded waits after the one SparseCore call, as its handshake state holds them. -/
def tcOwes (d : Dev nD) : sProp 𝕄 :=
  iprop(∃ W, ⌜(K (F := F)).WBelow (SparseCore.T d) W (8 * 1)⌝ ∗ owes (SparseCore.T d) ((K (F := F)).Otc d 1) W)

/-- The rest of the TensorCore's handshake state after the one SparseCore call: it bypasses the region. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(tcOwes d ∗ tcTail d) := rfl

/-- The result array after the region, as the pipeline's write-backs compute it. -/
def tailFinal (c : Dev nD) : Buf (Elt F) ((c : Thread nD τ).loc main_v5) := (dats A1 A2 F5 0 c).arrAt (2 : Fin 3) cfg1.N

/-- The proof data as the region rule reads it: at each pipeline's configuration at its one admissible contents. -/
abbrev pdats : (p : Fin 1) → (c : Dev nD) → Dat τ (Elt F) (HIx 1) ℕ UU ℕ (Pipeline.pin (pcfgs (F := F)) adm p) c :=
  dats A1 A2 F5

theorem prefHeld_none (c : Dev nD) (q) (V) :
    (Pipeline.prefHeld (Ix := HIx 1) (Name := ℕ) (U := UU) (Lvl := ℕ) (Val := Elt F) (pcfgs (F := F) 0).pre c q V : sProp 𝕄) = BI.emp := by
  unfold Pipeline.prefHeld
  show bigSep (Finset.univ : Finset (Fin 0)) _ = _
  rw [Finset.univ_eq_empty, bigSep_empty]

/-- The three windows' arrays, one by one: each is a whole buffer held outright. -/
theorem arrays_three (c : Dev nD) (Fa : (w : Fin cfg1.W) → Buf (Elt F) ((cfg1.win w).arr.view.loc (c : Thread nD τ))) :
    ((dats A1 A2 F5 0 c).arrays Fa : sProp 𝕄)
      = iprop((((c : Thread nD τ).loc main_arg1) ↦{fullShare} Fa (0 : Fin 3)) ∗ (((c : Thread nD τ).loc main_arg2) ↦{fullShare} Fa (1 : Fin 3))
          ∗ (((c : Thread nD τ).loc main_v5) ↦{fullShare} Fa (2 : Fin 3))) := by
  unfold Dat.arrays
  rw [bigSep_W1, (arr_whole1 0).set_eq_univ, (arr_whole1 1).set_eq_univ, (arr_whole1 2).set_eq_univ]
  rfl

/-- The TensorCore's debt after the one SparseCore call is nothing, and its recorded waits sit at or below the call's
    band: that is the pipeline's `owes` at any point; -/
theorem owesAt_intro (c : Dev nD) (t : Fin (cfg1.N + 1)) : (tcOwes c : sProp 𝕄) ⊢ (dats A1 A2 F5 0 c).owesAt (none : HIx 1) t := by
  unfold tcOwes Pipeline.Dat.owesAt Pipeline.owesWithin
  rw [(K (F := F)).Otc_end c (le_refl 1)]
  iintro ⟨%W, %hW, HO⟩
  iexists W; isplitr
  · ipureintro; exact fun p hp => Or.inl (hW p hp)
  iexact HO

/-- and back: the pipeline's own waits are recorded at the kernels' own index, whose level is the lowest. -/
theorem owesAt_elim (c : Dev nD) (t : Fin (cfg1.N + 1)) : ((dats A1 A2 F5 0 c).owesAt (none : HIx 1) t : sProp 𝕄) ⊢ tcOwes c := by
  unfold tcOwes Pipeline.Dat.owesAt Pipeline.owesWithin
  rw [(K (F := F)).Otc_end c (le_refl 1)]
  iintro ⟨%W, %hW, HO⟩
  iexists W; isplitr
  · ipureintro
    intro p hp
    rcases hW hp with h | ⟨w, s, rfl⟩
    · exact h
    · exact Nat.zero_le _
  iexact HO

/-- The region: entered from the TensorCore's handshake state after the SparseCore call and the three arrays whole, it
    leaves the handshake state as it was, the two inputs as they were and the result array at `tailFinal`. -/
def tailSeg : Pipeline.RegionSeg (pcfgs (F := F)) adm (pdats A1 A2 F5) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation A1 A2 F5 c).loose
  hwaits := Pipeline.hwaits_of_owed_zero _ _ _ _ _ _ 0 fun _ _ => rfl
  pre c := iprop((K (F := F)).tcSt EH c 1 ∗ (((c : Thread nD τ).loc main_arg1) ↦{fullShare} A1 c) ∗ (((c : Thread nD τ).loc main_arg2) ↦{fullShare} A2 c)
    ∗ (((c : Thread nD τ).loc main_v5) ↦{fullShare} F5 c))
  post c := iprop((K (F := F)).tcSt EH c 1 ∗ (((c : Thread nD τ).loc main_arg1) ↦{fullShare} A1 c) ∗ (((c : Thread nD τ).loc main_arg2) ↦{fullShare} A2 c)
    ∗ (((c : Thread nD τ).loc main_v5) ↦{fullShare} tailFinal A1 A2 F5 c))
  X _ := iprop(emp)
  Y _ := iprop(emp)
  Z c := tcTail c
  hentry c := by
    rw [prefHeld_none, tcSt_one, arrays_three, Pipeline.ownSems0_none]
    iintro ⟨⟨⟨HO, HZ⟩, H1, H2, H5⟩, -, -⟩
    imodintro
    isplitl [H1 H2 H5]
    · isplitl [H1]; · iexact H1
      isplitl [H2]; · iexact H2
      iexact H5
    isplitr; · iempintro
    isplitl [HO]; · iapply (owesAt_intro A1 A2 F5 c 0); iexact HO
    isplitr; · iempintro
    iexact HZ
  hin c := by
    iintro -; iempintro
  hout c := by
    rw [Pipeline.ownSems0_none, scopedRest1_eq]
    iintro -
    isplitr; · iempintro
    isplitr <;> iempintro
  hexit c := by
    rw [arrays_three, tcSt_one, (dats A1 A2 F5 0 c).arrAt_in (0 : Fin 3) rfl, (dats A1 A2 F5 0 c).arrAt_in (1 : Fin 3) rfl]
    iintro ⟨⟨H1, H2, H5⟩, HO, -, HZ⟩
    imodintro
    isplitl [HO HZ]
    · isplitl [HO]; · iapply (owesAt_elim A1 A2 F5 c _); iexact HO
      iexact HZ
    isplitl [H1]; · iexact H1
    isplitl [H2]; · iexact H2
    iexact H5

set_option backward.isDefEq.respectTransparency.types false in
/-- The tail call from inside the SparseCore program, with the result array at what the write-backs compute. -/
theorem tail_call_final (d : Dev nD) (REST : sProp 𝕄) :
    iprop(levAts (K (F := F)).L (K (F := F)).lev ∗ (K (F := F)).tcSt EH d 1 ∗ boundary (SparseCore.T d)
        ∗ (((SparseCore.T d).loc main_arg1) ↦{fullShare} A1 d) ∗ (((SparseCore.T d).loc main_arg2) ↦{fullShare} A2 d)
        ∗ (((SparseCore.T d).loc main_v5) ↦{fullShare} F5 d)
        ∗ Pipeline.cellsGhost (Pipeline.pin (pcfgs (F := F)) adm) EP 0 d ∗ Pipeline.toksInit (Pipeline.pin (pcfgs (F := F)) adm) EP 0 d ∗ REST)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailFinal A1 A2 F5 d) ∗ REST) := by
  have hphinj : Function.Injective (Pipeline.cellOf (nD := nD) (τ := τ) (Pipeline.pin (pcfgs (F := F)) adm)) := cellOf_inj
  have henter := SparseCore.ScRegion.enter (pcfgs (F := F)) adm (Pipeline.Dat.toRs (pdats A1 A2 F5)) hphinj EP defs₀ 𝒱₀ (K (F := F))
    ((tailSeg A1 A2 F5).toR) d
    (fun _ => iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailFinal A1 A2 F5 d) ∗ REST))
  refine BI.Entails.trans (Q := iprop((iprop(boundary (SparseCore.T d) ∗ (tailSeg A1 A2 F5).post d) -∗
          iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailFinal A1 A2 F5 d) ∗ REST))
        ∗ boundary (SparseCore.T d) ∗ (tailSeg A1 A2 F5).pre d ∗ levAts (K (F := F)).L (K (F := F)).lev
        ∗ Pipeline.cellsGhost (Pipeline.pin (pcfgs (F := F)) adm) EP 0 d ∗ Pipeline.toksInit (Pipeline.pin (pcfgs (F := F)) adm) EP 0 d)) ?_ henter
  show _ ⊢ iprop((iprop(boundary (SparseCore.T d) ∗ ((K (F := F)).tcSt EH d 1 ∗ (((d : Thread nD τ).loc main_arg1) ↦{fullShare} A1 d) ∗ (((d : Thread nD τ).loc main_arg2) ↦{fullShare} A2 d)
    ∗ (((d : Thread nD τ).loc main_v5) ↦{fullShare} tailFinal A1 A2 F5 d))) -∗ _) ∗ boundary (SparseCore.T d) ∗ ((K (F := F)).tcSt EH d 1 ∗ (((d : Thread nD τ).loc main_arg1) ↦{fullShare} A1 d) ∗ (((d : Thread nD τ).loc main_arg2) ↦{fullShare} A2 d)
    ∗ (((d : Thread nD τ).loc main_v5) ↦{fullShare} F5 d)) ∗ _)
  iintro ⟨HL, Hst, Hb, H1, H2, H5, Hg, Ht, HR⟩
  isplitl [HR]
  · iintro ⟨Hb, Hst, H1, H2, H5⟩
    isplitl [Hst]; · iexact Hst
    isplitl [Hb]; · iexact Hb
    isplitl [H1]; · iexact H1
    isplitl [H2]; · iexact H2
    isplitl [H5]; · iexact H5
    iexact HR
  isplitl [Hb]; · iexact Hb
  isplitl [Hst H1 H2 H5]
  · isplitl [Hst]; · iexact Hst
    isplitl [H1]; · iexact H1
    isplitl [H2]; · iexact H2
    iexact H5
  isplitl [HL]; · iexact HL
  isplitl [Hg]; · iexact Hg
  iexact Ht

end Region

end Cert.Kernel.Hand

end
-- ==== Proof.HB.TailValue.lean ====
/-
  The result array after the tail region, in closed form.

  At point t the write-back writes the leading twenty columns of the stored block onto rows 4000 t + [0, 4000), columns
  256 + [0, 20) of the result array: the block's columns 0..15 are the radial block's and its columns 16..19 the angular
  block's, so what is written is the closed form's own block there. The eighty blocks are disjoint and cover the columns
  from 256 on; left of column 256 nothing is written. Hence after the last write-back the array holds its entry contents
  left of column 256, the radial row at columns 256..271 and the angular row at columns 272..275.
-/
import proofs.«210912_g7524782702854_cont_9to1c4b_744_40_alg».proof.Proof.HB.TailRegion
import Idealize.ShloMosaic.Lib.ValueIdx
import Idealize.ShloMosaic.Lib.Pipeline.Value

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

open Idealize.ShloMosaic.ValueIdx

/-- The result array after the region: the entry contents left of column 256, the radial and angular rows right of it. -/
def tailOut {α : Type} (f5 : (⟨2, ![320000, 276]⟩ : Shape).Idx → α) (a1 : (⟨2, ![320000, 16]⟩ : Shape).Idx → α)
    (a2 : (⟨2, ![320000, 4]⟩ : Shape).Idx → α) : (⟨2, ![320000, 276]⟩ : Shape).Idx → α := fun j =>
  if _h : (j 1).val < 256 then f5 j
  else if _h2 : (j 1).val < 272 then a1 (ix2 (j 0) ⟨(j 1).val - 256, by omega⟩)
  else a2 (ix2 (j 0) ⟨(j 1).val - 272, by have := (j 1).isLt; simp at this; omega⟩)

/-- Where the three windows' blocks lie at each point, and how the result's block is cut: rows `4000 u + [0, 4000)`;
    the radial and angular blocks from column 0, the result's from column 256, twenty columns wide. -/
theorem win_facts : ∀ u : Fin grid1.N,
    win1_0.index u 0 * 4000 = 4000 * u.val ∧ win1_0.index u 1 * 16 = 0
  ∧ win1_1.index u 0 * 4000 = 4000 * u.val ∧ win1_1.index u 1 * 4 = 0
  ∧ win1_2.index u 0 * 4000 = 4000 * u.val ∧ win1_2.index u 1 * 128 = 256
  ∧ win1_2.xsize (grid1.coords u) 0 = 4000 ∧ win1_2.xsize (grid1.coords u) 1 = 20 := by decide +kernel

section Value

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

theorem flushed_eq (c : Dev nD) (t : Fin cfg1.N) :
    (dats A1 A2 F5 0 c).flushed (2 : Fin 3) t = (win1_2.blk t).view.read (Elt F) (tailOut (F5 c) (A1 c) (A2 c)) := by
  obtain ⟨h00, h01, h10, h11, h20, h21, hx0, hx1⟩ := win_facts t
  funext j
  have hj0 : (j 0).val < 4000 := Nat.lt_of_lt_of_eq (j 0).isLt hx0
  have hj1 : (j 1).val < 20 := Nat.lt_of_lt_of_eq (j 1).isLt hx1
  rw [View.read_apply]
  show k1_pay1 (radBlk A1 c t) (angBlk A2 c t) (win1_2.xinj (grid1.coords t) j) = tailOut (F5 c) (A1 c) (A2 c) ((win1_2.rect t).emb j)
  -- the array index the block's index lands on: row `4000 t + j 0`, column `256 + j 1`
  have he0 : ((win1_2.rect t).emb j 0).val = 4000 * t.val + (j 0).val := by
    show win1_2.index t 0 * 4000 + 1 * (j 0).val = _; omega
  have he1 : ((win1_2.rect t).emb j 1).val = 256 + (j 1).val := by
    show win1_2.index t 1 * 128 + 1 * (j 1).val = _; omega
  generalize (win1_2.rect t).emb j = e at he0 he1 ⊢
  unfold tailOut
  rw [dif_neg (by omega : ¬ (e 1).val < 256)]
  by_cases h16 : (j 1).val < 16
  · -- a radial column: the first piece of the stored block, read through the radial block
    rw [dif_pos (by omega : (e 1).val < 272)]
    refine (concatenate_apply_piece (t := S4000x128) (1 : Fin 2) [⟨S4000x16, radBlk A1 c t⟩, ⟨S4000x4, angBlk A2 c t⟩, ⟨S4000x108, broadcast S4000x108 (Scalar.ofBits .f32 0x00000000#32 : F .f32)⟩] concatenates_S4000x16_S4000x4_S4000x108_S4000x128_d1 (win1_2.xinj (grid1.coords t) j) 0 (by show (_ : Nat) < 3; omega) S4000x16
      (radBlk A1 c t) rfl rfl 0 rfl (ix2 (⟨(j 0).val, hj0⟩ : Fin 4000) (⟨(j 1).val, h16⟩ : Fin 16)) (fun b hb => ?_) ?_).trans ?_
    · match b with
      | ⟨0, _⟩ => rfl
      | ⟨1, _⟩ => exact absurd (Fin.ext rfl) hb
    · show 0 + (j 1).val = (j 1).val; omega
    · unfold radBlk; rw [View.read_apply]
      show A1 c ((win1_0.rect t).emb _) = _
      congr 1
      funext a
      match a with
      | ⟨0, _⟩ => exact Fin.ext (by show win1_0.index t 0 * 4000 + 1 * (j 0).val = (e 0).val; omega)
      | ⟨1, _⟩ => exact Fin.ext (by show win1_0.index t 1 * 16 + 1 * (j 1).val = (e 1).val - 256; omega)
  · -- an angular column: the second piece, sixteen columns in, read through the angular block
    rw [dif_neg (by omega : ¬ (e 1).val < 272)]
    have h4 : (j 1).val - 16 < 4 := by omega
    refine (concatenate_apply_piece (t := S4000x128) (1 : Fin 2) [⟨S4000x16, radBlk A1 c t⟩, ⟨S4000x4, angBlk A2 c t⟩, ⟨S4000x108, broadcast S4000x108 (Scalar.ofBits .f32 0x00000000#32 : F .f32)⟩] concatenates_S4000x16_S4000x4_S4000x108_S4000x128_d1 (win1_2.xinj (grid1.coords t) j) 1 (by show (_ : Nat) < 3; omega) S4000x4
      (angBlk A2 c t) rfl rfl 16 rfl (ix2 (⟨(j 0).val, hj0⟩ : Fin 4000) (⟨(j 1).val - 16, h4⟩ : Fin 4)) (fun b hb => ?_) ?_).trans ?_
    · match b with
      | ⟨0, _⟩ => rfl
      | ⟨1, _⟩ => exact absurd (Fin.ext rfl) hb
    · show 16 + ((j 1).val - 16) = (j 1).val; omega
    · unfold angBlk; rw [View.read_apply]
      show A2 c ((win1_1.rect t).emb _) = _
      congr 1
      funext a
      match a with
      | ⟨0, _⟩ => exact Fin.ext (by show win1_1.index t 0 * 4000 + 1 * (j 0).val = (e 0).val; omega)
      | ⟨1, _⟩ => exact Fin.ext (by show win1_1.index t 1 * 4 + 1 * ((j 1).val - 16) = (e 1).val - 272; omega)

/-- An index of the result array at or right of column 256 lies in the block of the point its row belongs to. -/
theorem mem_blk (u : Fin cfg1.N) (i : S320000x276.Idx) (h0 : 4000 * u.val ≤ (i 0).val) (h0' : (i 0).val < 4000 * u.val + 4000)
    (h1 : 256 ≤ (i 1).val) : i ∈ (win1_2.blk u).view.setOn Finset.univ := by
  obtain ⟨-, -, -, -, h20, h21, hx0, hx1⟩ := win_facts u
  rw [View.setOn_univ]
  show i ∈ ((View.whole main_v5).slice (win1_2.rect u)).set
  rw [View.set_slice_whole, Rect.mem_set_unit]
  have h276 : (i 1).val < 276 := (i 1).isLt
  intro a
  match a with
  | ⟨0, _⟩ =>
    show win1_2.index u 0 * 4000 ≤ (i 0).val ∧ (i 0).val < win1_2.index u 0 * 4000 + win1_2.xsize (grid1.coords u) 0
    omega
  | ⟨1, _⟩ =>
    show win1_2.index u 1 * 128 ≤ (i 1).val ∧ (i 1).val < win1_2.index u 1 * 128 + win1_2.xsize (grid1.coords u) 1
    omega

/-- After the write-backs of the points below `t` every entry of the result array is the closed form's or the entry
    contents', and right of column 256 the rows below `4000 t` are the closed form's. -/
theorem arrAt_inv (c : Dev nD) : ∀ t : Nat, t ≤ cfg1.N → ∀ i : S320000x276.Idx,
    ((dats A1 A2 F5 0 c).arrAt (2 : Fin 3) t i = tailOut (F5 c) (A1 c) (A2 c) i ∨ (dats A1 A2 F5 0 c).arrAt (2 : Fin 3) t i = F5 c i)
    ∧ ((i 0).val < 4000 * t → 256 ≤ (i 1).val → (dats A1 A2 F5 0 c).arrAt (2 : Fin 3) t i = tailOut (F5 c) (A1 c) (A2 c) i)
  | 0, _, i => ⟨Or.inr rfl, fun h => absurd h (by omega)⟩
  | t + 1, ht, i => by
    have ih := arrAt_inv c t (by omega) i
    have hlt : t < cfg1.N := by omega
    rw [(dats A1 A2 F5 0 c).arrAt_succ (2 : Fin 3) ⟨t, hlt⟩, if_pos (flush1_2 _), flushed_eq, View.write_read_eq_piecewise]
    unfold Finset.piecewise
    split
    · exact ⟨Or.inl rfl, fun _ _ => rfl⟩
    · rename_i hmem
      refine ⟨ih.1, fun h0 h1 => ?_⟩
      by_cases hlo : (i 0).val < 4000 * t
      · exact ih.2 hlo h1
      · exact absurd (mem_blk ⟨t, hlt⟩ i (by show 4000 * t ≤ _; omega) (by show _ < 4000 * t + 4000; omega) h1) hmem

/-- The result array after the region is the entry contents left of column 256 and the radial and angular rows right of
    it. -/
theorem tailFinal_eq (c : Dev nD) : tailFinal A1 A2 F5 c = tailOut (F5 c) (A1 c) (A2 c) := by
  funext i
  have h := arrAt_inv A1 A2 F5 c cfg1.N (le_refl _) i
  by_cases h1 : 256 ≤ (i 1).val
  · have h320 : (i 0).val < 320000 := (i 0).isLt
    have hN : cfg1.N = 80 := N_1
    exact h.2 (by rw [hN]; omega) h1
  · rcases h.1 with h' | h'
    · exact h'
    · refine h'.trans ?_
      unfold tailOut; rw [dif_pos (by omega)]

end Value

end Cert.Kernel.Hand

end
-- ==== Proof.HB.TailFund.lean ====
/-
  Funding the tail pipeline's staging cells in the launch element.

  The pipeline factor of the launch element is the rounds element taken at the pipeline's staging cells on every
  device and at one duty token per transfer the pipeline issues. Owning it gives every device the launch ghost state of
  its cells (no schedule chosen, the owner at round 0, round 0 reached) and its duty tokens: what the region is entered
  with.
-/
import proofs.«210912_g7524782702854_cont_9to1c4b_744_40_alg».proof.Proof.HB.TailData

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

/-- The staging cells of the tail pipeline on every device, and the duty tokens of its transfers: what the launch
    element's pipeline factor is taken at. -/
def tailCells : Finset (GSem nD τ sig) := Pipeline.cells (nD := nD) (τ := τ) cfgs cellOf_inj
def tailToks : Finset (GSem nD τ sig × ℕ × Unit) := Pipeline.launchToks (nD := nD) (τ := τ) cfgs cellOf_inj

/-- Funding: the rounds element at the staging cells and the transfers' tokens gives every device its cells' ghost state
    and its duty tokens. -/
theorem tail_fund :
    (BI.own (EP (F := F) (initOf tailCells tailToks)) : sProp 𝕄)
      ⊢ iprop(|==> bigSep Finset.univ fun d : Dev nD =>
          iprop(Pipeline.cellsGhost (Pipeline.pin (pcfgs (F := F)) adm) EP 0 d ∗ Pipeline.toksInit (Pipeline.pin (pcfgs (F := F)) adm) EP 0 d)) := by
  have h1 : ∀ (Φ : Fin 1 → sProp 𝕄), bigSep Finset.univ Φ = Φ 0 := fun Φ =>
    bigSep_univ_eq_bigSepL [(0 : Fin 1)] (by decide) (by decide) Φ
  have key : iprop((bigSep Finset.univ fun c : Dev nD => bigSep Finset.univ fun p : Fin 1 => Pipeline.cellsGhost (cfgs) (EP (F := F)) p c)
        ∗ (bigSep Finset.univ fun c : Dev nD => bigSep Finset.univ fun p : Fin 1 => (Pipeline.toksInit (cfgs) (EP (F := F)) p c : sProp 𝕄)))
      ⊢ bigSep Finset.univ fun d : Dev nD =>
          iprop(Pipeline.cellsGhost (Pipeline.pin (pcfgs (F := F)) adm) EP 0 d ∗ Pipeline.toksInit (Pipeline.pin (pcfgs (F := F)) adm) EP 0 d) := by
    rw [bigSep_sep']; simp only [h1]; exact .rfl
  unfold tailCells tailToks
  iintro Hu
  imod (Pipeline.fund_ghost (cfgs) (EP (F := F)) cellOf_inj) $$ Hu with H
  imodintro
  iapply key; iexact H

end Cert.Kernel.Hand

end
-- ==== Proof.HB.Tail.lean ====
/-
  The tail call, entered from inside the SparseCore program: the statement the TensorCore's proof uses at the
  program's last line.

  From the level facts, the TensorCore's handshake state after the one SparseCore call, its region boundary, the
  radial, angular and result arrays held whole, and the ghost state and duty tokens of the pipeline's staging cells, the
  wrapped call of the pipeline's entry runs to the same handshake state and boundary, the two inputs unchanged, and the
  result array holding its entry contents left of column 256, the radial row at columns 256..271 and the angular row at
  columns 272..275. The region needs nothing else of what the TensorCore holds; whatever else the caller holds is a
  frame.
-/
import proofs.«210912_g7524782702854_cont_9to1c4b_744_40_alg».proof.Proof.HB.TailRegion
import proofs.«210912_g7524782702854_cont_9to1c4b_744_40_alg».proof.Proof.HB.TailValue
import proofs.«210912_g7524782702854_cont_9to1c4b_744_40_alg».proof.Proof.HB.TailFund
import proofs.«210912_g7524782702854_cont_9to1c4b_744_40_alg».proof.Proof.Spec

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

open Idealize.ShloMosaic.ValueIdx

section Call

/-- The tail call from inside the SparseCore program, with the contents given device by device. -/
theorem tail_call_fam (A1 : (c : Dev nD) → Buf (Elt F) ((c : Thread nD τ).loc main_arg1)) (A2 : (c : Dev nD) → Buf (Elt F) ((c : Thread nD τ).loc main_arg2))
    (F5 : (c : Dev nD) → Buf (Elt F) ((c : Thread nD τ).loc main_v5)) (d : Dev nD) (REST : sProp 𝕄) :
    iprop(levAts (K (F := F)).L (K (F := F)).lev ∗ (K (F := F)).tcSt EH d 1 ∗ boundary (SparseCore.T d)
        ∗ (((SparseCore.T d).loc main_arg1) ↦{fullShare} A1 d) ∗ (((SparseCore.T d).loc main_arg2) ↦{fullShare} A2 d)
        ∗ (((SparseCore.T d).loc main_v5) ↦{fullShare} F5 d)
        ∗ Pipeline.cellsGhost (Pipeline.pin (pcfgs (F := F)) adm) EP 0 d ∗ Pipeline.toksInit (Pipeline.pin (pcfgs (F := F)) adm) EP 0 d ∗ REST)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailOut (F5 d) (A1 d) (A2 d)) ∗ REST) := by
  have h := tail_call_final A1 A2 F5 d REST
  rw [tailFinal_eq] at h
  exact h

/-- The tail call on device `d`'s TensorCore, entered from inside the SparseCore program after the one SparseCore call:
    from the level facts, the TensorCore's handshake state, its region boundary, the radial, angular and result arrays
    whole, and the ghost state and duty tokens of the pipeline's staging cells, the call runs to the handshake state and
    the boundary as they were, the two inputs unchanged and the result array at the closed form. `REST` is any frame. -/
theorem tail_call (d : Dev nD) (a1 : Buf (Elt F) ((SparseCore.T d).loc main_arg1)) (a2 : Buf (Elt F) ((SparseCore.T d).loc main_arg2))
    (f5 : Buf (Elt F) ((SparseCore.T d).loc main_v5)) (REST : sProp 𝕄) :
    iprop(levAts (K (F := F)).L (K (F := F)).lev ∗ (K (F := F)).tcSt EH d 1 ∗ boundary (SparseCore.T d)
        ∗ (((SparseCore.T d).loc main_arg1) ↦{fullShare} a1) ∗ (((SparseCore.T d).loc main_arg2) ↦{fullShare} a2)
        ∗ (((SparseCore.T d).loc main_v5) ↦{fullShare} f5)
        ∗ Pipeline.cellsGhost (Pipeline.pin (pcfgs (F := F)) adm) EP 0 d ∗ Pipeline.toksInit (Pipeline.pin (pcfgs (F := F)) adm) EP 0 d ∗ REST)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ boundary (SparseCore.T d)
            ∗ (((SparseCore.T d).loc main_arg1) ↦{fullShare} a1) ∗ (((SparseCore.T d).loc main_arg2) ↦{fullShare} a2)
            ∗ (((SparseCore.T d).loc main_v5) ↦{fullShare} tailOut f5 a1 a2) ∗ REST) :=
  tail_call_fam (fun _ => a1) (fun _ => a2) (fun _ => f5) d REST

end Call

/-- The closed form is the specification function, once the entry contents are the specification's left 256 columns. -/
theorem tailOut_eq_G {α : Type} (tbl : (⟨2, ![10000, 128]⟩ : Shape).Idx → α) (rad : (⟨2, ![320000, 16]⟩ : Shape).Idx → α)
    (ang : (⟨2, ![320000, 4]⟩ : Shape).Idx → α) (idx : (⟨2, ![2, 320000]⟩ : Shape).Idx → BitVec 32)
    (f5 : (⟨2, ![320000, 276]⟩ : Shape).Idx → α)
    (h : ∀ j : (⟨2, ![320000, 276]⟩ : Shape).Idx, (j 1).val < 256 → f5 j = Cert.Hand.Spec.G tbl rad ang idx j) :
    tailOut f5 rad ang = Cert.Hand.Spec.G tbl rad ang idx := by
  funext j
  by_cases h1 : (j 1).val < 256
  · unfold tailOut; rw [dif_pos h1]; exact h j h1
  · unfold tailOut Cert.Hand.Spec.G
    rw [dif_neg h1, dif_neg (by omega : ¬ (j 1).val < 128), dif_neg h1]

end Cert.Kernel.Hand

end
-- ==== Proof.HB.Main.lean ====
/-
  @main on the TensorCore. Four host operations slice the two rows of the index array out and flatten them; the
  SparseCore call gathers the table rows into the left 256 columns of an array of the result's shape; a host operation
  copies that array into the result's buffer; the tail pipeline writes the radial and angular columns into it. The
  proof follows the program: the unscoped buffers are held whole through the host operations; for the call the node
  table is cut into thirty-two read shares, each index array into the tasks' slabs and the gathered array into the
  tasks' chunks, and what comes back is joined into one array that left of column 256 is the specification's left
  part; after the copy and the pipeline the result's buffer holds, left of column 256, that array and right of it the
  feature rows, which is the specification (`final_eq`). The four arguments are held at their launch contents at the
  end: the claim reads them and the result off the final memory.
-/
import proofs.«210912_g7524782702854_cont_9to1c4b_744_40_alg».proof.Proof.HB.Host
import proofs.«210912_g7524782702854_cont_9to1c4b_744_40_alg».proof.Proof.HB.Split
import proofs.«210912_g7524782702854_cont_9to1c4b_744_40_alg».proof.Proof.HB.Tail

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ) (ρ : Dev nD → PrngReg)

/-! ## The TensorCore's unscoped buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev SU : Finset (DevRef τ sig) := {a0', a1', a2', a3', v0', v1', v2', v3', v4', v5'}

omit m in
theorem held_SU (d : Dev nD) (W : Valuation τ sig (Elt F)) :
    (held (SparseCore.T d) SU W : sProp 𝕄) = iprop((tblLoc d ↦{fullShare} W a0') ∗ (radLoc d ↦{fullShare} W a1') ∗ (angLoc d ↦{fullShare} W a2')
      ∗ (idxLoc d ↦{fullShare} W a3') ∗ ((SparseCore.T d : Thread nD τ).loc main_v0 ↦{fullShare} W v0') ∗ (srcLoc d ↦{fullShare} W v1')
      ∗ ((SparseCore.T d : Thread nD τ).loc main_v2 ↦{fullShare} W v2') ∗ (dstLoc d ↦{fullShare} W v3') ∗ (outLoc d ↦{fullShare} W v4') ∗ (resLoc d ↦{fullShare} W v5')) := by
  unfold held SU
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit m in
theorem unscopedBufs_eq (d : Dev nD) (W : (b : Ref sig .tc) → Buf (Elt F) ((d.tc : Thread nD τ).loc b)) :
    (unscopedBufs d W : sProp 𝕄) = iprop((tblLoc d ↦{fullShare} W main_arg0) ∗ (radLoc d ↦{fullShare} W main_arg1) ∗ (angLoc d ↦{fullShare} W main_arg2)
      ∗ (idxLoc d ↦{fullShare} W main_arg3) ∗ ((SparseCore.T d : Thread nD τ).loc main_v0 ↦{fullShare} W main_v0) ∗ (srcLoc d ↦{fullShare} W main_v1)
      ∗ ((SparseCore.T d : Thread nD τ).loc main_v2 ↦{fullShare} W main_v2) ∗ (dstLoc d ↦{fullShare} W main_v3) ∗ (outLoc d ↦{fullShare} W main_v4) ∗ (resLoc d ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d : Thread nD τ).loc b)) : sProp 𝕄) = held (SparseCore.T d) SU (V0 m d) := by
  rw [unscopedBufs_eq, held_SU]; rfl

theorem hop0 : (op0 (F := F)).bufs ⊆ SU := show ({a3', v0'} : Finset (DevRef τ sig)) ⊆ SU by decide
theorem hop1 : (op1 (F := F)).bufs ⊆ SU := show ({v0', v1'} : Finset (DevRef τ sig)) ⊆ SU by decide
theorem hop2 : (op2 (F := F)).bufs ⊆ SU := show ({a3', v2'} : Finset (DevRef τ sig)) ⊆ SU by decide
theorem hop3 : (op3 (F := F)).bufs ⊆ SU := show ({v2', v3'} : Finset (DevRef τ sig)) ⊆ SU by decide
theorem hop5 : (op5 (F := F)).bufs ⊆ SU := show ({v4', v5'} : Finset (DevRef τ sig)) ⊆ SU by decide

variable [FloatOps F]

/-- One host operation at the head of @main, over the unscoped buffers held whole. -/
theorem hlo_step (d : Dev nD) (SS : Finset (DevRef τ sig)) (op : HloOp τ sig (Elt F)) (hS : op.bufs ⊆ SS) (hf : op.fresh = ∅) (V : Valuation τ sig (Elt F)) (Φ : PUnit → sProp 𝕄) :
    iprop(boundary (SparseCore.T d : Thread nD τ) ∗ (held (SparseCore.T d) SS V : sProp 𝕄)
        ∗ ((boundary (SparseCore.T d : Thread nD τ) ∗ (held (SparseCore.T d) SS (op.result V) : sProp 𝕄)) -∗ Φ ⟨⟩))
      ⊢ wp frame (wpE ((K (F := F)).defs (D (F := F))) 𝒱 (SparseCore.T d) none) Set.univ (hlo rfl op (fun _ => .ret ⟨⟩)) Φ := by
  iintro ⟨Hb, Hheld, Hk⟩
  iapply (wp_hlo_within 𝒱 (SparseCore.T d) none Set.univ (op := op) (S := SS) hS (V := V) hf) $$ [Hb Hheld]
  · isplitl [Hb]; · iexact Hb
    iexact Hheld
  iintro ⟨Hb, Hheld⟩
  rw [wp_ret]; imodintro
  iapply Hk
  isplitl [Hb]; · iexact Hb
  iexact Hheld

/-- The four host operations before the call: from the launch contents to `Vh`. -/
theorem host_before (d : Dev nD) (Q : PUnit → sProp 𝕄)
    (k : Prog (TpuEff nD τ sig (Elt F) (SparseCore.Sig (Pipeline.Sig Λ₀ (Fin 1) fun p => (pcfgs (F := F) p).Adm) 1) .tc) PUnit) :
    iprop(boundary (SparseCore.T d : Thread nD τ) ∗ (held (SparseCore.T d) SU (V0 m d) : sProp 𝕄)
        ∗ ((boundary (SparseCore.T d : Thread nD τ) ∗ (held (SparseCore.T d) SU (Vh m d) : sProp 𝕄))
            -∗ wp frame (wpE ((K (F := F)).defs (D (F := F))) 𝒱 (SparseCore.T d) none) Set.univ k Q))
      ⊢ wp frame (wpE ((K (F := F)).defs (D (F := F))) 𝒱 (SparseCore.T d) none) Set.univ
          (do
            hlo rfl (op0 (F := F)) (fun _ => .ret ⟨⟩)
            hlo rfl (op1 (F := F)) (fun _ => .ret ⟨⟩)
            hlo rfl (op2 (F := F)) (fun _ => .ret ⟨⟩)
            hlo rfl (op3 (F := F)) (fun _ => .ret ⟨⟩)
            k) Q := by
  simp only [wp_bind]
  iintro ⟨Hb, Hheld, Hk⟩
  iapply (hlo_step d SU op0 hop0 rfl (V0 m d) _) $$ [Hb Hheld Hk]
  isplitl [Hb]; · iexact Hb
  isplitl [Hheld]; · iexact Hheld
  iintro ⟨Hb, Hheld⟩
  iapply (hlo_step d SU op1 hop1 rfl _ _) $$ [Hb Hheld Hk]
  isplitl [Hb]; · iexact Hb
  isplitl [Hheld]; · iexact Hheld
  iintro ⟨Hb, Hheld⟩
  iapply (hlo_step d SU op2 hop2 rfl _ _) $$ [Hb Hheld Hk]
  isplitl [Hb]; · iexact Hb
  isplitl [Hheld]; · iexact Hheld
  iintro ⟨Hb, Hheld⟩
  iapply (hlo_step d SU op3 hop3 rfl _ _) $$ [Hb Hheld Hk]
  isplitl [Hb]; · iexact Hb
  isplitl [Hheld]; · iexact Hheld
  iintro ⟨Hb, Hheld⟩
  iapply Hk
  isplitl [Hb]; · iexact Hb
  iexact Hheld

/-! ## The copy into the result's buffer -/

abbrev S5 : Finset (DevRef τ sig) := {v4', v5'}

omit m [FloatOps F] in
theorem held_S5 (d : Dev nD) (W : Valuation τ sig (Elt F)) :
    (held (SparseCore.T d) S5 W : sProp 𝕄) = iprop((outLoc d ↦{fullShare} W v4') ∗ (resLoc d ↦{fullShare} W v5')) := by
  unfold held S5
  rw [SparseCore.bigSep_insert' (by decide), bigSep_singleton]

omit m [FloatOps F] in
theorem hop5' : (op5 (F := F)).bufs ⊆ S5 := show ({v4', v5'} : Finset (DevRef τ sig)) ⊆ S5 by decide

/-- The buffer contents with the gathered array at `g`. -/
def V5 (d : Dev nD) (g : Buf (Elt F) (outLoc d)) : Valuation τ sig (Elt F) := Function.update (V0 m d) v4' g

theorem V5_v4 (d : Dev nD) (g : Buf (Elt F) (outLoc d)) : V5 m d g v4' = g := Function.update_self _ _ _
theorem V5_v5 (d : Dev nD) (g : Buf (Elt F) (outLoc d)) : V5 m d g v5' = m (resLoc d) := Function.update_of_ne (show v5' ≠ v4' by decide) _ _

theorem op5_v5 (W : Valuation τ sig (Elt F)) : (op5 (F := F)).result W v5' = W v4' := StableHlo.unary_result _ _ _ _ _ W
theorem op5_v4 (W : Valuation τ sig (Elt F)) : (op5 (F := F)).result W v4' = W v4' :=
  StableHlo.unary_result_ne _ _ _ _ _ W (show (main_v4 : Ref sig .tc) ≠ main_v5 by decide)

/-- The copy: afterwards both buffers hold the gathered array. -/
theorem copy_step (d : Dev nD) (g : Buf (Elt F) (outLoc d)) (Φ : PUnit → sProp 𝕄) :
    iprop(boundary (SparseCore.T d : Thread nD τ) ∗ (outLoc d ↦{fullShare} g) ∗ (resLoc d ↦{fullShare} m (resLoc d))
        ∗ ((boundary (SparseCore.T d : Thread nD τ) ∗ (outLoc d ↦{fullShare} g) ∗ (resLoc d ↦{fullShare} (g : Buf (Elt F) (resLoc d)))) -∗ Φ ⟨⟩))
      ⊢ wp frame (wpE ((K (F := F)).defs (D (F := F))) 𝒱 (SparseCore.T d) none) Set.univ (hlo rfl (op5 (F := F)) (fun _ => .ret ⟨⟩)) Φ := by
  iintro ⟨Hb, Ho, Hres, Hk⟩
  iapply (hlo_step d S5 op5 hop5' rfl (V5 m d g) Φ) $$ [Hb Ho Hres Hk]
  isplitl [Hb]; · iexact Hb
  isplitl [Ho Hres]
  · rw [held_S5, V5_v4, V5_v5]
    isplitl [Ho]; · iexact Ho
    iexact Hres
  iintro ⟨Hb, Hh⟩
  ihave Hh' := (Entails.of_eq (held_S5 (F := F) d _)) $$ Hh
  rw [op5_v5, op5_v4, V5_v4]
  icases Hh' with ⟨Ho, Hres⟩
  iapply Hk
  isplitl [Hb]; · iexact Hb
  isplitl [Ho]; · iexact Ho
  iexact Hres

/-! ## The value of the final array -/

/-- Left of column 256 the gathered rows, right of it the feature rows: the specification. -/
theorem final_eq (d : Dev nD) (g : Buf (Elt F) (resLoc d))
    (hg : ∀ (e : Fin 320000) (b : Fin 256), g (ix2 e ⟨b.val, by omega⟩) = Cert.Hand.Spec.Gleft (m (tblLoc d)) (srcW m d) (dstW m d) e b) :
    tailOut g (m (radLoc d)) (m (angLoc d)) = Cert.Hand.Spec.G (m (tblLoc d)) (m (radLoc d)) (m (angLoc d)) (m (idxLoc d)) := by
  funext j
  by_cases h : (j 1).val < 256
  · have e1 : tailOut g (m (radLoc d)) (m (angLoc d)) j = g j := dif_pos h
    have e2 := hg (j 0) ⟨(j 1).val, h⟩
    have e3 : g (ix2 (j 0) ⟨(j 1).val, by have : (j 1).val < 276 := (j 1).isLt; omega⟩) = g j :=
      congrArg g (Idealize.ShloMosaic.ValueIdx.eq_ix2 j).symm
    rw [e1, ← e3, e2]
    unfold Cert.Hand.Spec.Gleft Cert.Hand.Spec.G
    by_cases h1 : (j 1).val < 128
    · rw [dif_pos h1, dif_pos h1, show srcW m d (ix1 (j 0)) = m (idxLoc d) (ix2 (0 : Fin 2) (j 0)) from srcW_apply m d (j 0)]
    · have h2 : (j 1).val < 256 := h
      rw [dif_neg h1, dif_neg h1, dif_pos h2, show dstW m d (ix1 (j 0)) = m (idxLoc d) (ix2 (1 : Fin 2) (j 0)) from dstW_apply m d (j 0)]
  · have e1 : tailOut g (m (radLoc d)) (m (angLoc d)) j
        = if h2 : (j 1).val < 272 then m (radLoc d) (ix2 (j 0) ⟨(j 1).val - 256, by omega⟩)
          else m (angLoc d) (ix2 (j 0) ⟨(j 1).val - 272, by have : (j 1).val < 276 := (j 1).isLt; omega⟩) := dif_neg h
    rw [e1]
    unfold Cert.Hand.Spec.G
    have h1 : ¬ (j 1).val < 128 := by omega
    rw [dif_neg h1, dif_neg h]

/-! ## @main -/

/-- The tail pipeline's cells' ghost state on device `d`. -/
def tailGhost (d : Dev nD) : sProp 𝕄 :=
  iprop(Pipeline.cellsGhost (Pipeline.pin (pcfgs (F := F)) adm) EP 0 d ∗ Pipeline.toksInit (Pipeline.pin (pcfgs (F := F)) adm) EP 0 d)

/-- @main after its first four host operations: the SparseCore call, the copy into the result's buffer, the tail
    pipeline. -/
def mainRest (d : Dev nD) : Prog (TpuEff nD τ sig (Elt F) (SparseCore.Sig (Pipeline.Sig Λ₀ (Fin 1) fun p => (pcfgs (F := F) p).Adm) 1) .tc) PUnit := do
  (sc (F := F)).run d 0
  hlo rfl (op5 (F := F)) (fun _ => .ret ⟨⟩)
  Prog.lift (.customCall (SparseCore.inner (Pipeline.entry 0)) ())
  pure ⟨⟩

omit m in
theorem main_eq (d : Dev nD) : main (F := F) d = (do
    hlo rfl (op0 (F := F)) (fun _ => .ret ⟨⟩)
    hlo rfl (op1 (F := F)) (fun _ => .ret ⟨⟩)
    hlo rfl (op2 (F := F)) (fun _ => .ret ⟨⟩)
    hlo rfl (op3 (F := F)) (fun _ => .ret ⟨⟩)
    mainRest d) := rfl

/-- What @main leaves the claim: the four arguments at their launch contents and the result at the specification. -/
def FIN (d : Dev nD) : sProp 𝕄 :=
  iprop((tblLoc d ↦{fullShare} m (tblLoc d)) ∗ (radLoc d ↦{fullShare} m (radLoc d)) ∗ (angLoc d ↦{fullShare} m (angLoc d)) ∗ (idxLoc d ↦{fullShare} m (idxLoc d))
    ∗ (resLoc d ↦{fullShare} Cert.Hand.Spec.G (m (tblLoc d)) (m (radLoc d)) (m (angLoc d)) (m (idxLoc d))))

/-- What the tail pipeline leaves, with the other two arguments, is what @main owes the claim. -/
theorem tail_post (d : Dev nD) (g : Buf (Elt F) (resLoc d))
    (hg : ∀ (e : Fin 320000) (b : Fin 256), g (ix2 e ⟨b.val, by omega⟩) = Cert.Hand.Spec.Gleft (m (tblLoc d)) (srcW m d) (dstW m d) e b) :
    iprop((K (F := F)).tcSt EH d 1 ∗ boundary (SparseCore.T d : Thread nD τ) ∗ (radLoc d ↦{fullShare} m (radLoc d)) ∗ (angLoc d ↦{fullShare} m (angLoc d))
        ∗ (resLoc d ↦{fullShare} tailOut g (m (radLoc d)) (m (angLoc d))) ∗ (tblLoc d ↦{fullShare} m (tblLoc d)) ∗ (idxLoc d ↦{fullShare} m (idxLoc d)) : sProp 𝕄)
      ⊢ |={Set.univ}=> iprop((K (F := F)).tcSt EH d 1 ∗ FIN m d) := by
  rw [final_eq m d g hg]
  unfold FIN
  iintro ⟨Hst, -, Hr, Ha, Hres, Ht, Hi⟩
  imodintro
  isplitl [Hst]; · iexact Hst
  isplitl [Ht]; · iexact Ht
  isplitl [Hr]; · iexact Hr
  isplitl [Ha]; · iexact Ha
  isplitl [Hi]; · iexact Hi
  iexact Hres

variable {m} (hpre : PreOK m)

theorem hmain [∀ e, Nonempty (Elt F e)] (κ : GSem nD τ sig → ℕ) (d : Dev nD) :
    iprop((K (F := F)).ctx EH (P (callData hpre)) κ ∗ (K (F := F)).tcSt EH d 0 ∗ (K (F := F)).tcRes m ρ d ∗ tailGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, HG⟩
  iapply (host_before m d _ _) $$ [Hb Hheld Hst HG]
  isplitl [Hb]; · iexact Hb
  isplitl [Hheld]; · iexact Hheld
  iintro ⟨Hb, Hheld⟩
  ihave Hh := (Entails.of_eq (held_SU (F := F) d _)) $$ Hheld
  rw [Vh_arg0, Vh_arg1, Vh_arg2, Vh_arg3, Vh_v4, Vh_v5]
  icases Hh with ⟨Ht, Hr, Ha, Hi, -, Hs, -, Hd, Ho, Hres⟩
  -- the arrays cut among the thirty-two tasks
  ihave Hsp := (call_split (callData hpre) d) $$ [Ht Hs Hd Ho]
  · isplitl [Ht]; · iexact Ht
    isplitl [Hs]; · iexact Hs
    isplitl [Hd]; · iexact Hd
    iexact Ho
  icases Hsp with ⟨Hstres, Htr, Hor⟩
  unfold mainRest
  simp only [wp_bind, wp_pure]
  -- the call
  iapply ((K (F := F)).wp_run (D (F := F)) 𝒱 (EH := EH) (P := P (callData hpre)) κ d 0) $$ [Hst Hstres Hb Hr Ha Hi Hres Htr Hor HG]
  isplitr; · iexact Hctx
  isplitl [Hst]; · iexact Hst
  isplitl [Hstres]; · iexact Hstres
  iintro ⟨Hst, Hdn⟩
  -- the tasks' pieces joined
  ihave Hj := (call_join (callData hpre) d) $$ [Hdn Htr Hor]
  · isplitl [Hdn]; · iexact Hdn
    isplitl [Htr]; · iexact Htr
    iexact Hor
  icases Hj with ⟨Ht, %g, %hg, Ho⟩
  -- the copy into the result's buffer
  iapply (copy_step m d g _) $$ [Hb Ho Hres Hst Hr Ha Hi Ht HG]
  isplitl [Hb]; · iexact Hb
  isplitl [Ho]; · iexact Ho
  isplitl [Hres]; · iexact Hres
  iintro ⟨Hb, Ho, Hres⟩
  -- the tail pipeline
  ihave Hlv := ((K (F := F)).ctx_levAts κ) $$ Hctx
  unfold tailGhost
  icases HG with ⟨Hcg, Htk⟩
  iapply ((tail_call d (m (radLoc d)) (m (angLoc d)) g iprop((tblLoc d ↦{fullShare} m (tblLoc d)) ∗ (idxLoc d ↦{fullShare} m (idxLoc d)))).trans
    (wp_mono frame _ _ fun _ => tail_post m d g hg)) $$ [Hlv Hst Hb Hr Ha Hres Hcg Htk Ht Hi]
  isplitl [Hlv]; · iexact Hlv
  isplitl [Hst]; · iexact Hst
  isplitl [Hb]; · iexact Hb
  isplitl [Hr]; · iexact Hr
  isplitl [Ha]; · iexact Ha
  isplitl [Hres]; · iexact Hres
  isplitl [Hcg]; · iexact Hcg
  isplitl [Htk]; · iexact Htk
  isplitl [Ht]; · iexact Ht
  iexact Hi

end Cert.Kernel.Hand

end
-- ==== Proof.HB.Run.lean ====
/-
  The launch element of the ghost state, how the final memory reads the claim, and the program's run: every weakly
  fair execution of the device's threads terminates, nothing faulting, with the four argument arrays unchanged and the
  result array at the specification.
-/
import proofs.«210912_g7524782702854_cont_9to1c4b_744_40_alg».proof.Proof.HB.Main

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {m : (ℓ : Loc nD τ sig) → Buf (Elt F) ℓ} (ρ : Dev nD → PrngReg)

/-! ## The launch element: the handshakes' rounds, the tail pipeline's cells' rounds, no transfer counted -/

def u₀ : UU := (initOf (K (F := F)).hsCells (K (F := F)).hsToks, (initOf tailCells tailToks, 1))

omit [FloatOps F] in
theorem ownU_split3 (a : UH) (b : UP) : (ownU (a, (b, (1 : Counters))) : sProp 𝕄) ⊢ iprop(BI.own (EH a) ∗ BI.own (EP (F := F) b)) :=
  ownU_pair a (b, (1 : Counters))

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => tailGhost (F := F) d)
        ∗ bigSep Finset.univ fun thr : Thread nD τ => bigSep Finset.univ fun q : Fin 1 => (P (callData hpre)).x q thr) := by
  unfold u₀
  iintro Hu
  ihave H := (ownU_split3 _ _) $$ Hu
  icases H with ⟨HH, HP⟩
  imod (tail_fund (F := F)) $$ HP with Hg
  imodintro
  isplitl [HH]; · iexact HH
  isplitl [Hg]; · unfold tailGhost; iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

variable (m)

def fq (d : Dev nD) (s' : Phys nD τ sig (Elt F)) : Prop :=
  s'.mem.mem (resLoc d) = Cert.Hand.Spec.G (m (tblLoc d)) (m (radLoc d)) (m (angLoc d)) (m (idxLoc d))
    ∧ s'.mem.mem (tblLoc d) = m (tblLoc d) ∧ s'.mem.mem (radLoc d) = m (radLoc d) ∧ s'.mem.mem (angLoc d) = m (angLoc d) ∧ s'.mem.mem (idxLoc d) = m (idxLoc d)

theorem hfin (d : Dev nD) (s' : Phys nD τ sig (Elt F)) : iprop(FIN m d ∗ SI s') ⊢ (⌜fq m d s'⌝ : sProp 𝕄) := by
  unfold FIN
  iintro ⟨⟨Ht, Hr, Ha, Hi, Hres⟩, HSI⟩
  ihave H := (persistent_entails_right (SI_pointsTo_agree (st := s') (ℓ := tblLoc d) (I := Finset.univ) (q := fullShare) (f := m (tblLoc d)))) $$ [HSI Ht]
  · isplitl [HSI] <;> iassumption
  icases H with ⟨%h1, HSI, -⟩
  ihave H := (persistent_entails_right (SI_pointsTo_agree (st := s') (ℓ := radLoc d) (I := Finset.univ) (q := fullShare) (f := m (radLoc d)))) $$ [HSI Hr]
  · isplitl [HSI] <;> iassumption
  icases H with ⟨%h2, HSI, -⟩
  ihave H := (persistent_entails_right (SI_pointsTo_agree (st := s') (ℓ := angLoc d) (I := Finset.univ) (q := fullShare) (f := m (angLoc d)))) $$ [HSI Ha]
  · isplitl [HSI] <;> iassumption
  icases H with ⟨%h3, HSI, -⟩
  ihave H := (persistent_entails_right (SI_pointsTo_agree (st := s') (ℓ := idxLoc d) (I := Finset.univ) (q := fullShare) (f := m (idxLoc d)))) $$ [HSI Hi]
  · isplitl [HSI] <;> iassumption
  icases H with ⟨%h4, HSI, -⟩
  ihave H := (SI_pointsTo_agree (st := s') (ℓ := resLoc d) (I := Finset.univ) (q := fullShare)
    (f := Cert.Hand.Spec.G (m (tblLoc d)) (m (radLoc d)) (m (angLoc d)) (m (idxLoc d)))) $$ [HSI Hres]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The run -/

def QC : PUnit × MemSt nD τ sig (Elt F) → Prop := fun r => ∀ c : Dev nD,
  r.2.mem (resLoc c) = Cert.Hand.Spec.G (m (tblLoc c)) (m (radLoc c)) (m (angLoc c)) (m (idxLoc c))
    ∧ r.2.mem (tblLoc c) = m (tblLoc c) ∧ r.2.mem (radLoc c) = m (radLoc c) ∧ r.2.mem (angLoc c) = m (angLoc c) ∧ r.2.mem (idxLoc c) = m (idxLoc c)

variable {m}

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (callData hpre)) facts v₀
    (fun q hq => match q with | 0 => nomatch hq)
    (fun q _ => match q with | 0 => tileObl (callData hpre))
    (fun q _ => match q with | 0 => SparseCore.Cfg.VecSplit.of_plain (vecSplit (callData hpre)))
    m ρ main (fun d => tailGhost (F := F) d) (FIN m) (u₀ (F := F)) (sep_elim_left.trans (hu₀ hpre)) (hmain ρ hpre) (fq m) (hfin m) (QC m) (fun _ h => h)

end Cert.Kernel.Hand

end
-- ==== Proof.HI.Setup.lean ====
/-
  The idealized kernel's program as the SparseCore launch theorem sees it, and the resource algebra its proof runs in:
  the launch handshakes' rounds, the rounds of the tail pipeline's staging cells, and the counters of the tiles' own
  transfers (a tile only copies locally and waits for its own copies, so its protocol needs no schedule).
-/
import proofs.«210912_g7524782702854_cont_9to1c4b_744_40_alg».proof.Defs
import Idealize.ShloMosaic.Lib.SparseCore.Launch
import Idealize.ShloMosaic.Lib.StableHlo.Run
import Idealize.ShloMosaic.Lib.Pipeline.Kit
import Idealize.ShloMosaic.Lib.Tactic
import proofs.«210912_g7524782702854_cont_9to1c4b_744_40_alg».proof.Proof.Gen.KernelIdeal
import proofs.«210912_g7524782702854_cont_9to1c4b_744_40_alg».proof.Proof.Gen.KernelIdeal.Skeleton
import proofs.«210912_g7524782702854_cont_9to1c4b_744_40_alg».proof.Proof.Gen.KernelIdeal.Launch
import proofs.«210912_g7524782702854_cont_9to1c4b_744_40_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline cells' rounds: the left factor of the right factor; the counters are found by instance beside it. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

end Cert.KernelIdeal.Hand

end
-- ==== Proof.HI.Slabs.lean ====
/-
  The arrays as a vector subcore's task addresses them, in the program's own spelling: the node table whole, the task's
  slab of 10000 entries of each index array, and the task's fifty output chunks of 200 rows by 256 columns (two per
  trip of its loop). Task (core c, subcore s) is worker 2 s + c; its slab starts at entry 10000 (2 s + c), and chunk
  r of trip k starts at row 10000 (2 s + c) + 400 k + 200 r.
-/
import proofs.«210912_g7524782702854_cont_9to1c4b_744_40_alg».proof.Proof.HI.Setup
import proofs.«210912_g7524782702854_cont_9to1c4b_744_40_alg».proof.Proof.Spec

noncomputable section

namespace Cert.KernelIdeal.Hand

open Cert.KernelIdeal Cert.KernelIdeal.Gen

open Idealize.ShloMosaic
open Idealize.ShloMosaic.SparseCore (S V T)

/-! ## The task's memrefs -/

abbrev tblV : Memref sig .scVector .hbm S10000x128 .f32 := Memref.whole main_arg0_scv
abbrev srcV : Memref sig .scVector .hbm S320000 .i32 := Memref.whole main_v1_scv
abbrev dstV : Memref sig .scVector .hbm S320000 .i32 := Memref.whole main_v3_scv
abbrev outV : Memref sig .scVector .hbm S320000x276 .f32 := Memref.whole main_v4_scv

/-- The thread of the task at grid coordinates `L`. -/
abbrev cV (L : grid0.Coords) : Fin τ.nSC := (L 0).castLE hcore0
abbrev jV (L : grid0.Coords) : Fin τ.nSub := (L 1).castLE hsub0

/-- The task's slab of the source-index array, and of the destination-index array. -/
abbrev srcSlab (L : grid0.Coords) : Memref sig .scVector .hbm S10000 .i32 :=
  (srcV).slice (Rect.unit (s := S320000) (k0_off1 L) S10000.size (k0_off1_inb L)) (fun _ => rfl)
abbrev dstSlab (L : grid0.Coords) : Memref sig .scVector .hbm S10000 .i32 :=
  (dstV).slice (Rect.unit (s := S320000) (k0_off1 L) S10000.size (k0_off1_inb L)) (fun _ => rfl)

/-- The task's two output chunks of trip `k`: rows 400 k + [0, 200) and 400 k + [200, 400) of its slab, columns [0, 256). -/
abbrev outChunk0 (L : grid0.Coords) (k : Fin k0_t1_loop.trips) : Memref sig .scVector .hbm S200x256 .f32 :=
  (outV).slice (Rect.unit (s := S320000x276) (k0_off3 L k 0#32) S200x256.size (k0_off3_inb L k 0)) (fun _ => rfl)
abbrev outChunk1 (L : grid0.Coords) (k : Fin k0_t1_loop.trips) : Memref sig .scVector .hbm S200x256 .f32 :=
  (outV).slice (Rect.unit (s := S320000x276) (k0_off3 L k 200#32) S200x256.size (k0_off3_inb L k 1)) (fun _ => rfl)

/-- The first row of the task's slab. -/
def base (L : grid0.Coords) : Nat := 20000 * (L 1).val + 10000 * (L 0).val

theorem base_add_lt (L : grid0.Coords) (k : Fin k0_t1_loop.trips) (r : Fin 2) (a : Fin 200) :
    base L + 400 * k.val + 200 * r.val + a.val < 320000 := by
  have h0 : (L 0).val < 2 := (L 0).isLt
  have h1 : (L 1).val < 16 := (L 1).isLt
  have hk : k.val < 25 := lt_of_lt_of_le k.isLt k0_t1_abs.2.1
  have hr := r.isLt; have ha := a.isLt
  unfold base; omega

/-- The array row that row `a` of chunk `r` of trip `k` is. -/
def chunkRow (L : grid0.Coords) (k : Fin k0_t1_loop.trips) (r : Fin 2) (a : Fin 200) : Fin 320000 :=
  ⟨base L + 400 * k.val + 200 * r.val + a.val, base_add_lt L k r a⟩

end Cert.KernelIdeal.Hand

end
-- ==== Proof.HI.Tile.lean ====
/-
  The body of one vector subcore's task of the gather kernel, once, at a symbolic place: the task copies its slab of
  each index array into its own memory, then in each trip of its loop gathers four blocks of two hundred table rows
  (the source rows and the destination rows of two chunks of edges) into two staging buffers and copies each staging
  buffer to its chunk of the result. After the task every chunk holds, at row a and column b, the left part of the
  specification at the array row the chunk's row a is.
-/
import proofs.«210912_g7524782702854_cont_9to1c4b_744_40_alg».proof.Proof.HI.Slabs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

section Body
variable (d : Dev nD) (L : grid0.Coords)

/-! ## The task's scratch: four buffers and eight transfer semaphores -/

abbrev sc0 : Memref sig .scVector .vmem S10000 .i32 := Memref.whole cc0_scratch0
abbrev sc1 : Memref sig .scVector .vmem S10000 .i32 := Memref.whole cc0_scratch1
abbrev sc2 : Memref sig .scVector .vmem S200x256 .f32 := Memref.whole cc0_scratch2
abbrev sc3 : Memref sig .scVector .vmem S200x256 .f32 := Memref.whole cc0_scratch3

/-- The two hundred entries of each index scratch that a chunk of trip k gathers by. -/
abbrev lst0 (k : Fin k0_t1_loop.trips) : Memref sig .scVector .vmem S200 .i32 :=
  (sc0).slice (Rect.unit (s := S10000) (k0_off2 k 0#32) S200.size (k0_off2_inb k 0)) (fun _ => rfl)
abbrev lst0' (k : Fin k0_t1_loop.trips) : Memref sig .scVector .vmem S200 .i32 :=
  (sc0).slice (Rect.unit (s := S10000) (k0_off2 k 200#32) S200.size (k0_off2_inb k 1)) (fun _ => rfl)
abbrev lst1 (k : Fin k0_t1_loop.trips) : Memref sig .scVector .vmem S200 .i32 :=
  (sc1).slice (Rect.unit (s := S10000) (k0_off2 k 0#32) S200.size (k0_off2_inb k 0)) (fun _ => rfl)
abbrev lst1' (k : Fin k0_t1_loop.trips) : Memref sig .scVector .vmem S200 .i32 :=
  (sc1).slice (Rect.unit (s := S10000) (k0_off2 k 200#32) S200.size (k0_off2_inb k 1)) (fun _ => rfl)

/-- The eight transfer semaphores of a task. -/
def semOf : Fin 8 → SemLoc sig :=
  ![SemLoc.dma cc0_scratch4.sem, SemLoc.dma cc0_scratch5.sem, SemLoc.dma cc0_scratch6.sem, SemLoc.dma cc0_scratch7.sem,
    SemLoc.dma cc0_scratch8.sem, SemLoc.dma cc0_scratch9.sem, SemLoc.dma cc0_scoped0.sem, SemLoc.dma cc0_scoped1.sem]

theorem semOf_inj : Function.Injective semOf := by decide
theorem semOf_scoped : ∀ j, (semOf j).isScoped .scVector = true := by decide

/-- A thread's eight cells. -/
def semE (t : Thread nD τ) : Fin 8 ↪ GSem nD τ sig := ⟨fun j => (t, semOf j), fun _ _ h => semOf_inj (Prod.mk.inj h).2⟩

omit [FloatOps F] in
/-- The task's own cells at zero are its eight transfer semaphores at zero and the rest. -/
theorem ownSems0_V :
    (ownSems0 (V d (cV L) (jV L)) : sProp 𝕄)
      = iprop((semVal (V d (cV L) (jV L), SemLoc.dma cc0_scratch4.sem) 0 ∗ semVal (V d (cV L) (jV L), SemLoc.dma cc0_scratch5.sem) 0
          ∗ semVal (V d (cV L) (jV L), SemLoc.dma cc0_scratch6.sem) 0 ∗ semVal (V d (cV L) (jV L), SemLoc.dma cc0_scratch7.sem) 0
          ∗ semVal (V d (cV L) (jV L), SemLoc.dma cc0_scratch8.sem) 0 ∗ semVal (V d (cV L) (jV L), SemLoc.dma cc0_scratch9.sem) 0
          ∗ semVal (V d (cV L) (jV L), SemLoc.dma cc0_scoped0.sem) 0 ∗ semVal (V d (cV L) (jV L), SemLoc.dma cc0_scoped1.sem) 0)
          ∗ bigSep (ownCells (V d (cV L) (jV L)) \ Finset.univ.map (semE (V d (cV L) (jV L)))) fun g => semVal g 0) := by
  unfold SparseCore.Cfg.ownSems0
  have hsub : Finset.univ.map (semE (V d (cV L) (jV L))) ⊆ ownCells (V d (cV L) (jV L)) := by
    intro g hg
    obtain ⟨j, -, rfl⟩ := Finset.mem_map.mp hg
    exact mem_ownCells.mpr ⟨rfl, semOf_scoped j⟩
  rw [bigSep_sdiff_split hsub, bigSep_map,
    show (Finset.univ : Finset (Fin 8)) = {0, 1, 2, 3, 4, 5, 6, 7} by decide,
    bigSep_insert (by decide), bigSep_insert (by decide), bigSep_insert (by decide), bigSep_insert (by decide),
    bigSep_insert (by decide), bigSep_insert (by decide), bigSep_insert (by decide), bigSep_singleton]
  rfl

omit [FloatOps F] in
/-- The task's own buffers are its four scratch buffers, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
/-- The same with the scratch buffers as the program addresses them. -/
theorem ownBufs_V' :
    (ownBufs (V d (cV L) (jV L)) : sProp 𝕄)
      = iprop((∃ f, (sc0).view.loc (V d (cV L) (jV L)) ↦{fullShare} f) ∗ (∃ f, (sc1).view.loc (V d (cV L) (jV L)) ↦{fullShare} f)
          ∗ (∃ f, (sc2).view.loc (V d (cV L) (jV L)) ↦{fullShare} f) ∗ (∃ f, (sc3).view.loc (V d (cV L) (jV L)) ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := ownBufs_V d L

end Body

section Value
variable {d : Dev nD} (L : grid0.Coords)

/-- What chunk r of trip k holds after the task: at row a, column b the left part of the specification at the array row. -/
def ChunkOK (L : grid0.Coords) (k : Fin k0_t1_loop.trips) (r : Fin 2)
    (ft : Buf (Elt F) ((tblV).view.loc (V d (cV L) (jV L)))) (fs fd : Buf (Elt F) ((srcV).view.loc (V d (cV L) (jV L))))
    (f : Buf (Elt F) ((outV).view.loc (V d (cV L) (jV L)))) : Prop :=
  ∀ (a : Fin 200) (b : Fin 256), f (ix2 (chunkRow L k r a) ⟨b.val, by omega⟩) = Cert.Hand.Spec.Gleft ft fs fd (chunkRow L k r a) b

/-- The table as the gathers address it. -/
abbrev tblG : Memref sig .scVector .hbm S10000x128 .f32 :=
  (tblV).slice (Rect.unit (s := S10000x128) ![0, 0] S10000x128.size inb_S10000x128_S10000x128_0_0) (fun _ => rfl)
abbrev rectA : Rect S200x256 := Rect.unit (s := S200x256) ![0, 0] S200x128.size inb_S200x256_S200x128_0_0
abbrev rectB : Rect S200x256 := Rect.unit (s := S200x256) ![0, 128] S200x128.size inb_S200x256_S200x128_0_128

omit [FloatOps F] in
/-- Row a of a gather's payload is the table's row at the a-th word of the list. -/
theorem gather_apply (T : S10000x128.Idx → Elt F .f32) (i : S200.Idx → Elt F .i32)
    (hn : S200.numel = S200x128.size (gathers_S10000x128_S200x128).axis')
    (hi : ∀ x, (i x).toNat < S10000x128.size (gathers_S10000x128_S200x128).axis) (a : Fin 200) (c : Fin 128) :
    SparseCore.gatherPayload gathers_S10000x128_S200x128 T (SparseCore.rows i hn hi) (ix2 a c)
      = T (ix2 (⟨(i (ix1 a)).toNat, hi _⟩ : Fin 10000) c) := by
  unfold SparseCore.gatherPayload
  congr 1
  funext e
  match e with
  | ⟨0, _⟩ =>
    apply Fin.ext
    have h := Shape.Gathers.idx_axis gathers_S10000x128_S200x128 (SparseCore.rows i hn hi) (ix2 a c : S200x128.Idx)
    have h' := congrArg Fin.val h
    refine h'.trans ?_
    unfold SparseCore.rows
    show (i _).toNat = (i (ix1 a)).toNat
    congr 2
    rw [Equiv.symm_apply_eq]
    apply Fin.ext
    rw [Shape.rowMajor_val_one]
    rfl
  | ⟨1, _⟩ =>
    apply Fin.ext
    exact Shape.Gathers.idx_of_ne gathers_S10000x128_S200x128 (SparseCore.rows i hn hi) (ix2 a c : S200x128.Idx) ⟨1, by decide⟩ (by decide)

omit [FloatOps F] in
/-- A staging buffer after its two gathers: columns below 128 hold the table's rows at the first list's words, the others the
    rows at the second list's. -/
theorem stage_read {κ : Kind} {sp : Space} (v : View sig κ sp S200x256 .f32) (g : v.ty.Contents (Elt F))
    (T : S10000x128.Idx → Elt F .f32) (i0 i1 : S200.Idx → Elt F .i32)
    (hn : S200.numel = S200x128.size (gathers_S10000x128_S200x128).axis')
    (h0 : ∀ x, (i0 x).toNat < S10000x128.size (gathers_S10000x128_S200x128).axis)
    (h1 : ∀ x, (i1 x).toNat < S10000x128.size (gathers_S10000x128_S200x128).axis) (a : Fin 200) (b : Fin 256) :
    v.read (Elt F) (v.writes (Elt F) g
        [⟨rectB, SparseCore.gatherPayload gathers_S10000x128_S200x128 T (SparseCore.rows i1 hn h1)⟩,
         ⟨rectA, SparseCore.gatherPayload gathers_S10000x128_S200x128 T (SparseCore.rows i0 hn h0)⟩]) (ix2 a b)
      = if h : b.val < 128 then T (ix2 (⟨(i0 (ix1 a)).toNat, h0 _⟩ : Fin 10000) ⟨b.val, h⟩)
        else T (ix2 (⟨(i1 (ix1 a)).toNat, h1 _⟩ : Fin 10000) ⟨b.val - 128, by omega⟩) := by
  by_cases h : b.val < 128
  · rw [dif_pos h]
    have hx : (ix2 a b : S200x256.Idx) = rectA.emb (ix2 a (⟨b.val, h⟩ : Fin 128) : S200x128.Idx) := by
      funext e; apply Fin.ext
      match e with
      | ⟨0, _⟩ => simp [Rect.emb_apply]
      | ⟨1, _⟩ => simp [Rect.emb_apply]
    have hnot : (ix2 a b : S200x256.Idx) ∉ Finset.univ.map rectB.emb := by
      rw [Rect.map_emb_univ, Rect.mem_set_unit]
      intro hh
      have hh1 := hh (⟨1, by decide⟩ : Fin S200x256.rank)
      have h1' : 128 ≤ b.val := hh1.1
      omega
    rw [View.writes_cons, View.read_slice_write_of_not_mem rectB _ _ _ hnot, hx, View.read_writes_cons_emb, gather_apply]
  · rw [dif_neg h]
    have hx : (ix2 a b : S200x256.Idx) = rectB.emb (ix2 a (⟨b.val - 128, by omega⟩ : Fin 128) : S200x128.Idx) := by
      funext e; apply Fin.ext
      match e with
      | ⟨0, _⟩ => simp [Rect.emb_apply]
      | ⟨1, _⟩ => show b.val = 128 + 1 * (b.val - 128); omega
    rw [hx, View.read_writes_cons_emb, gather_apply]

/-- Chunk r of trip k of the result, and the entries of an index scratch it is gathered by, with the chunk's number as a number. -/
abbrev outChunkR (k : Fin k0_t1_loop.trips) (r : Fin 2) : Memref sig .scVector .hbm S200x256 .f32 :=
  (outV).slice (Rect.unit (s := S320000x276) (k0_off3 L k (BitVec.ofNat 32 (200 * r.val))) S200x256.size (k0_off3_inb L k r)) (fun _ => rfl)
abbrev lstR (sc : Memref sig .scVector .vmem S10000 .i32) (k : Fin k0_t1_loop.trips) (r : Fin 2) : Memref sig .scVector .vmem S200 .i32 :=
  sc.slice (Rect.unit (s := S10000) (k0_off2 k (BitVec.ofNat 32 (200 * r.val))) S200.size (k0_off2_inb k r)) (fun _ => rfl)

omit [FloatOps F] in
theorem read_tblV (ft : Buf (Elt F) ((tblV).view.loc (V d (cV L) (jV L)))) (z : S10000x128.Idx) :
    (tblV).view.read (Elt F) ft z = ft z := rfl

omit [FloatOps F] in
theorem read_tblG (ft : Buf (Elt F) ((tblV).view.loc (V d (cV L) (jV L)))) (z : S10000x128.Idx) :
    (tblG).view.read (Elt F) ft z
      = (tblV).view.read (Elt F) ft ((Rect.unit (s := S10000x128) ![0, 0] S10000x128.size inb_S10000x128_S10000x128_0_0).emb z) := rfl

omit [FloatOps F] in
/-- Entry a of the list of chunk r of trip k, read through a scratch that reads as a slab of an index array, is the array's
    word at the chunk's row a. -/
theorem list_read (sl : Memref sig .scVector .hbm S320000 .i32) (sc : Memref sig .scVector .vmem S10000 .i32)
    (fs : Buf (Elt F) (sl.view.loc (V d (cV L) (jV L)))) (S : Buf (Elt F) (sc.view.loc (V d (cV L) (jV L))))
    (hS : ∀ j, sc.view.read (Elt F) S j
      = (sl.slice (Rect.unit (s := S320000) (k0_off1 L) S10000.size (k0_off1_inb L)) (fun _ => rfl)).view.read (Elt F) fs j)
    (k : Fin k0_t1_loop.trips) (r : Fin 2) (a : Fin 200) :
    (lstR sc k r).view.read (Elt F) S (ix1 a) = sl.view.read (Elt F) fs (ix1 (chunkRow L k r a)) := by
  refine (hS ((Rect.unit (s := S10000) (k0_off2 k (BitVec.ofNat 32 (200 * r.val))) S200.size (k0_off2_inb k r)).emb (ix1 a))).trans ?_
  show sl.view.read (Elt F) fs ((Rect.unit (s := S320000) (k0_off1 L) S10000.size (k0_off1_inb L)).emb
    ((Rect.unit (s := S10000) (k0_off2 k (BitVec.ofNat 32 (200 * r.val))) S200.size (k0_off2_inb k r)).emb (ix1 a))) = _
  congr 1
  funext e; apply Fin.ext
  match e with
  | ⟨0, _⟩ =>
    show (k0_off1 L) 0 + 1 * ((k0_off2 k (BitVec.ofNat 32 (200 * r.val))) 0 + 1 * a.val) = base L + 400 * k.val + 200 * r.val + a.val
    rw [k0_off1_eq L, k0_off2_eq k r]
    show 20000 * (L 1).val + 10000 * (L 0).val + 1 * (400 * k.val + 200 * r.val + 1 * a.val) = _
    unfold base; omega

set_option maxHeartbeats 1000000 in
/-- A staging buffer after its two gathers, copied to chunk r of trip k: the chunk holds the specification's left part. -/
theorem chunk_ok (k : Fin k0_t1_loop.trips) (r : Fin 2)
    (ft : Buf (Elt F) ((tblV).view.loc (V d (cV L) (jV L)))) (fs fd : Buf (Elt F) ((srcV).view.loc (V d (cV L) (jV L))))
    (fo : Buf (Elt F) ((outV).view.loc (V d (cV L) (jV L))))
    (S0 : Buf (Elt F) ((sc0).view.loc (V d (cV L) (jV L)))) (S1 : Buf (Elt F) ((sc1).view.loc (V d (cV L) (jV L))))
    {κ : Kind} {sp : Space} (v : View sig κ sp S200x256 .f32) (g : v.ty.Contents (Elt F))
    (hS0 : ∀ j, (sc0).view.read (Elt F) S0 j = (srcSlab L).view.read (Elt F) fs j)
    (hS1 : ∀ j, (sc1).view.read (Elt F) S1 j = (dstSlab L).view.read (Elt F) fd j)
    (hs : ∀ j, (fs j).toNat < 10000) (hd : ∀ j, (fd j).toNat < 10000)
    (hn : S200.numel = S200x128.size (gathers_S10000x128_S200x128).axis')
    (hin0 : ∀ x, ((lstR sc0 k r).view.read (Elt F) S0 x).toNat < S10000x128.size (gathers_S10000x128_S200x128).axis)
    (hin1 : ∀ x, ((lstR sc1 k r).view.read (Elt F) S1 x).toNat < S10000x128.size (gathers_S10000x128_S200x128).axis) :
    ChunkOK (d := d) L k r ft fs fd ((outChunkR L k r).view.writes (Elt F) fo [⟨Rect.whole S200x256, ReadAs.same.apply (v.read (Elt F) (v.writes (Elt F) g
      [⟨rectB, SparseCore.gatherPayload gathers_S10000x128_S200x128 ((tblG).view.read (Elt F) ft) (SparseCore.rows ((lstR sc1 k r).view.read (Elt F) S1) hn hin1)⟩,
       ⟨rectA, SparseCore.gatherPayload gathers_S10000x128_S200x128 ((tblG).view.read (Elt F) ft) (SparseCore.rows ((lstR sc0 k r).view.read (Elt F) S0) hn hin0)⟩]))⟩]) := by
  intro a b
  have hidx : (ix2 (chunkRow L k r a) (⟨b.val, by omega⟩ : Fin 276) : S320000x276.Idx)
      = (Rect.unit (s := S320000x276) (k0_off3 L k (BitVec.ofNat 32 (200 * r.val))) S200x256.size (k0_off3_inb L k r)).emb
          ((Rect.whole S200x256).emb (ix2 a b)) := by
    funext e; apply Fin.ext
    rw [Rect.emb_whole_apply]
    match e with
    | ⟨0, _⟩ =>
      show base L + 400 * k.val + 200 * r.val + a.val = (k0_off3 L k (BitVec.ofNat 32 (200 * r.val))) 0 + 1 * a.val
      rw [k0_off3_eq L k r]
      show _ = 20000 * (L 1).val + 10000 * (L 0).val + 400 * k.val + 200 * r.val + 1 * a.val
      unfold base; omega
    | ⟨1, _⟩ =>
      show b.val = (k0_off3 L k (BitVec.ofNat 32 (200 * r.val))) 1 + 1 * b.val
      rw [k0_off3_eq L k r]
      show _ = 0 + 1 * b.val
      omega
  have hread := View.read_writes_cons_emb (v := (outChunkR L k r).view) (f := fo) (Rect.whole S200x256)
    (ReadAs.same.apply (v.read (Elt F) (v.writes (Elt F) g
      [⟨rectB, SparseCore.gatherPayload gathers_S10000x128_S200x128 ((tblG).view.read (Elt F) ft) (SparseCore.rows ((lstR sc1 k r).view.read (Elt F) S1) hn hin1)⟩,
       ⟨rectA, SparseCore.gatherPayload gathers_S10000x128_S200x128 ((tblG).view.read (Elt F) ft) (SparseCore.rows ((lstR sc0 k r).view.read (Elt F) S0) hn hin0)⟩])))
    [] (ix2 a b)
  rw [hidx]
  refine Eq.trans hread ?_
  show v.read (Elt F) _ (ix2 a b) = _
  rw [stage_read]
  unfold Cert.Hand.Spec.Gleft
  by_cases h : b.val < 128
  · rw [dif_pos h, dif_pos h, read_tblG,
      ← read_tblV L ft (ix2 (Cert.Hand.Spec.row (fs (ix1 (chunkRow L k r a)))) (⟨b.val, h⟩ : Fin 128))]
    refine congrArg ((tblV).view.read (Elt F) ft) ?_
    funext e; apply Fin.ext
    match e with
    | ⟨0, _⟩ =>
      show 0 + 1 * ((lstR sc0 k r).view.read (Elt F) S0 (ix1 a)).toNat = (Cert.Hand.Spec.row (fs (ix1 (chunkRow L k r a)))).val
      rw [Cert.Hand.Spec.row_val_of_lt (hs _), list_read L srcV sc0 fs S0 hS0 k r a]
      show 0 + 1 * (fs (ix1 (chunkRow L k r a))).toNat = (fs (ix1 (chunkRow L k r a))).toNat
      omega
    | ⟨1, _⟩ =>
      show 0 + 1 * b.val = b.val
      omega
  · rw [dif_neg h, dif_neg h, read_tblG,
      ← read_tblV L ft (ix2 (Cert.Hand.Spec.row (fd (ix1 (chunkRow L k r a)))) (⟨b.val - 128, by omega⟩ : Fin 128))]
    refine congrArg ((tblV).view.read (Elt F) ft) ?_
    funext e; apply Fin.ext
    match e with
    | ⟨0, _⟩ =>
      show 0 + 1 * ((lstR sc1 k r).view.read (Elt F) S1 (ix1 a)).toNat = (Cert.Hand.Spec.row (fd (ix1 (chunkRow L k r a)))).val
      rw [Cert.Hand.Spec.row_val_of_lt (hd _), list_read L dstV sc1 fd S1 hS1 k r a]
      show 0 + 1 * (fd (ix1 (chunkRow L k r a))).toNat = (fd (ix1 (chunkRow L k r a))).toNat
      omega
    | ⟨1, _⟩ =>
      show 0 + 1 * (b.val - 128) = b.val - 128
      omega

end Value

section Main
variable (d : Dev nD) (L : grid0.Coords)

omit [FloatOps F] in
/-- A share of an array as four read shares and the remainder. -/
theorem toks4 {ℓ : Loc nD τ sig} {f : Buf (Elt F) ℓ} (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [show Finset.range 4 = {0, 1, 2, 3} by decide, bigSep_insert (by decide), bigSep_insert (by decide), bigSep_insert (by decide),
    bigSep_singleton] at h
  exact h

omit [FloatOps F] in
/-- The chunks of the trips: those below trip n done, those from n on to do. Trip n's are taken out before it -/
theorem chunks_open (n : Fin k0_t1_loop.trips) (A B : Fin k0_t1_loop.trips → sProp 𝕄) :
    (bigSep Finset.univ fun k : Fin k0_t1_loop.trips => if k.val < n.val then A k else B k)
      = iprop(B n ∗ bigSep (Finset.univ.erase n) fun k : Fin k0_t1_loop.trips => if k.val < n.val then A k else B k) := by
  rw [bigSep_univ_split n, if_neg (lt_irrefl _)]
  rfl

omit [FloatOps F] in
/-- and put back after it. -/
theorem chunks_close (n : Fin k0_t1_loop.trips) (A B : Fin k0_t1_loop.trips → sProp 𝕄) :
    iprop(A n ∗ bigSep (Finset.univ.erase n) fun k : Fin k0_t1_loop.trips => if k.val < n.val then A k else B k)
      = (bigSep Finset.univ fun k : Fin k0_t1_loop.trips => if k.val < n.val + 1 then A k else B k) := by
  rw [bigSep_univ_split n (Φ := fun k : Fin k0_t1_loop.trips => if k.val < n.val + 1 then A k else B k), if_pos (Nat.lt_succ_self _)]
  congr 1
  refine bigSep_congr fun k hk => ?_
  have hne : k.val ≠ n.val := fun e => (Finset.mem_erase.mp hk).1 (Fin.ext e)
  by_cases h : k.val < n.val
  · rw [if_pos h, if_pos (by omega)]
  · rw [if_neg h, if_neg (by omega)]

/-- A task's two chunks of trip k, as the task receives them -/
def todo (fo : Buf (Elt F) ((outV).view.loc (V d (cV L) (jV L)))) (k : Fin k0_t1_loop.trips) : sProp 𝕄 :=
  iprop(((outChunk0 L k).view.loc (V d (cV L) (jV L)) ↦[(outChunk0 L k).view.set]{fullShare} fo)
    ∗ ((outChunk1 L k).view.loc (V d (cV L) (jV L)) ↦[(outChunk1 L k).view.set]{fullShare} fo))

/-- and as it leaves them. -/
def done (ft : Buf (Elt F) ((tblV).view.loc (V d (cV L) (jV L)))) (fs fd : Buf (Elt F) ((srcV).view.loc (V d (cV L) (jV L))))
    (k : Fin k0_t1_loop.trips) : sProp 𝕄 :=
  iprop((∃ f, ⌜ChunkOK (d := d) L k 0 ft fs fd f⌝ ∗ (outChunk0 L k).view.loc (V d (cV L) (jV L)) ↦[(outChunk0 L k).view.set]{fullShare} f)
    ∗ (∃ f, ⌜ChunkOK (d := d) L k 1 ft fs fd f⌝ ∗ (outChunk1 L k).view.loc (V d (cV L) (jV L)) ↦[(outChunk1 L k).view.set]{fullShare} f))

/-- The loop's invariant before trip n: the wait evidence, the table's read shares, the two index slabs in the index scratch
    buffers, the two staging buffers at some contents, the six semaphores of the loop at zero, the chunks of the trips below n
    done and the others to do, and what the thread owes. -/
def inv (q : PosShare TreeShare) (ft : Buf (Elt F) ((tblV).view.loc (V d (cV L) (jV L)))) (fs fd : Buf (Elt F) ((srcV).view.loc (V d (cV L) (jV L))))
    (fo : Buf (Elt F) ((outV).view.loc (V d (cV L) (jV L))))
    (S0 : Buf (Elt F) ((sc0).view.loc (V d (cV L) (jV L)))) (S1 : Buf (Elt F) ((sc1).view.loc (V d (cV L) (jV L))))
    (O : CellTallies nD τ sig (HIx 1)) (W : Waits sig (HIx 1)) (n : Nat) (_ : BitVec 32) : sProp 𝕄 :=
  iprop(Transfers.MayWaits (V d (cV L) (jV L)) (none : HIx 1) O
    ∗ ((tblV).view.loc (V d (cV L) (jV L)) ↦{Transfers.shareDrop q 4} ft)
    ∗ ((tblV).view.loc (V d (cV L) (jV L)) ↦{Transfers.shareTokN q 0} ft)
    ∗ ((tblV).view.loc (V d (cV L) (jV L)) ↦{Transfers.shareTokN q 1} ft)
    ∗ ((tblV).view.loc (V d (cV L) (jV L)) ↦{Transfers.shareTokN q 2} ft)
    ∗ ((tblV).view.loc (V d (cV L) (jV L)) ↦{Transfers.shareTokN q 3} ft)
    ∗ ((sc0).view.loc (V d (cV L) (jV L)) ↦{fullShare} S0)
    ∗ ((sc1).view.loc (V d (cV L) (jV L)) ↦{fullShare} S1)
    ∗ (∃ g, (sc2).view.loc (V d (cV L) (jV L)) ↦{fullShare} g)
    ∗ (∃ g, (sc3).view.loc (V d (cV L) (jV L)) ↦{fullShare} g)
    ∗ semVal (V d (cV L) (jV L), SemLoc.dma cc0_scratch4.sem) 0
    ∗ semVal (V d (cV L) (jV L), SemLoc.dma cc0_scratch5.sem) 0
    ∗ semVal (V d (cV L) (jV L), SemLoc.dma cc0_scratch6.sem) 0
    ∗ semVal (V d (cV L) (jV L), SemLoc.dma cc0_scratch7.sem) 0
    ∗ semVal (V d (cV L) (jV L), SemLoc.dma cc0_scratch8.sem) 0
    ∗ semVal (V d (cV L) (jV L), SemLoc.dma cc0_scratch9.sem) 0
    ∗ (bigSep Finset.univ fun k : Fin k0_t1_loop.trips => if k.val < n then done d L ft fs fd k else todo d L fo k)
    ∗ ∃ W', ⌜∀ p ∈ W', p ∈ W ∨ p.2 = none⌝ ∗ owes (V d (cV L) (jV L)) O W')

omit [FloatOps F] in
/-- An index scratch after its slab has landed reads as the slab. -/
theorem slab_abs (sl : Memref sig .scVector .hbm S10000 .i32) (sc : Memref sig .scVector .vmem S10000 .i32)
    (fs : Buf (Elt F) (sl.view.loc (V d (cV L) (jV L)))) (g : Buf (Elt F) (sc.view.loc (V d (cV L) (jV L))))
    (w : S10000.Idx → Elt F .i32) (hw : w = ReadAs.same.apply (sl.view.read (Elt F) fs)) :
    (sc.view.loc (V d (cV L) (jV L)) ↦{fullShare} View.write (Elt F) sc.view g w Finset.univ : sProp 𝕄)
      ⊢ iprop(∃ S, ⌜∀ j, sc.view.read (Elt F) S j = sl.view.read (Elt F) fs j⌝ ∗ sc.view.loc (V d (cV L) (jV L)) ↦{fullShare} S) := by
  subst hw
  iintro H
  iexists (View.write (Elt F) sc.view g (ReadAs.same.apply (sl.view.read (Elt F) fs)) Finset.univ)
  isplitr
  · ipureintro; intro j; rw [View.read_write_univ]
  · iexact H

omit [FloatOps F] in
theorem chunks_init (A B : Fin k0_t1_loop.trips → sProp 𝕄) :
    (bigSep Finset.univ fun k : Fin k0_t1_loop.trips => if k.val < 0 then A k else B k) = bigSep Finset.univ B :=
  bigSep_congr fun k _ => if_neg (Nat.not_lt_zero _)

omit [FloatOps F] in
theorem chunks_done (A B : Fin k0_t1_loop.trips → sProp 𝕄) :
    (bigSep Finset.univ fun k : Fin k0_t1_loop.trips => if k.val < k0_t1_loop.trips then A k else B k) = bigSep Finset.univ A :=
  bigSep_congr fun k _ => if_pos k.isLt

theorem todo_def (fo : Buf (Elt F) ((outV).view.loc (V d (cV L) (jV L)))) (k : Fin k0_t1_loop.trips) :
    todo d L fo k = iprop(((outChunk0 L k).view.loc (V d (cV L) (jV L)) ↦[(outChunk0 L k).view.set]{fullShare} fo)
      ∗ ((outChunk1 L k).view.loc (V d (cV L) (jV L)) ↦[(outChunk1 L k).view.set]{fullShare} fo)) := rfl

theorem done_def (ft : Buf (Elt F) ((tblV).view.loc (V d (cV L) (jV L)))) (fs fd : Buf (Elt F) ((srcV).view.loc (V d (cV L) (jV L))))
    (k : Fin k0_t1_loop.trips) :
    done d L ft fs fd k = iprop((∃ f, ⌜ChunkOK (d := d) L k 0 ft fs fd f⌝ ∗ (outChunk0 L k).view.loc (V d (cV L) (jV L)) ↦[(outChunk0 L k).view.set]{fullShare} f)
      ∗ (∃ f, ⌜ChunkOK (d := d) L k 1 ft fs fd f⌝ ∗ (outChunk1 L k).view.loc (V d (cV L) (jV L)) ↦[(outChunk1 L k).view.set]{fullShare} f)) := rfl

theorem chunks_take (n : Fin k0_t1_loop.trips) (A : Fin k0_t1_loop.trips → sProp 𝕄) (fo : Buf (Elt F) ((outV).view.loc (V d (cV L) (jV L)))) :
    (bigSep Finset.univ fun k : Fin k0_t1_loop.trips => if k.val < n.val then A k else todo d L fo k)
      = iprop((((outChunk0 L n).view.loc (V d (cV L) (jV L)) ↦[(outChunk0 L n).view.set]{fullShare} fo)
          ∗ ((outChunk1 L n).view.loc (V d (cV L) (jV L)) ↦[(outChunk1 L n).view.set]{fullShare} fo))
        ∗ bigSep (Finset.univ.erase n) fun k : Fin k0_t1_loop.trips => if k.val < n.val then A k else todo d L fo k) :=
  chunks_open n A (todo d L fo)

theorem tile_body (q : PosShare TreeShare)
    (ft : Buf (Elt F) ((tblV).view.loc (V d (cV L) (jV L)))) (fs fd : Buf (Elt F) ((srcV).view.loc (V d (cV L) (jV L))))
    (fo : Buf (Elt F) ((outV).view.loc (V d (cV L) (jV L))))
    (hs : ∀ j, (fs j).toNat < 10000) (hd : ∀ j, (fd j).toNat < 10000)
    (O : CellTallies nD τ sig (HIx 1)) (W : Waits sig (HIx 1)) (hO : ∀ g, O g none = 0) :
    iprop(levAts (K (F := F)).L (K (F := F)).lev
        ∗ ((tblV).view.loc (V d (cV L) (jV L)) ↦{q} ft)
        ∗ ((srcSlab L).view.loc (V d (cV L) (jV L)) ↦[(srcSlab L).view.set]{fullShare} fs)
        ∗ ((dstSlab L).view.loc (V d (cV L) (jV L)) ↦[(dstSlab L).view.set]{fullShare} fd)
        ∗ (bigSep Finset.univ fun k : Fin k0_t1_loop.trips =>
            iprop(((outChunk0 L k).view.loc (V d (cV L) (jV L)) ↦[(outChunk0 L k).view.set]{fullShare} fo)
              ∗ ((outChunk1 L k).view.loc (V d (cV L) (jV L)) ↦[(outChunk1 L k).view.set]{fullShare} fo)))
        ∗ scopedBufs (V d (cV L) (jV L)) ∗ scopedSems0 (V d (cV L) (jV L)) ∗ owes (V d (cV L) (jV L)) O W : sProp 𝕄)
      ⊢ wp frame (wpE (defs₀ (F := F)) 𝒱₀ (V d (cV L) (jV L)) none) Set.univ
          (cc0__gather_kernel L tblV (Memref.isWhole_whole _) srcV (Memref.isWhole_whole _) dstV (Memref.isWhole_whole _) outV (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scoped0 cc0_scoped1)
          fun _ => iprop((((tblV).view.loc (V d (cV L) (jV L)) ↦{q} ft)
            ∗ ((srcSlab L).view.loc (V d (cV L) (jV L)) ↦[(srcSlab L).view.set]{fullShare} fs)
            ∗ ((dstSlab L).view.loc (V d (cV L) (jV L)) ↦[(dstSlab L).view.set]{fullShare} fd)
            ∗ (bigSep Finset.univ fun k : Fin k0_t1_loop.trips =>
                iprop((∃ f, ⌜ChunkOK (d := d) L k 0 ft fs fd f⌝ ∗ (outChunk0 L k).view.loc (V d (cV L) (jV L)) ↦[(outChunk0 L k).view.set]{fullShare} f)
                  ∗ (∃ f, ⌜ChunkOK (d := d) L k 1 ft fs fd f⌝ ∗ (outChunk1 L k).view.loc (V d (cV L) (jV L)) ↦[(outChunk1 L k).view.set]{fullShare} f))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_kernel_eq_skeleton]; unfold cc0__gather_kernel_skel
  rw [(K (F := F)).scopedBufs_V facts d (cV L) (jV L), SparseCore.Cfg.scopedSems0_V (Val := Elt F) d (cV L) (jV L), ownSems0_V, ownBufs_V']
  iintro ⟨#Hlv, Ht, Hs, Hd, Hb, ⟨⟨%g0, H0⟩, ⟨%g1, H1⟩, ⟨%g2, H2⟩, ⟨%g3, H3⟩, Hbufs⟩, ⟨⟨Hs4, Hs5, Hs6, Hs7, Hs8, Hs9, Hq0, Hq1⟩, Hsems⟩, HO⟩
  ihave Hmw := ((K (F := F)).mayWaits_none (thr := V d (cV L) (jV L)) hO) $$ Hlv
  ihave Ht' := (toks4 (F := F) q).1 $$ Ht
  icases Ht' with ⟨Htr, Ht0, Ht1, Ht2, Ht3⟩
  sl_exec
  ihave H0' := (slab_abs d L (srcSlab L) sc0 fs g0 (tile_body.sl.dma0 d L fs) rfl) $$ H0
  icases H0' with ⟨%S0, %hS0, H0⟩
  ihave H1' := (slab_abs d L (dstSlab L) sc1 fd g1 (tile_body.sl.dma0_1 d L fd) rfl) $$ H1
  icases H1' with ⟨%S1, %hS1, H1⟩
  have hin0 : ∀ (k : Fin k0_t1_loop.trips) x, ((lst0 k).view.read (Elt F) S0 x).toNat < S10000x128.size (gathers_S10000x128_S200x128).axis :=
    fun k x => (congrArg BitVec.toNat (hS0 _)).trans_lt (hs _)
  have hin0' : ∀ (k : Fin k0_t1_loop.trips) x, ((lst0' k).view.read (Elt F) S0 x).toNat < S10000x128.size (gathers_S10000x128_S200x128).axis :=
    fun k x => (congrArg BitVec.toNat (hS0 _)).trans_lt (hs _)
  have hin1 : ∀ (k : Fin k0_t1_loop.trips) x, ((lst1 k).view.read (Elt F) S1 x).toNat < S10000x128.size (gathers_S10000x128_S200x128).axis :=
    fun k x => (congrArg BitVec.toNat (hS1 _)).trans_lt (hd _)
  have hin1' : ∀ (k : Fin k0_t1_loop.trips) x, ((lst1' k).view.read (Elt F) S1 x).toNat < S10000x128.size (gathers_S10000x128_S200x128).axis :=
    fun k x => (congrArg BitVec.toNat (hS1 _)).trans_lt (hd _)
  sl_for (inv d L q ft fs fd fo S0 S1 O W) $$ [Hmw Htr Ht0 Ht1 Ht2 Ht3 H0 H1 H2 H3 Hs4 Hs5 Hs6 Hs7 Hs8 Hs9 Hb HO]
  case region =>
    intro k acc
    unfold inv
    iintro ⟨Hmw, Htr, Ht0, Ht1, Ht2, Ht3, H0, H1, ⟨%g2, H2⟩, ⟨%g3, H3⟩, Hs4, Hs5, Hs6, Hs7, Hs8, Hs9, Hb, %W', %hW', HO⟩
    ihave Hb' := (Entails.of_eq (chunks_take d L k _ fo)) $$ Hb
    icases Hb' with ⟨⟨Ho0, Ho1⟩, Hb⟩
    sl_exec
    sl_step
    isplitl [Hmw]; · iexact Hmw
    isplitl [Htr]; · iexact Htr
    isplitl [Ht0]; · iexact Ht0
    isplitl [Ht1]; · iexact Ht1
    isplitl [Ht2]; · iexact Ht2
    isplitl [Ht3]; · iexact Ht3
    isplitl [H0]; · iexact H0
    isplitl [H1]; · iexact H1
    isplitl [H2]; · iexists _; iexact H2
    isplitl [H3]; · iexists _; iexact H3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Ho0 Ho1 Hb]
    · iapply (Entails.of_eq (chunks_close k (done d L ft fs fd) (todo d L fo)))
      isplitl [Ho0 Ho1]
      · rw [done_def]
        isplitl [Ho0]
        · iexists _
          isplitr
          swap
          · iexact Ho0
          · ipureintro
            exact chunk_ok L k 0 ft fs fd fo S0 S1 (sc2).view g2 hS0 hS1 hs hd rfl (hin0 k) (hin1 k)
        · iexists _
          isplitr
          swap
          · iexact Ho1
          · ipureintro
            exact chunk_ok L k 1 ft fs fd fo S0 S1 (sc3).view g3 hS0 hS1 hs hd rfl (hin0' k) (hin1' k)
      · iexact Hb
    iexists _; isplitr
    swap
    · iexact HO
    · ipureintro; intro p hp
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      rcases Finset.mem_insert.mp hp with hp | hp
      · exact .inr (by subst hp; rfl)
      exact hW' p hp
  · unfold inv
    isplitl [Hmw]; · iexact Hmw
    isplitl [Htr]; · iexact Htr
    isplitl [Ht0]; · iexact Ht0
    isplitl [Ht1]; · iexact Ht1
    isplitl [Ht2]; · iexact Ht2
    isplitl [Ht3]; · iexact Ht3
    isplitl [H0]; · iexact H0
    isplitl [H1]; · iexact H1
    isplitl [H2]; · iexists _; iexact H2
    isplitl [H3]; · iexists _; iexact H3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hb]
    · iapply (Entails.of_eq (chunks_init (done d L ft fs fd) (todo d L fo)).symm)
      iexact Hb
    iexists _; isplitr
    swap
    · iexact HO
    · ipureintro; intro p hp
      rcases Finset.mem_insert.mp hp with hp | hp
      · exact .inr (by subst hp; rfl)
      rcases Finset.mem_insert.mp hp with hp | hp
      · exact .inr (by subst hp; rfl)
      exact .inl hp
  iintro %acc HI
  unfold inv
  icases HI with ⟨Hmw, Htr, Ht0, Ht1, Ht2, Ht3, H0, H1, ⟨%g2', H2⟩, ⟨%g3', H3⟩, Hs4, Hs5, Hs6, Hs7, Hs8, Hs9, Hb, %W', %hW', HO⟩
  sl_exec
  sl_step
  isplitl [Htr Ht0 Ht1 Ht2 Ht3 Hs Hd Hb]
  · isplitl [Htr Ht0 Ht1 Ht2 Ht3]
    · iapply (toks4 (F := F) q).2
      isplitl [Htr]; · iexact Htr
      isplitl [Ht0]; · iexact Ht0
      isplitl [Ht1]; · iexact Ht1
      isplitl [Ht2]; · iexact Ht2
      iexact Ht3
    isplitl [Hs]; · iexact Hs
    isplitl [Hd]; · iexact Hd
    ihave Hb' := (Entails.of_eq (chunks_done (done d L ft fs fd) (todo d L fo))) $$ Hb
    iexact Hb'
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs4 Hs5 Hs6 Hs7 Hs8 Hs9 Hq0 Hq1 Hsems]
  · isplitl [Hs4 Hs5 Hs6 Hs7 Hs8 Hs9 Hq0 Hq1]
    · isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hq0]; · iexact Hq0
      iexact Hq1
    · iexact Hsems
  iexists W'; isplitr
  · ipureintro; exact hW'
  · iexact HO

end Main

end Cert.KernelIdeal.Hand

end
-- ==== Proof.HI.Pay.lean ====
/-
  What the one SparseCore call carries. The call hands each SparseCore the conjunction of what its sixteen tasks
  need, so the split of a SparseCore's operands into its tasks' is the identity and all cutting of arrays is done
  once, in @main's proof. A task is handed a read share of the node table, its slab of each index array and its
  fifty chunks of the result's left 256 columns; it hands back the same, each chunk now holding the left part of the
  specification.
-/
import proofs.«210912_g7524782702854_cont_9to1c4b_744_40_alg».proof.Proof.HI.Tile

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

local notation "𝕄" => MT nD τ sig (HIx 1) (Elt F) ℕ UU ℕ

/-! ## The arrays as the TensorCore names them -/

abbrev tblLoc (d : Dev nD) : Loc nD τ sig := (SparseCore.T d).loc main_arg0
abbrev radLoc (d : Dev nD) : Loc nD τ sig := (SparseCore.T d).loc main_arg1
abbrev angLoc (d : Dev nD) : Loc nD τ sig := (SparseCore.T d).loc main_arg2
abbrev idxLoc (d : Dev nD) : Loc nD τ sig := (SparseCore.T d).loc main_arg3
abbrev srcLoc (d : Dev nD) : Loc nD τ sig := (SparseCore.T d).loc main_v1
abbrev dstLoc (d : Dev nD) : Loc nD τ sig := (SparseCore.T d).loc main_v3
abbrev outLoc (d : Dev nD) : Loc nD τ sig := (SparseCore.T d).loc main_v4
abbrev resLoc (d : Dev nD) : Loc nD τ sig := (SparseCore.T d).loc main_v5

/-! ## A task's coordinates and its read token -/

theorem bound_zero : grid0.bound 0 = 2 := rfl
theorem bound_one : grid0.bound 1 = 16 := rfl

/-- The grid coordinates of task `i` of SparseCore `c` of the call. -/
def coordsV (c : Fin (grid0.bound 0)) (s : Fin (grid0.bound 1)) : grid0.Coords :=
  fun | 0 => c | 1 => s | ⟨_ + 2, h⟩ => absurd h (Nat.not_lt.2 (Nat.le_add_left _ _))

abbrev coordsOf (c : Fin ((K (F := F)).nCore 0)) (i : Fin ((K (F := F)).nSub 0)) : grid0.Coords :=
  coordsV ⟨c.val, c.isLt⟩ ⟨i.val, i.isLt⟩

/-- The worker number of a task: 2 s + c, below 32. -/
def worker (L : grid0.Coords) : Nat := 2 * (L 1).val + (L 0).val

/-- The task's share of the table: the read token of its worker number. -/
abbrev tok (L : grid0.Coords) : PosShare TreeShare := Transfers.shareTokN fullShare (worker L)

variable [FloatOps F]

/-! ## What a task is handed and hands back -/

section Res

variable (d : Dev nD) (ft : Buf (Elt F) (tblLoc d)) (fs : Buf (Elt F) (srcLoc d)) (fd : Buf (Elt F) (dstLoc d)) (fo : Buf (Elt F) (outLoc d))

/-- The table at the task's read token, the task's two index slabs and its fifty chunks at the result array's entry contents. -/
def goRes (L : grid0.Coords) : sProp 𝕄 :=
  iprop((tblLoc d ↦{tok L} ft)
    ∗ (srcLoc d ↦[(srcSlab L).view.set]{fullShare} fs)
    ∗ (dstLoc d ↦[(dstSlab L).view.set]{fullShare} fd)
    ∗ (bigSep Finset.univ fun k : Fin k0_t1_loop.trips =>
        iprop((outLoc d ↦[(outChunk0 L k).view.set]{fullShare} fo) ∗ (outLoc d ↦[(outChunk1 L k).view.set]{fullShare} fo))))

/-- The same back, every chunk holding the left part of the specification. -/
def tdRes (L : grid0.Coords) : sProp 𝕄 :=
  iprop((tblLoc d ↦{tok L} ft)
    ∗ (srcLoc d ↦[(srcSlab L).view.set]{fullShare} fs)
    ∗ (dstLoc d ↦[(dstSlab L).view.set]{fullShare} fd)
    ∗ (bigSep Finset.univ fun k : Fin k0_t1_loop.trips =>
        iprop((∃ f, ⌜ChunkOK (d := d) L k 0 ft fs fd f⌝ ∗ outLoc d ↦[(outChunk0 L k).view.set]{fullShare} f)
          ∗ (∃ f, ⌜ChunkOK (d := d) L k 1 ft fs fd f⌝ ∗ outLoc d ↦[(outChunk1 L k).view.set]{fullShare} f))))

instance goRes_storable (L : grid0.Coords) : BI.Storable (upEmb : UEmb _ 𝕄) (goRes d ft fs fd fo L) := by
  unfold goRes; infer_instance
instance tdRes_storable (L : grid0.Coords) : BI.Storable (upEmb : UEmb _ 𝕄) (tdRes d ft fs fd L) := by
  unfold tdRes; infer_instance

end Res

/-! ## The call's payloads -/

/-- The contents of the table, the two index arrays and the result array when the call is made, per device. -/
structure CallData where
  ft : (d : Dev nD) → Buf (Elt F) (tblLoc d)
  fs : (d : Dev nD) → Buf (Elt F) (srcLoc d)
  fd : (d : Dev nD) → Buf (Elt F) (dstLoc d)
  fo : (d : Dev nD) → Buf (Elt F) (outLoc d)
  hs : ∀ d j, (fs d j).toNat < 10000
  hd : ∀ d j, (fd d j).toNat < 10000

variable (X : CallData (F := F))

/-- What task `i` of SparseCore `c` is handed, and hands back; what the SparseCore is handed, and hands back. -/
def goP (d : Dev nD) (c : Fin ((K (F := F)).nCore 0)) (i : Fin ((K (F := F)).nSub 0)) : sProp 𝕄 :=
  goRes d (X.ft d) (X.fs d) (X.fd d) (X.fo d) (coordsOf c i)
def tdP (d : Dev nD) (c : Fin ((K (F := F)).nCore 0)) (i : Fin ((K (F := F)).nSub 0)) : sProp 𝕄 :=
  tdRes d (X.ft d) (X.fs d) (X.fd d) (coordsOf c i)
def stP (d : Dev nD) (c : Fin ((K (F := F)).nCore 0)) : sProp 𝕄 := bigSep Finset.univ fun i : Fin ((K (F := F)).nSub 0) => goP X d c i
def dnP (d : Dev nD) (c : Fin ((K (F := F)).nCore 0)) : sProp 𝕄 := bigSep Finset.univ fun i : Fin ((K (F := F)).nSub 0) => tdP X d c i

instance goP_storable (d : Dev nD) (c) (i) : BI.Storable (upEmb : UEmb _ 𝕄) (goP X d c i) := by unfold goP; infer_instance
instance tdP_storable (d : Dev nD) (c) (i) : BI.Storable (upEmb : UEmb _ 𝕄) (tdP X d c i) := by unfold tdP; infer_instance
instance stP_storable (d : Dev nD) (c) : BI.Storable (upEmb : UEmb _ 𝕄) (stP X d c) := by unfold stP; infer_instance
instance dnP_storable (d : Dev nD) (c) : BI.Storable (upEmb : UEmb _ 𝕄) (dnP X d c) := by unfold dnP; infer_instance

def P : (K (F := F)).Pay (nD := nD) (Val := Elt F) (Name := ℕ) (U := UU) where
  st := fun q d c => match q with | 0 => stP X d c
  dn := fun q d c => match q with | 0 => dnP X d c
  go := fun q d c i => match q with | 0 => goP X d c i
  td := fun q d c i => match q with | 0 => tdP X d c i
  x := fun _ _ => iprop(emp)

theorem P_st (d : Dev nD) (c) : (P X).st 0 d c = stP X d c := rfl
theorem P_dn (d : Dev nD) (c) : (P X).dn 0 d c = dnP X d c := rfl
theorem P_go (d : Dev nD) (c) (i) : (P X).go 0 d c i = goP X d c i := rfl
theorem P_td (d : Dev nD) (c) (i) : (P X).td 0 d c i = tdP X d c i := rfl

instance P_storable : (P (F := F) X).IsStorable where
  st q d c := match q with | 0 => (inferInstance : BI.Storable (upEmb : UEmb _ 𝕄) (stP X d c))
  dn q d c := match q with | 0 => (inferInstance : BI.Storable (upEmb : UEmb _ 𝕄) (dnP X d c))
  go q d c i := match q with | 0 => (inferInstance : BI.Storable (upEmb : UEmb _ 𝕄) (goP X d c i))
  td q d c i := match q with | 0 => (inferInstance : BI.Storable (upEmb : UEmb _ 𝕄) (tdP X d c i))

/-- A SparseCore's operands are its tasks', and its results theirs. -/
theorem vecSplit : (K (F := F)).VecSplit' (P X) 0 := by
  intro d c
  rw [P_st, P_dn]
  simp only [P_go, P_td]
  unfold stP dnP
  iintro H; imodintro
  isplitl [H]; · iexact H
  iintro H; iexact H

/-! ## The task's obligation -/

theorem defs₀_vector (c : Fin τ.nSC) (s : Fin τ.nSub) :
    defs₀ (F := F) (.scVector c s) 0 ()
      = SparseCore.onTile hcore0 hsub0 (fun c s => cc0__gather_kernel (coordsV c s)
          tblV (Memref.isWhole_whole _) srcV (Memref.isWhole_whole _) dstV (Memref.isWhole_whole _) outV (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task's resources, as the launch hands them, are the body's precondition. -/
theorem tile_pre (d : Dev nD) (c : Fin ((K (F := F)).nCore 0)) (i : Fin ((K (F := F)).nSub 0))
    (O : CellTallies nD τ sig (HIx 1)) (W : Waits sig (HIx 1)) :
    iprop(levAts (K (F := F)).L (K (F := F)).lev ∗ iprop(emp) ∗ goP X d c i
        ∗ scopedBufs (V d (cV (coordsOf c i)) (jV (coordsOf c i))) ∗ scopedSems0 (V d (cV (coordsOf c i)) (jV (coordsOf c i)))
        ∗ owes (V d (cV (coordsOf c i)) (jV (coordsOf c i))) O W : sProp 𝕄)
      ⊢ iprop(levAts (K (F := F)).L (K (F := F)).lev
        ∗ (tblLoc d ↦{tok (coordsOf c i)} X.ft d)
        ∗ (srcLoc d ↦[(srcSlab (coordsOf c i)).view.set]{fullShare} X.fs d)
        ∗ (dstLoc d ↦[(dstSlab (coordsOf c i)).view.set]{fullShare} X.fd d)
        ∗ (bigSep Finset.univ fun k : Fin k0_t1_loop.trips =>
            iprop((outLoc d ↦[(outChunk0 (coordsOf c i) k).view.set]{fullShare} X.fo d)
              ∗ (outLoc d ↦[(outChunk1 (coordsOf c i) k).view.set]{fullShare} X.fo d)))
        ∗ scopedBufs (V d (cV (coordsOf c i)) (jV (coordsOf c i))) ∗ scopedSems0 (V d (cV (coordsOf c i)) (jV (coordsOf c i)))
        ∗ owes (V d (cV (coordsOf c i)) (jV (coordsOf c i))) O W) := by
  unfold goP goRes
  iintro ⟨Hlv, -, ⟨Ht, Hs, Hd, Ho⟩, Hsb, Hss, HO⟩
  isplitl [Hlv]; · iexact Hlv
  isplitl [Ht]; · iexact Ht
  isplitl [Hs]; · iexact Hs
  isplitl [Hd]; · iexact Hd
  isplitl [Ho]; · iexact Ho
  isplitl [Hsb]; · iexact Hsb
  isplitl [Hss]; · iexact Hss
  iexact HO

/-- What the body leaves is what the task hands back. -/
theorem tile_post (d : Dev nD) (c : Fin ((K (F := F)).nCore 0)) (i : Fin ((K (F := F)).nSub 0))
    (O : CellTallies nD τ sig (HIx 1)) (W : Waits sig (HIx 1)) (A B : sProp 𝕄) :
    iprop(((tblLoc d ↦{tok (coordsOf c i)} X.ft d)
        ∗ (srcLoc d ↦[(srcSlab (coordsOf c i)).view.set]{fullShare} X.fs d)
        ∗ (dstLoc d ↦[(dstSlab (coordsOf c i)).view.set]{fullShare} X.fd d)
        ∗ (bigSep Finset.univ fun k : Fin k0_t1_loop.trips =>
            iprop((∃ f, ⌜ChunkOK (d := d) (coordsOf c i) k 0 (X.ft d) (X.fs d) (X.fd d) f⌝ ∗ outLoc d ↦[(outChunk0 (coordsOf c i) k).view.set]{fullShare} f)
              ∗ (∃ f, ⌜ChunkOK (d := d) (coordsOf c i) k 1 (X.ft d) (X.fs d) (X.fd d) f⌝ ∗ outLoc d ↦[(outChunk1 (coordsOf c i) k).view.set]{fullShare} f))))
        ∗ A ∗ B ∗ ∃ W', ⌜∀ p ∈ W', p ∈ W ∨ p.2 = none⌝ ∗ owes (V d (cV (coordsOf c i)) (jV (coordsOf c i))) O W' : sProp 𝕄)
      ⊢ iprop(tdP X d c i ∗ A ∗ B
        ∗ ∃ W', ⌜∀ p ∈ W', p ∈ W ∨ p.2 = none ∨ p.2 = some (0 : Fin 1)⌝ ∗ owes (V d (cV (coordsOf c i)) (jV (coordsOf c i))) O W') := by
  unfold tdP tdRes
  exact obl_post

theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_pre X d c i O W).trans ((tile_body d (coordsOf c i) (tok (coordsOf c i)) (X.ft d) (X.fs d) (X.fd d) (X.fo d) (X.hs d) (X.hd d) O W hO).trans
    (wp_mono frame _ _ fun _ => tile_post X d c i O W _ _))

end Cert.KernelIdeal.Hand

end
-- ==== Proof.HI.Host.lean ====
/-
  The host operations of @main around the SparseCore call: the two rows of the index array are sliced out and
  flattened into the source-index and destination-index arrays before the call; after it the gathered array is copied
  into the result's buffer. Here: the device's buffer contents after the first four operations, and what the two
  index arrays then hold — entry e of the source-index array is entry (0, e) of the index array, of the
  destination-index array entry (1, e).
-/
import proofs.«210912_g7524782702854_cont_9to1c4b_744_40_alg».proof.Proof.HI.Pay
import Idealize.ShloMosaic.Lib.Pipeline.Value
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.SL Idealize.SL.Sem
open Idealize.ShloMosaic.StableHlo (held held_split held_sdiff_result wp_hlo_within)
open Idealize.ShloMosaic.ValueIdx (ix1 ix2)

variable {F : FTy → Type} [FloatOps F]

variable (m : (ℓ : Loc nD τ sig) → Buf (Elt F) ℓ)

/-! ## The operations -/

abbrev op0 : HloOp τ sig (Elt F) :=
  StableHlo.unary main_arg3 main_v0 ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 rfl shapeCasts_S1x320000_S320000
abbrev op2 : HloOp τ sig (Elt F) :=
  StableHlo.unary main_arg3 main_v2 ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 rfl shapeCasts_S1x320000_S320000
abbrev op5 : HloOp τ sig (Elt F) := StableHlo.unary main_v4 main_v5 id

/-- The device's buffer contents at the launch, and after the four operations before the call. -/
def V0 (d : Dev nD) : Valuation τ sig (Elt F) := fun b => m (d, b)
def Vh (d : Dev nD) : Valuation τ sig (Elt F) := StableHlo.after [op0, op1, op2, op3] (V0 m d)

/-- The source-index and the destination-index array as the call finds them. -/
def srcW (d : Dev nD) : Buf (Elt F) (srcLoc d) := Vh m d (Proc.devRef .tc main_v1)
def dstW (d : Dev nD) : Buf (Elt F) (dstLoc d) := Vh m d (Proc.devRef .tc main_v3)

theorem Vh_arg0 (d : Dev nD) : Vh m d (Proc.devRef .tc main_arg0) = m (tblLoc d) := by
  unfold Vh; after_results; rfl
theorem Vh_arg1 (d : Dev nD) : Vh m d (Proc.devRef .tc main_arg1) = m (radLoc d) := by
  unfold Vh; after_results; rfl
theorem Vh_arg2 (d : Dev nD) : Vh m d (Proc.devRef .tc main_arg2) = m (angLoc d) := by
  unfold Vh; after_results; rfl
theorem Vh_arg3 (d : Dev nD) : Vh m d (Proc.devRef .tc main_arg3) = m (idxLoc d) := by
  unfold Vh; after_results; rfl
theorem Vh_v4 (d : Dev nD) : Vh m d (Proc.devRef .tc main_v4) = m (outLoc d) := by
  unfold Vh; after_results; rfl
theorem Vh_v5 (d : Dev nD) : Vh m d (Proc.devRef .tc main_v5) = m (resLoc d) := by
  unfold Vh; after_results; rfl

theorem srcW_eq (d : Dev nD) : srcW m d = shapeCast S320000 (extractStridedSlice S1x320000 ![0, 0] (m (idxLoc d)) slices_S2x320000_S1x320000_0_0) shapeCasts_S1x320000_S320000 := by
  unfold srcW Vh; after_results; rfl
theorem dstW_eq (d : Dev nD) : dstW m d = shapeCast S320000 (extractStridedSlice S1x320000 ![1, 0] (m (idxLoc d)) slices_S2x320000_S1x320000_1_0) shapeCasts_S1x320000_S320000 := by
  unfold dstW Vh; after_results; rfl

/-! ## The index arrays' entries -/

theorem srcW_apply (d : Dev nD) (e : Fin 320000) : srcW m d (ix1 e) = m (idxLoc d) (ix2 (0 : Fin 2) e) := by
  rw [srcW_eq]
  refine (Idealize.ShloMosaic.ValueIdx.shapeCast_1a_a_apply _ shapeCasts_S1x320000_S320000 e).trans ?_
  refine extractStridedSlice_apply _ _ _ _ _ fun a => ?_
  match a with
  | ⟨0, _⟩ => rfl
  | ⟨1, _⟩ => exact (Nat.zero_add _).symm

theorem dstW_apply (d : Dev nD) (e : Fin 320000) : dstW m d (ix1 e) = m (idxLoc d) (ix2 (1 : Fin 2) e) := by
  rw [dstW_eq]
  refine (Idealize.ShloMosaic.ValueIdx.shapeCast_1a_a_apply _ shapeCasts_S1x320000_S320000 e).trans ?_
  refine extractStridedSlice_apply _ _ _ _ _ fun a => ?_
  match a with
  | ⟨0, _⟩ => rfl
  | ⟨1, _⟩ => exact (Nat.zero_add _).symm

/-- What the proof asks of the launch memory: every word of the index array names a table row. -/
def PreOK : Prop := ∀ (d : Dev nD) (j : S2x320000.Idx), (m (idxLoc d) j).toNat < 10000

variable {m}

theorem srcW_lt (h : PreOK m) (d : Dev nD) (j : S320000.Idx) : (srcW m d j).toNat < 10000 := by
  have e : srcW m d j = m (idxLoc d) (ix2 (0 : Fin 2) (j 0)) :=
    (congrArg (srcW m d) (Idealize.ShloMosaic.ValueIdx.eq_ix1 j)).trans (srcW_apply m d (j 0))
  rw [e]; exact h d _
theorem dstW_lt (h : PreOK m) (d : Dev nD) (j : S320000.Idx) : (dstW m d j).toNat < 10000 := by
  have e : dstW m d j = m (idxLoc d) (ix2 (1 : Fin 2) (j 0)) :=
    (congrArg (dstW m d) (Idealize.ShloMosaic.ValueIdx.eq_ix1 j)).trans (dstW_apply m d (j 0))
  rw [e]; exact h d _

/-- The arrays as the call finds them. -/
def callData (h : PreOK m) : CallData (F := F) where
  ft := fun d => m (tblLoc d)
  fs := srcW m
  fd := dstW m
  fo := fun d => m (outLoc d)
  hs := srcW_lt h
  hd := dstW_lt h

end Cert.KernelIdeal.Hand

end
-- ==== Proof.HI.Cuts.lean ====
/-
  Arithmetic of the cut of the arrays among the tasks. A task's index slab is the 10000 entries from its base; its
  chunk r of trip k is the 200 rows from base + 400 k + 200 r, columns below 256. Bases are 10000 (2 s + c), so the
  thirty-two slabs are pairwise disjoint, the sixteen hundred chunks are pairwise disjoint, and every position of the
  result left of column 256 lies in exactly one chunk.
-/
import proofs.«210912_g7524782702854_cont_9to1c4b_744_40_alg».proof.Proof.HI.Pay

noncomputable section

namespace Cert.KernelIdeal.Hand

open Cert.KernelIdeal Cert.KernelIdeal.Gen

open Idealize.ShloMosaic
open Idealize.ShloMosaic.ValueIdx (ix1 ix2)

/-! ## Membership -/

theorem trips_le : ∀ k : Fin k0_t1_loop.trips, k.val < 25 := fun k => lt_of_lt_of_le k.isLt k0_t1_abs.2.1

theorem set_srcSlab (L : grid0.Coords) : (srcSlab L).view.set = (Rect.unit (s := S320000) (k0_off1 L) S10000.size (k0_off1_inb L)).set :=
  View.set_slice_whole main_v1_scv _
theorem set_dstSlab (L : grid0.Coords) : (dstSlab L).view.set = (Rect.unit (s := S320000) (k0_off1 L) S10000.size (k0_off1_inb L)).set :=
  View.set_slice_whole main_v3_scv _
theorem set_outChunk0 (L : grid0.Coords) (k : Fin k0_t1_loop.trips) :
    (outChunk0 L k).view.set = (Rect.unit (s := S320000x276) (k0_off3 L k 0#32) S200x256.size (k0_off3_inb L k 0)).set :=
  View.set_slice_whole main_v4_scv _
theorem set_outChunk1 (L : grid0.Coords) (k : Fin k0_t1_loop.trips) :
    (outChunk1 L k).view.set = (Rect.unit (s := S320000x276) (k0_off3 L k 200#32) S200x256.size (k0_off3_inb L k 1)).set :=
  View.set_slice_whole main_v4_scv _

theorem mem_srcSlab (L : grid0.Coords) (j : S320000.Idx) :
    j ∈ (srcSlab L).view.set ↔ base L ≤ (j 0).val ∧ (j 0).val < base L + 10000 := by
  rw [set_srcSlab, Rect.mem_set_unit, k0_off1_eq]
  constructor
  · intro h; have := h 0; simpa [base] using this
  · intro h a; obtain rfl : a = 0 := Subsingleton.elim _ _; simpa [base] using h

theorem mem_dstSlab (L : grid0.Coords) (j : S320000.Idx) :
    j ∈ (dstSlab L).view.set ↔ base L ≤ (j 0).val ∧ (j 0).val < base L + 10000 := by
  rw [set_dstSlab, Rect.mem_set_unit, k0_off1_eq]
  constructor
  · intro h; have := h 0; simpa [base] using this
  · intro h a; obtain rfl : a = 0 := Subsingleton.elim _ _; simpa [base] using h

theorem mem_outChunk0 (L : grid0.Coords) (k : Fin k0_t1_loop.trips) (j : S320000x276.Idx) :
    j ∈ (outChunk0 L k).view.set ↔ (base L + 400 * k.val ≤ (j 0).val ∧ (j 0).val < base L + 400 * k.val + 200) ∧ (j 1).val < 256 := by
  rw [set_outChunk0, Rect.mem_set_unit, show k0_off3 L k 0#32 = _ from k0_off3_eq L k 0]
  constructor
  · intro h; have h0 := h 0; have h1 := h 1
    simp [base] at h0 h1 ⊢; omega
  · intro h a
    match a with
    | ⟨0, _⟩ => simp [base] at h ⊢; omega
    | ⟨1, _⟩ => simp [base] at h ⊢; omega

theorem mem_outChunk1 (L : grid0.Coords) (k : Fin k0_t1_loop.trips) (j : S320000x276.Idx) :
    j ∈ (outChunk1 L k).view.set ↔ (base L + 400 * k.val + 200 ≤ (j 0).val ∧ (j 0).val < base L + 400 * k.val + 400) ∧ (j 1).val < 256 := by
  rw [set_outChunk1, Rect.mem_set_unit, show k0_off3 L k 200#32 = _ from k0_off3_eq L k 1]
  constructor
  · intro h; have h0 := h 0; have h1 := h 1
    simp [base] at h0 h1 ⊢; omega
  · intro h a
    match a with
    | ⟨0, _⟩ => simp [base] at h ⊢; omega
    | ⟨1, _⟩ => simp [base] at h ⊢; omega

/-! ## Tasks are told apart by their base -/

theorem coords_ext {L L' : grid0.Coords} (h0 : (L 0).val = (L' 0).val) (h1 : (L 1).val = (L' 1).val) : L = L' := by
  funext a
  match a with
  | ⟨0, _⟩ => exact Fin.ext h0
  | ⟨1, _⟩ => exact Fin.ext h1

theorem coords_lt (L : grid0.Coords) : (L 0).val < 2 ∧ (L 1).val < 16 := ⟨(L 0).isLt, (L 1).isLt⟩

/-- Two tasks' index slabs are disjoint. -/
theorem disjoint_srcSlab {L L' : grid0.Coords} (h : L ≠ L') : Disjoint (srcSlab L).view.set (srcSlab L').view.set := by
  refine Finset.disjoint_left.mpr fun j h1 h2 => h ?_
  rw [mem_srcSlab] at h1 h2
  have := coords_lt L; have := coords_lt L'
  unfold base at h1 h2
  exact coords_ext (by omega) (by omega)

theorem disjoint_dstSlab {L L' : grid0.Coords} (h : L ≠ L') : Disjoint (dstSlab L).view.set (dstSlab L').view.set := by
  refine Finset.disjoint_left.mpr fun j h1 h2 => h ?_
  rw [mem_dstSlab] at h1 h2
  have := coords_lt L; have := coords_lt L'
  unfold base at h1 h2
  exact coords_ext (by omega) (by omega)

/-! ## The chunks as one family -/

/-- Chunk `r` of trip `k` of the task at `L`, as a set of positions of the result array. -/
def chunkSet (L : grid0.Coords) (k : Fin k0_t1_loop.trips) (r : Fin 2) : Finset S320000x276.Idx :=
  if r.val = 0 then (outChunk0 L k).view.set else (outChunk1 L k).view.set

theorem chunkSet_zero (L : grid0.Coords) (k : Fin k0_t1_loop.trips) : chunkSet L k 0 = (outChunk0 L k).view.set := if_pos rfl
theorem chunkSet_one (L : grid0.Coords) (k : Fin k0_t1_loop.trips) : chunkSet L k 1 = (outChunk1 L k).view.set := if_neg (by decide)

theorem mem_chunkSet (L : grid0.Coords) (k : Fin k0_t1_loop.trips) (r : Fin 2) (j : S320000x276.Idx) :
    j ∈ chunkSet L k r ↔ (base L + 400 * k.val + 200 * r.val ≤ (j 0).val ∧ (j 0).val < base L + 400 * k.val + 200 * r.val + 200) ∧ (j 1).val < 256 := by
  match r with
  | ⟨0, _⟩ => rw [show (⟨0, by omega⟩ : Fin 2) = 0 from rfl, chunkSet_zero, mem_outChunk0]; simp
  | ⟨1, _⟩ => rw [show (⟨1, by omega⟩ : Fin 2) = 1 from rfl, chunkSet_one, mem_outChunk1]; simp

/-- Two different chunks are disjoint. -/
theorem disjoint_chunkSet {L L' : grid0.Coords} {k k' : Fin k0_t1_loop.trips} {r r' : Fin 2} (h : ¬ (L = L' ∧ k = k' ∧ r = r')) :
    Disjoint (chunkSet L k r) (chunkSet L' k' r') := by
  refine Finset.disjoint_left.mpr fun j h1 h2 => h ?_
  rw [mem_chunkSet] at h1 h2
  have := coords_lt L; have := coords_lt L'
  have := trips_le k; have := trips_le k'
  have := r.isLt; have := r'.isLt
  unfold base at h1 h2
  exact ⟨coords_ext (by omega) (by omega), Fin.ext (by omega), Fin.ext (by omega)⟩

/-- Every position left of column 256 lies in a chunk. -/
theorem exists_chunk (j : S320000x276.Idx) (h : (j 1).val < 256) :
    ∃ (c : Fin (grid0.bound 0)) (s : Fin (grid0.bound 1)) (k : Fin k0_t1_loop.trips) (r : Fin 2), j ∈ chunkSet (coordsV c s) k r := by
  have he : (j 0).val < 320000 := (j 0).isLt
  have htr : k0_t1_loop.trips = 25 := by decide
  refine ⟨⟨((j 0).val / 10000) % 2, Nat.mod_lt _ (by decide)⟩, ⟨(j 0).val / 20000, by show _ < 16; omega⟩,
    ⟨((j 0).val % 10000) / 400, by rw [htr]; omega⟩, ⟨((j 0).val % 400) / 200, by omega⟩, ?_⟩
  rw [mem_chunkSet]
  refine ⟨?_, h⟩
  show base (coordsV _ _) + 400 * (((j 0).val % 10000) / 400) + 200 * (((j 0).val % 400) / 200) ≤ (j 0).val ∧ _
  unfold base
  show 20000 * ((j 0).val / 20000) + 10000 * (((j 0).val / 10000) % 2) + 400 * (((j 0).val % 10000) / 400) + 200 * (((j 0).val % 400) / 200) ≤ (j 0).val ∧
    (j 0).val < 20000 * ((j 0).val / 20000) + 10000 * (((j 0).val / 10000) % 2) + 400 * (((j 0).val % 10000) / 400) + 200 * (((j 0).val % 400) / 200) + 200
  omega

end Cert.KernelIdeal.Hand

end
-- ==== Proof.HI.Split.lean ====
/-
  Cutting the arrays among the thirty-two tasks before the one SparseCore call, and joining them after it. The node
  table is held under thirty-two read shares, one per task, and a remainder; each index array is cut into the tasks'
  slabs; the result array is cut into the sixteen hundred chunks (two per trip of each task's loop) and the rest.
  After the call the read shares are put back under the remainder, and the chunks, each now holding the left part of
  the specification at its own rows, are joined with the rest into one array whose left 256 columns hold the left
  part of the specification at every row.
-/
import proofs.«210912_g7524782702854_cont_9to1c4b_744_40_alg».proof.Proof.HI.Cuts
import Idealize.ShloMosaic.Rules.PointsTo
import Idealize.ShloMosaic.Lib.Transfers
import Idealize.SL.ProofMode.BigOp

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F]

local notation "𝕄" => MT nD τ sig (HIx 1) (Elt F) ℕ UU ℕ

/-! ## The index sets -/

/-- A task, by its two grid coordinates; a chunk, by its task, its trip and which of the trip's two it is. -/
abbrev Task : Type := Fin (grid0.bound 0) × Fin (grid0.bound 1)
abbrev Quad : Type := Fin (grid0.bound 0) × Fin (grid0.bound 1) × Fin k0_t1_loop.trips × Fin 2

theorem coordsV_zero (c : Fin (grid0.bound 0)) (s : Fin (grid0.bound 1)) : (coordsV c s) 0 = c := rfl
theorem coordsV_one (c : Fin (grid0.bound 0)) (s : Fin (grid0.bound 1)) : (coordsV c s) 1 = s := rfl

/-- Different tasks have different coordinates. -/
theorem coordsV_inj {c c' : Fin (grid0.bound 0)} {s s' : Fin (grid0.bound 1)} (h : coordsV c s = coordsV c' s') : c = c' ∧ s = s' :=
  ⟨congrFun h 0, congrFun h 1⟩

theorem worker_coordsV (c : Fin (grid0.bound 0)) (s : Fin (grid0.bound 1)) : worker (coordsV c s) = 2 * s.val + c.val := rfl

/-- The positions of the result array some task's chunk covers. -/
def leftSet : Finset S320000x276.Idx :=
  (Finset.univ : Finset Quad).biUnion fun t => chunkSet (coordsV t.1 t.2.1) t.2.2.1 t.2.2.2

theorem chunks_disjoint : ∀ t ∈ (Finset.univ : Finset Quad), ∀ t' ∈ (Finset.univ : Finset Quad), t ≠ t' →
    Disjoint (chunkSet (coordsV t.1 t.2.1) t.2.2.1 t.2.2.2) (chunkSet (coordsV t'.1 t'.2.1) t'.2.2.1 t'.2.2.2) := by
  intro t _ t' _ hne
  refine disjoint_chunkSet fun h => hne ?_
  obtain ⟨hL, hk, hr⟩ := h
  obtain ⟨hc, hs⟩ := coordsV_inj hL
  obtain ⟨c, s, k, r⟩ := t
  obtain ⟨c', s', k', r'⟩ := t'
  simp only at hc hs hk hr
  subst hc hs hk hr
  rfl

theorem srcSlabs_disjoint : ∀ t ∈ (Finset.univ : Finset Task), ∀ t' ∈ (Finset.univ : Finset Task), t ≠ t' →
    Disjoint (srcSlab (coordsV t.1 t.2)).view.set (srcSlab (coordsV t'.1 t'.2)).view.set := by
  intro t _ t' _ hne
  refine disjoint_srcSlab fun h => hne ?_
  obtain ⟨hc, hs⟩ := coordsV_inj h
  exact Prod.ext hc hs

theorem dstSlabs_disjoint : ∀ t ∈ (Finset.univ : Finset Task), ∀ t' ∈ (Finset.univ : Finset Task), t ≠ t' →
    Disjoint (dstSlab (coordsV t.1 t.2)).view.set (dstSlab (coordsV t'.1 t'.2)).view.set := by
  intro t _ t' _ hne
  refine disjoint_dstSlab fun h => hne ?_
  obtain ⟨hc, hs⟩ := coordsV_inj h
  exact Prod.ext hc hs

/-- The worker numbers of the thirty-two tasks are the numbers below 32, each once. -/
theorem range_eq_image : Finset.range 32 = (Finset.univ : Finset Task).image fun t => worker (coordsV t.1 t.2) := by
  ext n
  rw [Finset.mem_range, Finset.mem_image]
  constructor
  · intro hn
    exact ⟨(⟨n % 2, Nat.mod_lt _ (by decide)⟩, ⟨n / 2, by show n / 2 < 16; omega⟩), Finset.mem_univ _, by
      rw [worker_coordsV]; show 2 * (n / 2) + n % 2 = n; omega⟩
  · rintro ⟨⟨c, s⟩, _, rfl⟩
    rw [worker_coordsV]
    have hc : c.val < 2 := c.isLt
    have hs : s.val < 16 := s.isLt
    show 2 * s.val + c.val < 32
    omega

theorem worker_injOn : Set.InjOn (fun t : Task => worker (coordsV t.1 t.2)) (Finset.univ : Finset Task) := by
  rintro ⟨c, s⟩ _ ⟨c', s'⟩ _ h
  simp only [worker_coordsV] at h
  have hc : c.val < 2 := c.isLt
  have hc' : c'.val < 2 := c'.isLt
  exact Prod.ext (Fin.ext (by show c.val = c'.val; omega)) (Fin.ext (by show s.val = s'.val; omega))

/-! ## The four arrays, each cut and joined -/

section Arrays

variable (d : Dev nD)

/-- The table under the remainder share and the tasks' read shares. -/
theorem tbl_toks (ft : Buf (Elt F) (tblLoc d)) :
    (tblLoc d ↦{fullShare} ft : sProp 𝕄) ⊣⊢ iprop((tblLoc d ↦{Transfers.shareDrop fullShare 32} ft)
      ∗ bigSep Finset.univ fun c : Fin (grid0.bound 0) => bigSep Finset.univ fun s : Fin (grid0.bound 1) =>
          tblLoc d ↦{tok (coordsV c s)} ft) := by
  have e : (bigSep (Finset.range 32) fun i => (tblLoc d ↦{Transfers.shareTokN fullShare i} ft : sProp 𝕄))
      = bigSep Finset.univ fun c : Fin (grid0.bound 0) => bigSep Finset.univ fun s : Fin (grid0.bound 1) =>
          tblLoc d ↦{tok (coordsV c s)} ft := by
    rw [range_eq_image, SparseCore.bigSep_image_of_injOn worker_injOn,
      bigSep_univ_prod (fun t : Task => (tblLoc d ↦{Transfers.shareTokN fullShare (worker (coordsV t.1 t.2))} ft : sProp 𝕄))]
  rw [← e]
  exact Transfers.pointsTo_toks_range fullShare 32

/-- The source-index array holds the tasks' slabs. -/
theorem src_slabs (fs : Buf (Elt F) (srcLoc d)) :
    (srcLoc d ↦{fullShare} fs : sProp 𝕄) ⊢ bigSep Finset.univ fun c : Fin (grid0.bound 0) => bigSep Finset.univ fun s : Fin (grid0.bound 1) =>
      srcLoc d ↦[(srcSlab (coordsV c s)).view.set]{fullShare} fs := by
  rw [← bigSep_univ_prod (fun t : Task => (srcLoc d ↦[(srcSlab (coordsV t.1 t.2)).view.set]{fullShare} fs : sProp 𝕄)),
    ← pointsTo_biUnion Finset.univ (ℓ := srcLoc d) (fun t : Task => (srcSlab (coordsV t.1 t.2)).view.set) srcSlabs_disjoint]
  refine (pointsTo_split_subset (I := Finset.univ.biUnion fun t : Task => (srcSlab (coordsV t.1 t.2)).view.set)
    (Finset.subset_univ _)).1.trans ?_
  iintro ⟨H, -⟩; iexact H

/-- The destination-index array holds the tasks' slabs. -/
theorem dst_slabs (fd : Buf (Elt F) (dstLoc d)) :
    (dstLoc d ↦{fullShare} fd : sProp 𝕄) ⊢ bigSep Finset.univ fun c : Fin (grid0.bound 0) => bigSep Finset.univ fun s : Fin (grid0.bound 1) =>
      dstLoc d ↦[(dstSlab (coordsV c s)).view.set]{fullShare} fd := by
  rw [← bigSep_univ_prod (fun t : Task => (dstLoc d ↦[(dstSlab (coordsV t.1 t.2)).view.set]{fullShare} fd : sProp 𝕄)),
    ← pointsTo_biUnion Finset.univ (ℓ := dstLoc d) (fun t : Task => (dstSlab (coordsV t.1 t.2)).view.set) dstSlabs_disjoint]
  refine (pointsTo_split_subset (I := Finset.univ.biUnion fun t : Task => (dstSlab (coordsV t.1 t.2)).view.set)
    (Finset.subset_univ _)).1.trans ?_
  iintro ⟨H, -⟩; iexact H

/-- The covered part of the result array is the chunks, task by task, trip by trip, two per trip. -/
theorem left_chunks (fo : Buf (Elt F) (outLoc d)) :
    (outLoc d ↦[leftSet]{fullShare} fo : sProp 𝕄)
      = bigSep Finset.univ fun c : Fin (grid0.bound 0) => bigSep Finset.univ fun s : Fin (grid0.bound 1) =>
          bigSep Finset.univ fun k : Fin k0_t1_loop.trips =>
            iprop((outLoc d ↦[(outChunk0 (coordsV c s) k).view.set]{fullShare} fo)
              ∗ (outLoc d ↦[(outChunk1 (coordsV c s) k).view.set]{fullShare} fo)) := by
  unfold leftSet
  rw [pointsTo_biUnion Finset.univ (ℓ := outLoc d) (fun t : Quad => chunkSet (coordsV t.1 t.2.1) t.2.2.1 t.2.2.2) chunks_disjoint,
    bigSep_univ_prod]
  refine bigSep_congr fun c _ => ?_
  rw [bigSep_univ_prod]
  refine bigSep_congr fun s _ => ?_
  rw [bigSep_univ_prod]
  refine bigSep_congr fun k _ => ?_
  rw [bigSep_univ_two, chunkSet_zero, chunkSet_one]

end Arrays

/-! ## A double conjunction of four-part resources is four double conjunctions -/

theorem bigSep2_sep4 {M : Type} [URA M] {α β : Type} [Fintype α] [Fintype β] (A B C D : α → β → sProp M) :
    (bigSep Finset.univ fun a => bigSep Finset.univ fun b => iprop(A a b ∗ B a b ∗ C a b ∗ D a b))
      = iprop((bigSep Finset.univ fun a => bigSep Finset.univ fun b => A a b)
        ∗ (bigSep Finset.univ fun a => bigSep Finset.univ fun b => B a b)
        ∗ (bigSep Finset.univ fun a => bigSep Finset.univ fun b => C a b)
        ∗ (bigSep Finset.univ fun a => bigSep Finset.univ fun b => D a b)) := by
  have step : ∀ a, (bigSep Finset.univ fun b => iprop(A a b ∗ B a b ∗ C a b ∗ D a b))
      = iprop((bigSep Finset.univ fun b => A a b) ∗ (bigSep Finset.univ fun b => B a b)
        ∗ (bigSep Finset.univ fun b => C a b) ∗ (bigSep Finset.univ fun b => D a b)) := fun a => by
    rw [bigSep_sep', bigSep_sep', bigSep_sep']
  rw [bigSep_congr fun a _ => step a, bigSep_sep', bigSep_sep', bigSep_sep']

section Families

variable (X : CallData (F := F)) (d : Dev nD)

/-- What the two SparseCores are handed, as four families over the tasks. -/
theorem st_families :
    (bigSep Finset.univ fun c : Fin ((K (F := F)).nCore 0) => (P X).st 0 d c)
      = iprop((bigSep Finset.univ fun c : Fin (grid0.bound 0) => bigSep Finset.univ fun s : Fin (grid0.bound 1) =>
            tblLoc d ↦{tok (coordsV c s)} X.ft d)
        ∗ (bigSep Finset.univ fun c : Fin (grid0.bound 0) => bigSep Finset.univ fun s : Fin (grid0.bound 1) =>
            srcLoc d ↦[(srcSlab (coordsV c s)).view.set]{fullShare} X.fs d)
        ∗ (bigSep Finset.univ fun c : Fin (grid0.bound 0) => bigSep Finset.univ fun s : Fin (grid0.bound 1) =>
            dstLoc d ↦[(dstSlab (coordsV c s)).view.set]{fullShare} X.fd d)
        ∗ (bigSep Finset.univ fun c : Fin (grid0.bound 0) => bigSep Finset.univ fun s : Fin (grid0.bound 1) =>
            bigSep Finset.univ fun k : Fin k0_t1_loop.trips =>
              iprop((outLoc d ↦[(outChunk0 (coordsV c s) k).view.set]{fullShare} X.fo d)
                ∗ (outLoc d ↦[(outChunk1 (coordsV c s) k).view.set]{fullShare} X.fo d)))) :=
  bigSep2_sep4 (fun (c : Fin (grid0.bound 0)) (s : Fin (grid0.bound 1)) => (tblLoc d ↦{tok (coordsV c s)} X.ft d : sProp 𝕄))
    (fun c s => srcLoc d ↦[(srcSlab (coordsV c s)).view.set]{fullShare} X.fs d)
    (fun c s => dstLoc d ↦[(dstSlab (coordsV c s)).view.set]{fullShare} X.fd d)
    (fun c s => bigSep Finset.univ fun k : Fin k0_t1_loop.trips =>
      iprop((outLoc d ↦[(outChunk0 (coordsV c s) k).view.set]{fullShare} X.fo d)
        ∗ (outLoc d ↦[(outChunk1 (coordsV c s) k).view.set]{fullShare} X.fo d)))

set_option maxHeartbeats 1600000 in
/-- What the two SparseCores hand back, as four families over the tasks. -/
theorem dn_families :
    (bigSep Finset.univ fun c : Fin ((K (F := F)).nCore 0) => (P X).dn 0 d c)
      = iprop((bigSep Finset.univ fun c : Fin (grid0.bound 0) => bigSep Finset.univ fun s : Fin (grid0.bound 1) =>
            tblLoc d ↦{tok (coordsV c s)} X.ft d)
        ∗ (bigSep Finset.univ fun c : Fin (grid0.bound 0) => bigSep Finset.univ fun s : Fin (grid0.bound 1) =>
            srcLoc d ↦[(srcSlab (coordsV c s)).view.set]{fullShare} X.fs d)
        ∗ (bigSep Finset.univ fun c : Fin (grid0.bound 0) => bigSep Finset.univ fun s : Fin (grid0.bound 1) =>
            dstLoc d ↦[(dstSlab (coordsV c s)).view.set]{fullShare} X.fd d)
        ∗ (bigSep Finset.univ fun c : Fin (grid0.bound 0) => bigSep Finset.univ fun s : Fin (grid0.bound 1) =>
            bigSep Finset.univ fun k : Fin k0_t1_loop.trips =>
              iprop((∃ f, ⌜ChunkOK (d := d) (coordsV c s) k 0 (X.ft d) (X.fs d) (X.fd d) f⌝
                    ∗ outLoc d ↦[(outChunk0 (coordsV c s) k).view.set]{fullShare} f)
                ∗ (∃ f, ⌜ChunkOK (d := d) (coordsV c s) k 1 (X.ft d) (X.fs d) (X.fd d) f⌝
                    ∗ outLoc d ↦[(outChunk1 (coordsV c s) k).view.set]{fullShare} f)))) := by
  show (bigSep Finset.univ fun c : Fin (grid0.bound 0) => bigSep Finset.univ fun s : Fin (grid0.bound 1) =>
      tdRes d (X.ft d) (X.fs d) (X.fd d) (coordsV c s)) = _
  exact
    bigSep2_sep4 (fun (c : Fin (grid0.bound 0)) (s : Fin (grid0.bound 1)) => (tblLoc d ↦{tok (coordsV c s)} X.ft d : sProp 𝕄))
      (fun c s => srcLoc d ↦[(srcSlab (coordsV c s)).view.set]{fullShare} X.fs d)
      (fun c s => dstLoc d ↦[(dstSlab (coordsV c s)).view.set]{fullShare} X.fd d)
      (fun c s => bigSep Finset.univ fun k : Fin k0_t1_loop.trips =>
        iprop((∃ f, ⌜ChunkOK (d := d) (coordsV c s) k 0 (X.ft d) (X.fs d) (X.fd d) f⌝
              ∗ outLoc d ↦[(outChunk0 (coordsV c s) k).view.set]{fullShare} f)
          ∗ (∃ f, ⌜ChunkOK (d := d) (coordsV c s) k 1 (X.ft d) (X.fs d) (X.fd d) f⌝
              ∗ outLoc d ↦[(outChunk1 (coordsV c s) k).view.set]{fullShare} f)))

/-- The result array whole is the chunks and the uncovered rest. -/
theorem out_split (fo : Buf (Elt F) (outLoc d)) :
    (outLoc d ↦{fullShare} fo : sProp 𝕄)
      ⊢ iprop((bigSep Finset.univ fun c : Fin (grid0.bound 0) => bigSep Finset.univ fun s : Fin (grid0.bound 1) =>
            bigSep Finset.univ fun k : Fin k0_t1_loop.trips =>
              iprop((outLoc d ↦[(outChunk0 (coordsV c s) k).view.set]{fullShare} fo)
                ∗ (outLoc d ↦[(outChunk1 (coordsV c s) k).view.set]{fullShare} fo)))
          ∗ (outLoc d ↦[Finset.univ \ leftSet]{fullShare} fo)) := by
  rw [← left_chunks d fo]
  exact (pointsTo_split_subset (Finset.subset_univ leftSet)).1

/-- The chunks handed back, as one family over the chunks. -/
theorem chunks_back_eq :
    (bigSep Finset.univ fun c : Fin (grid0.bound 0) => bigSep Finset.univ fun s : Fin (grid0.bound 1) =>
        bigSep Finset.univ fun k : Fin k0_t1_loop.trips =>
          iprop((∃ f, ⌜ChunkOK (d := d) (coordsV c s) k 0 (X.ft d) (X.fs d) (X.fd d) f⌝
                ∗ outLoc d ↦[(outChunk0 (coordsV c s) k).view.set]{fullShare} f)
            ∗ (∃ f, ⌜ChunkOK (d := d) (coordsV c s) k 1 (X.ft d) (X.fs d) (X.fd d) f⌝
                ∗ outLoc d ↦[(outChunk1 (coordsV c s) k).view.set]{fullShare} f)) : sProp 𝕄)
      = bigSep Finset.univ fun t : Quad =>
          iprop(∃ f : Buf (Elt F) (outLoc d), ⌜ChunkOK (d := d) (coordsV t.1 t.2.1) t.2.2.1 t.2.2.2 (X.ft d) (X.fs d) (X.fd d) f⌝
            ∗ outLoc d ↦[chunkSet (coordsV t.1 t.2.1) t.2.2.1 t.2.2.2]{fullShare} f) := by
  rw [bigSep_univ_prod]
  refine bigSep_congr fun c _ => ?_
  rw [bigSep_univ_prod]
  refine bigSep_congr fun s _ => ?_
  rw [bigSep_univ_prod]
  refine bigSep_congr fun k _ => ?_
  rw [bigSep_univ_two, chunkSet_zero, chunkSet_one]

/-- The chunks handed back and the uncovered rest are the result array whole, its left 256 columns the left part of the
    specification: a position left of column 256 lies in one chunk, at the row of that chunk that the position's row is,
    and the chunk holds the specification there. -/
theorem out_join :
    iprop((bigSep Finset.univ fun c : Fin (grid0.bound 0) => bigSep Finset.univ fun s : Fin (grid0.bound 1) =>
        bigSep Finset.univ fun k : Fin k0_t1_loop.trips =>
          iprop((∃ f, ⌜ChunkOK (d := d) (coordsV c s) k 0 (X.ft d) (X.fs d) (X.fd d) f⌝
                ∗ outLoc d ↦[(outChunk0 (coordsV c s) k).view.set]{fullShare} f)
            ∗ (∃ f, ⌜ChunkOK (d := d) (coordsV c s) k 1 (X.ft d) (X.fs d) (X.fd d) f⌝
                ∗ outLoc d ↦[(outChunk1 (coordsV c s) k).view.set]{fullShare} f)))
        ∗ (outLoc d ↦[Finset.univ \ leftSet]{fullShare} X.fo d) : sProp 𝕄)
      ⊢ iprop(∃ g : Buf (Elt F) (outLoc d), ⌜∀ (e : Fin 320000) (b : Fin 256), g (ix2 e ⟨b.val, by omega⟩)
              = Cert.Hand.Spec.Gleft (X.ft d) (X.fs d) (X.fd d) e b⌝ ∗ outLoc d ↦{fullShare} g) := by
  rw [chunks_back_eq X d]
  iintro ⟨Hch, Hor⟩
  ihave H1 := (bigSep_exists_pi Finset.univ (fun (t : Quad) (f : Buf (Elt F) (outLoc d)) =>
      (iprop(⌜ChunkOK (d := d) (coordsV t.1 t.2.1) t.2.2.1 t.2.2.2 (X.ft d) (X.fs d) (X.fd d) f⌝
        ∗ outLoc d ↦[chunkSet (coordsV t.1 t.2.1) t.2.2.1 t.2.2.2]{fullShare} f) : sProp 𝕄))) $$ Hch
  icases H1 with ⟨%fs, H1⟩
  ihave H2 := (bigSep_pure_sep Finset.univ
      (fun t : Quad => ChunkOK (d := d) (coordsV t.1 t.2.1) t.2.2.1 t.2.2.2 (X.ft d) (X.fs d) (X.fd d) (fs t))
      (fun t : Quad => (outLoc d ↦[chunkSet (coordsV t.1 t.2.1) t.2.2.1 t.2.2.2]{fullShare} fs t : sProp 𝕄))) $$ H1
  icases H2 with ⟨%hok, H2⟩
  ihave H3 := (pointsTo_biUnion_join Finset.univ (ℓ := outLoc d) (fun t : Quad => chunkSet (coordsV t.1 t.2.1) t.2.2.1 t.2.2.2)
      fs (X.fo d) chunks_disjoint) $$ H2
  icases H3 with ⟨%g, %hg, H3⟩
  ihave H4 := (pointsTo_join_subset (ℓ := outLoc d) (I := leftSet) (S := Finset.univ) (g := g) (f := X.fo d) (q := fullShare)
      (Finset.subset_univ leftSet)) $$ [H3 Hor]
  · isplitl [H3]
    · iexact H3
    · iexact Hor
  iexists (leftSet.piecewise g (X.fo d))
  isplitr
  · ipureintro
    intro e b
    have hb : b.val < 256 := b.isLt
    obtain ⟨c, s, k, r, hj⟩ := exists_chunk (ix2 e (⟨b.val, by omega⟩ : Fin 276)) hb
    have hjl : (ix2 e (⟨b.val, by omega⟩ : Fin 276) : S320000x276.Idx) ∈ leftSet :=
      Finset.mem_biUnion.mpr ⟨(c, s, k, r), Finset.mem_univ _, hj⟩
    rw [Finset.piecewise_eq_of_mem _ _ _ hjl, hg (c, s, k, r) (Finset.mem_univ _) _ hj]
    obtain ⟨⟨hlo, hhi⟩, _⟩ := (mem_chunkSet (coordsV c s) k r _).1 hj
    have hlo' : base (coordsV c s) + 400 * k.val + 200 * r.val ≤ e.val := hlo
    have hhi' : e.val < base (coordsV c s) + 400 * k.val + 200 * r.val + 200 := hhi
    have hrow : chunkRow (coordsV c s) k r ⟨e.val - (base (coordsV c s) + 400 * k.val + 200 * r.val), by omega⟩ = e :=
      Fin.ext (by show base (coordsV c s) + 400 * k.val + 200 * r.val + (e.val - (base (coordsV c s) + 400 * k.val + 200 * r.val)) = e.val; omega)
    have h := hok (c, s, k, r) (Finset.mem_univ _) ⟨e.val - (base (coordsV c s) + 400 * k.val + 200 * r.val), by omega⟩ b
    rw [hrow] at h
    exact h
  · iexact H4

end Families

/-! ## The call's operands and results -/

variable (X : CallData (F := F))

/-- Before the call: the four arrays whole are what the two SparseCores are handed, the table's remainder share and the
    part of the result array no chunk covers. -/
theorem call_split (d : Dev nD) :
    iprop((tblLoc d ↦{fullShare} X.ft d) ∗ (srcLoc d ↦{fullShare} X.fs d) ∗ (dstLoc d ↦{fullShare} X.fd d)
        ∗ (outLoc d ↦{fullShare} X.fo d) : sProp 𝕄)
      ⊢ iprop((bigSep Finset.univ fun c : Fin ((K (F := F)).nCore 0) => (P X).st 0 d c)
          ∗ (tblLoc d ↦{Transfers.shareDrop fullShare 32} X.ft d) ∗ (outLoc d ↦[Finset.univ \ leftSet]{fullShare} X.fo d)) := by
  rw [st_families X d]
  iintro ⟨Ht, Hs, Hd, Ho⟩
  ihave Ht' := (tbl_toks d (X.ft d)).1 $$ Ht
  icases Ht' with ⟨Htd, Htt⟩
  ihave Hs' := (src_slabs d (X.fs d)) $$ Hs
  ihave Hd' := (dst_slabs d (X.fd d)) $$ Hd
  ihave Ho' := (out_split d (X.fo d)) $$ Ho
  icases Ho' with ⟨Hol, Hor⟩
  isplitl [Htt Hs' Hd' Hol]
  · isplitl [Htt]; · iexact Htt
    isplitl [Hs']; · iexact Hs'
    isplitl [Hd']; · iexact Hd'
    iexact Hol
  isplitl [Htd]; · iexact Htd
  iexact Hor

/-- After the call: what the two SparseCores hand back, the table's remainder share and the uncovered part of the result
    array are the table whole and the result array whole, its left 256 columns the left part of the specification. -/
theorem call_join (d : Dev nD) :
    iprop((bigSep Finset.univ fun c : Fin ((K (F := F)).nCore 0) => (P X).dn 0 d c)
        ∗ (tblLoc d ↦{Transfers.shareDrop fullShare 32} X.ft d) ∗ (outLoc d ↦[Finset.univ \ leftSet]{fullShare} X.fo d) : sProp 𝕄)
      ⊢ iprop((tblLoc d ↦{fullShare} X.ft d)
          ∗ ∃ g : Buf (Elt F) (outLoc d), ⌜∀ (e : Fin 320000) (b : Fin 256), g (ix2 e ⟨b.val, by omega⟩)
              = Cert.Hand.Spec.Gleft (X.ft d) (X.fs d) (X.fd d) e b⌝ ∗ outLoc d ↦{fullShare} g) := by
  rw [dn_families X d]
  iintro ⟨⟨Htt, -, -, Hch⟩, Htd, Hor⟩
  isplitl [Htt Htd]
  · iapply (tbl_toks d (X.ft d)).2
    isplitl [Htd]; · iexact Htd
    iexact Htt
  iapply (out_join X d)
  isplitl [Hch]; · iexact Hch
  iexact Hor

end Cert.KernelIdeal.Hand

end
-- ==== Proof.HI.TailData.lean ====
/-
  The tail pipeline's proof data and its body obligation.

  The tail call runs over a grid of 80 points. At point t it fetches rows 4000 t + [0, 4000) of the radial array
  (16 columns) and of the angular array (4 columns) into staging buffers, runs the body, and writes the result's
  staging block back to the result array at rows 4000 t + [0, 4000), columns 256 + [0, 128) cut at the array's 276
  columns. The body stores into the whole result staging block the radial block, the angular block and 108 zero
  columns side by side. The proof data names these contents exactly: after the body the two input buffers hold their
  blocks and the result's buffer holds the stored block. Nothing is owed by the TensorCore during the region and the
  body keeps no invariant of its own.
-/
import proofs.«210912_g7524782702854_cont_9to1c4b_744_40_alg».proof.Proof.HI.Setup
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

/-- The one admissible contents of each pipeline: none has a prefetched table. -/
abbrev adm : (p : Fin 1) → (pcfgs (F := F) p).Adm := fun p => (cfgs p).toPCfg_adm

/-- The result's window is never fetched. -/
theorem fetch1_2 : ∀ t : Fin cfg1.N, (cfg1.win 2).fetch t = false :=
  (by decide +kernel : ∀ t : Fin grid1.N, win1_2.fetch t = false)

section Data

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

/-- The radial block of point `t`: rows `4000 t + [0, 4000)` of the radial array. -/
def radBlk (c : Dev nD) (t : Fin cfg1.N) : S4000x16.Idx → Elt F .f32 := (win1_0.blk t).view.read (Elt F) (A1 c)
/-- The angular block of point `t`. -/
def angBlk (c : Dev nD) (t : Fin cfg1.N) : S4000x4.Idx → Elt F .f32 := (win1_1.blk t).view.read (Elt F) (A2 c)
/-- What the body stores at point `t`: the two blocks side by side, then zero columns. -/
def outBlk (c : Dev nD) (t : Fin cfg1.N) : S4000x128.Idx → Elt F .f32 := k1_pay1 (radBlk A1 c t) (angBlk A2 c t)

/-- The proof data on device `c`. -/
def dats (_ : Fin 1) (c : Dev nD) : Dat τ (Elt F) (HIx 1) ℕ UU ℕ cfg1 c where
  A w := match w with
    | ⟨0, _⟩ => A1 c
    | ⟨1, _⟩ => A2 c
    | ⟨2, _⟩ => F5 c
  after w t := match w with
    | ⟨0, _⟩ => radBlk A1 c t
    | ⟨1, _⟩ => angBlk A2 c t
    | ⟨2, _⟩ => outBlk A1 A2 c t
  Φ _ := iprop(emp)
  q _ := fullShare
  owed _ := 0
  recorded _ := {p | (K (F := F)).lev ((c : Thread nD τ), p.1) p.2 ≤ 8}

theorem before_0 (c : Dev nD) (t : Fin cfg1.N) (d) : (dats A1 A2 F5 0 c).before (0 : Fin 3) t d = radBlk A1 c t := by
  unfold Dat.before; rw [if_pos (fetch1_0 t)]; rfl
theorem before_1 (c : Dev nD) (t : Fin cfg1.N) (d) : (dats A1 A2 F5 0 c).before (1 : Fin 3) t d = angBlk A2 c t := by
  unfold Dat.before; rw [if_pos (fetch1_1 t)]; rfl
theorem before_2 (c : Dev nD) (t : Fin cfg1.N) (d) : (dats A1 A2 F5 0 c).before (2 : Fin 3) t d = d := by
  unfold Dat.before
  rw [if_neg (by rw [fetch1_2 t]; exact Bool.false_ne_true)]
  split
  · rfl
  · exact if_pos (flush1_2 _)

end Data

/-! ## The kernel body's obligation -/

theorem hz2 : (![0, 0] : Fin 2 → Nat) = fun _ => 0 := funext fun a => by fin_cases a <;> rfl

set_option maxHeartbeats 1600000 in
/-- The kernel body on staging buffers `s0` of the radial window, `s1` of the angular window and `s2` of the result's:
    the whole loads of the first two, the dead load of the third, the whole store — the result's buffer ends holding
    the two blocks side by side and the zero columns, the other two unchanged. -/
theorem sound_body (c : Dev nD) (E : Set ℕ) (i : grid1.Coords) (s0 s1 s2 : Fin 2)
    (X0 : S4000x16.Idx → Elt F .f32) (X1 : S4000x4.Idx → Elt F .f32) (X2 : S4000x128.Idx → Elt F .f32) (Kp : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ Kp ⟨⟩))
      ⊢ wp frame (wpE (defs₀ (F := F)) 𝒱₀ c none) E
          (cc1__tail_kernel i (stage1_0 s0) (hstage1_0 s0) (stage1_1 s1) (hstage1_1 s1) (Memref.whole main_v4) (Memref.isWhole_whole _)
            (stage1_2 s2) (hstage1_2 s2)) Kp := by
  -- the accesses are at offsets zero and the buffers' own sizes, the whole buffers: a load reads the contents, an
  -- unmasked store writes the payload, at whichever of its window's two buffers each memref is
  have hr00 : (Memref.whole cc1_stg0_0 : Memref sig .tc _ _ _).view.readAt (Elt F) (Rect.unit (s := S4000x16) ![0, 0] S4000x16.size
      inb_S4000x16_S4000x16_0_0).toLoadRect = id := funext (Memref.readAt_unit_zero (Elt F) cc1_stg0_0 hz2 _)
  have hr01 : (Memref.whole cc1_stg0_1 : Memref sig .tc _ _ _).view.readAt (Elt F) (Rect.unit (s := S4000x16) ![0, 0] S4000x16.size
      inb_S4000x16_S4000x16_0_0).toLoadRect = id := funext (Memref.readAt_unit_zero (Elt F) cc1_stg0_1 hz2 _)
  have hr10 : (Memref.whole cc1_stg1_0 : Memref sig .tc _ _ _).view.readAt (Elt F) (Rect.unit (s := S4000x4) ![0, 0] S4000x4.size
      inb_S4000x4_S4000x4_0_0).toLoadRect = id := funext (Memref.readAt_unit_zero (Elt F) cc1_stg1_0 hz2 _)
  have hr11 : (Memref.whole cc1_stg1_1 : Memref sig .tc _ _ _).view.readAt (Elt F) (Rect.unit (s := S4000x4) ![0, 0] S4000x4.size
      inb_S4000x4_S4000x4_0_0).toLoadRect = id := funext (Memref.readAt_unit_zero (Elt F) cc1_stg1_1 hz2 _)
  have hw20 : ∀ f w, (((Memref.whole cc1_stg2_0).access (Rect.unit (s := S4000x128) ![0, 0] S4000x128.size inb_S4000x128_S4000x128_0_0)) :
      View sig .tc _ _ _).write (Elt F) f w Finset.univ = w := Memref.write_access_unit_zero_univ (Elt F) cc1_stg2_0 hz2 _
  have hw21 : ∀ f w, (((Memref.whole cc1_stg2_1).access (Rect.unit (s := S4000x128) ![0, 0] S4000x128.size inb_S4000x128_S4000x128_0_0)) :
      View sig .tc _ _ _).write (Elt F) f w Finset.univ = w := Memref.write_access_unit_zero_univ (Elt F) cc1_stg2_1 hz2 _
  fin_cases s0 <;> fin_cases s1 <;> fin_cases s2 <;>
  · simp only [owns_whole_eq, cc1__tail_kernel_eq_skeleton]; unfold cc1__tail_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    first | rw [hr00] | rw [hr01]
    first | rw [hr10] | rw [hr11]
    first | rw [hw20] | rw [hw21]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2

section Obligation

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

/-- The library's body obligation, from `sound_body` at the point's staging buffers: the radial and angular buffers
    arrive just fetched, holding their blocks, the result's holding anything; the first two leave as they came and the
    result's holding the stored block. Nothing is owed and the invariant is empty at either position. -/
theorem body_obligation (c : Dev nD) : BodyObligation (dats A1 A2 F5 0 c) (defs₀ (F := F)) 𝒱₀ (none : HIx 1) Set.univ := fun t => by
  rw [bigSep_W1, bigSep_W1]
  simp only
  rw [show (dats A1 A2 F5 0 c).Φ t.succ = (dats A1 A2 F5 0 c).Φ t.castSucc from rfl,
    show (dats A1 A2 F5 0 c).owesAt (none : HIx 1) t.succ = (dats A1 A2 F5 0 c).owesAt (none : HIx 1) t.castSucc from rfl]
  iintro ⟨HΦ, Ho, ⟨%d0, H0⟩, ⟨%d1, H1⟩, ⟨%d2, H2⟩⟩
  rw [before_0 A1 A2 F5 c t d0, before_1 A1 A2 F5 c t d1, before_2 A1 A2 F5 c t d2]
  iapply (sound_body (F := F) c Set.univ (grid1.coords t) (cfg1.slots t 0) (cfg1.slots t 1) (cfg1.slots t 2)
    (radBlk A1 c t) (angBlk A2 c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]; · iexact H0
  isplitl [H1]; · iexact H1
  iexact H2

end Obligation

end Cert.KernelIdeal.Hand

end
-- ==== Proof.HI.TailRegion.lean ====
/-
  The tail pipeline as a region of the TensorCore's program, entered from inside the SparseCore program.

  After the one SparseCore call the TensorCore owes nothing and every wait it has recorded sits at or below that
  call's band of levels. The region takes the TensorCore's handshake state, the radial and angular arrays and the
  result array, each whole; it gives the handshake state back unchanged (the pipeline's own waits are recorded at the
  kernels' own index, the lowest level), the two input arrays unchanged, and the result array at the contents the
  eighty write-backs compute. Anything else the caller holds is framed around the call.
-/
import proofs.«210912_g7524782702854_cont_9to1c4b_744_40_alg».proof.Proof.HI.TailData
import proofs.«210912_g7524782702854_cont_9to1c4b_744_40_alg».proof.Proof.LibScRegion

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

section Region

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

/-- The TensorCore's debt and recorded waits after the one SparseCore call, as its handshake state holds them. -/
def tcOwes (d : Dev nD) : sProp 𝕄 :=
  iprop(∃ W, ⌜(K (F := F)).WBelow (SparseCore.T d) W (8 * 1)⌝ ∗ owes (SparseCore.T d) ((K (F := F)).Otc d 1) W)

/-- The rest of the TensorCore's handshake state after the one SparseCore call: it bypasses the region. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop(tcOwes d ∗ tcTail d) := rfl

/-- The result array after the region, as the pipeline's write-backs compute it. -/
def tailFinal (c : Dev nD) : Buf (Elt F) ((c : Thread nD τ).loc main_v5) := (dats A1 A2 F5 0 c).arrAt (2 : Fin 3) cfg1.N

/-- The proof data as the region rule reads it: at each pipeline's configuration at its one admissible contents. -/
abbrev pdats : (p : Fin 1) → (c : Dev nD) → Dat τ (Elt F) (HIx 1) ℕ UU ℕ (Pipeline.pin (pcfgs (F := F)) adm p) c :=
  dats A1 A2 F5

theorem prefHeld_none (c : Dev nD) (q) (V) :
    (Pipeline.prefHeld (Ix := HIx 1) (Name := ℕ) (U := UU) (Lvl := ℕ) (Val := Elt F) (pcfgs (F := F) 0).pre c q V : sProp 𝕄) = BI.emp := by
  unfold Pipeline.prefHeld
  show bigSep (Finset.univ : Finset (Fin 0)) _ = _
  rw [Finset.univ_eq_empty, bigSep_empty]

/-- The three windows' arrays, one by one: each is a whole buffer held outright. -/
theorem arrays_three (c : Dev nD) (Fa : (w : Fin cfg1.W) → Buf (Elt F) ((cfg1.win w).arr.view.loc (c : Thread nD τ))) :
    ((dats A1 A2 F5 0 c).arrays Fa : sProp 𝕄)
      = iprop((((c : Thread nD τ).loc main_arg1) ↦{fullShare} Fa (0 : Fin 3)) ∗ (((c : Thread nD τ).loc main_arg2) ↦{fullShare} Fa (1 : Fin 3))
          ∗ (((c : Thread nD τ).loc main_v5) ↦{fullShare} Fa (2 : Fin 3))) := by
  unfold Dat.arrays
  rw [bigSep_W1, (arr_whole1 0).set_eq_univ, (arr_whole1 1).set_eq_univ, (arr_whole1 2).set_eq_univ]
  rfl

/-- The TensorCore's debt after the one SparseCore call is nothing, and its recorded waits sit at or below the call's
    band: that is the pipeline's `owes` at any point; -/
theorem owesAt_intro (c : Dev nD) (t : Fin (cfg1.N + 1)) : (tcOwes c : sProp 𝕄) ⊢ (dats A1 A2 F5 0 c).owesAt (none : HIx 1) t := by
  unfold tcOwes Pipeline.Dat.owesAt Pipeline.owesWithin
  rw [(K (F := F)).Otc_end c (le_refl 1)]
  iintro ⟨%W, %hW, HO⟩
  iexists W; isplitr
  · ipureintro; exact fun p hp => Or.inl (hW p hp)
  iexact HO

/-- and back: the pipeline's own waits are recorded at the kernels' own index, whose level is the lowest. -/
theorem owesAt_elim (c : Dev nD) (t : Fin (cfg1.N + 1)) : ((dats A1 A2 F5 0 c).owesAt (none : HIx 1) t : sProp 𝕄) ⊢ tcOwes c := by
  unfold tcOwes Pipeline.Dat.owesAt Pipeline.owesWithin
  rw [(K (F := F)).Otc_end c (le_refl 1)]
  iintro ⟨%W, %hW, HO⟩
  iexists W; isplitr
  · ipureintro
    intro p hp
    rcases hW hp with h | ⟨w, s, rfl⟩
    · exact h
    · exact Nat.zero_le _
  iexact HO

/-- The region: entered from the TensorCore's handshake state after the SparseCore call and the three arrays whole, it
    leaves the handshake state as it was, the two inputs as they were and the result array at `tailFinal`. -/
def tailSeg : Pipeline.RegionSeg (pcfgs (F := F)) adm (pdats A1 A2 F5) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation A1 A2 F5 c).loose
  hwaits := Pipeline.hwaits_of_owed_zero _ _ _ _ _ _ 0 fun _ _ => rfl
  pre c := iprop((K (F := F)).tcSt EH c 1 ∗ (((c : Thread nD τ).loc main_arg1) ↦{fullShare} A1 c) ∗ (((c : Thread nD τ).loc main_arg2) ↦{fullShare} A2 c)
    ∗ (((c : Thread nD τ).loc main_v5) ↦{fullShare} F5 c))
  post c := iprop((K (F := F)).tcSt EH c 1 ∗ (((c : Thread nD τ).loc main_arg1) ↦{fullShare} A1 c) ∗ (((c : Thread nD τ).loc main_arg2) ↦{fullShare} A2 c)
    ∗ (((c : Thread nD τ).loc main_v5) ↦{fullShare} tailFinal A1 A2 F5 c))
  X _ := iprop(emp)
  Y _ := iprop(emp)
  Z c := tcTail c
  hentry c := by
    rw [prefHeld_none, tcSt_one, arrays_three, Pipeline.ownSems0_none]
    iintro ⟨⟨⟨HO, HZ⟩, H1, H2, H5⟩, -, -⟩
    imodintro
    isplitl [H1 H2 H5]
    · isplitl [H1]; · iexact H1
      isplitl [H2]; · iexact H2
      iexact H5
    isplitr; · iempintro
    isplitl [HO]; · iapply (owesAt_intro A1 A2 F5 c 0); iexact HO
    isplitr; · iempintro
    iexact HZ
  hin c := by
    iintro -; iempintro
  hout c := by
    rw [Pipeline.ownSems0_none, scopedRest1_eq]
    iintro -
    isplitr; · iempintro
    isplitr <;> iempintro
  hexit c := by
    rw [arrays_three, tcSt_one, (dats A1 A2 F5 0 c).arrAt_in (0 : Fin 3) rfl, (dats A1 A2 F5 0 c).arrAt_in (1 : Fin 3) rfl]
    iintro ⟨⟨H1, H2, H5⟩, HO, -, HZ⟩
    imodintro
    isplitl [HO HZ]
    · isplitl [HO]; · iapply (owesAt_elim A1 A2 F5 c _); iexact HO
      iexact HZ
    isplitl [H1]; · iexact H1
    isplitl [H2]; · iexact H2
    iexact H5

set_option backward.isDefEq.respectTransparency.types false in
/-- The tail call from inside the SparseCore program, with the result array at what the write-backs compute. -/
theorem tail_call_final (d : Dev nD) (REST : sProp 𝕄) :
    iprop(levAts (K (F := F)).L (K (F := F)).lev ∗ (K (F := F)).tcSt EH d 1 ∗ boundary (SparseCore.T d)
        ∗ (((SparseCore.T d).loc main_arg1) ↦{fullShare} A1 d) ∗ (((SparseCore.T d).loc main_arg2) ↦{fullShare} A2 d)
        ∗ (((SparseCore.T d).loc main_v5) ↦{fullShare} F5 d)
        ∗ Pipeline.cellsGhost (Pipeline.pin (pcfgs (F := F)) adm) EP 0 d ∗ Pipeline.toksInit (Pipeline.pin (pcfgs (F := F)) adm) EP 0 d ∗ REST)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailFinal A1 A2 F5 d) ∗ REST) := by
  have hphinj : Function.Injective (Pipeline.cellOf (nD := nD) (τ := τ) (Pipeline.pin (pcfgs (F := F)) adm)) := cellOf_inj
  have henter := SparseCore.ScRegion.enter (pcfgs (F := F)) adm (Pipeline.Dat.toRs (pdats A1 A2 F5)) hphinj EP defs₀ 𝒱₀ (K (F := F))
    ((tailSeg A1 A2 F5).toR) d
    (fun _ => iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailFinal A1 A2 F5 d) ∗ REST))
  refine BI.Entails.trans (Q := iprop((iprop(boundary (SparseCore.T d) ∗ (tailSeg A1 A2 F5).post d) -∗
          iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailFinal A1 A2 F5 d) ∗ REST))
        ∗ boundary (SparseCore.T d) ∗ (tailSeg A1 A2 F5).pre d ∗ levAts (K (F := F)).L (K (F := F)).lev
        ∗ Pipeline.cellsGhost (Pipeline.pin (pcfgs (F := F)) adm) EP 0 d ∗ Pipeline.toksInit (Pipeline.pin (pcfgs (F := F)) adm) EP 0 d)) ?_ henter
  show _ ⊢ iprop((iprop(boundary (SparseCore.T d) ∗ ((K (F := F)).tcSt EH d 1 ∗ (((d : Thread nD τ).loc main_arg1) ↦{fullShare} A1 d) ∗ (((d : Thread nD τ).loc main_arg2) ↦{fullShare} A2 d)
    ∗ (((d : Thread nD τ).loc main_v5) ↦{fullShare} tailFinal A1 A2 F5 d))) -∗ _) ∗ boundary (SparseCore.T d) ∗ ((K (F := F)).tcSt EH d 1 ∗ (((d : Thread nD τ).loc main_arg1) ↦{fullShare} A1 d) ∗ (((d : Thread nD τ).loc main_arg2) ↦{fullShare} A2 d)
    ∗ (((d : Thread nD τ).loc main_v5) ↦{fullShare} F5 d)) ∗ _)
  iintro ⟨HL, Hst, Hb, H1, H2, H5, Hg, Ht, HR⟩
  isplitl [HR]
  · iintro ⟨Hb, Hst, H1, H2, H5⟩
    isplitl [Hst]; · iexact Hst
    isplitl [Hb]; · iexact Hb
    isplitl [H1]; · iexact H1
    isplitl [H2]; · iexact H2
    isplitl [H5]; · iexact H5
    iexact HR
  isplitl [Hb]; · iexact Hb
  isplitl [Hst H1 H2 H5]
  · isplitl [Hst]; · iexact Hst
    isplitl [H1]; · iexact H1
    isplitl [H2]; · iexact H2
    iexact H5
  isplitl [HL]; · iexact HL
  isplitl [Hg]; · iexact Hg
  iexact Ht

end Region

end Cert.KernelIdeal.Hand

end
-- ==== Proof.HI.TailValue.lean ====
/-
  The result array after the tail region, in closed form.

  At point t the write-back writes the leading twenty columns of the stored block onto rows 4000 t + [0, 4000), columns
  256 + [0, 20) of the result array: the block's columns 0..15 are the radial block's and its columns 16..19 the angular
  block's, so what is written is the closed form's own block there. The eighty blocks are disjoint and cover the columns
  from 256 on; left of column 256 nothing is written. Hence after the last write-back the array holds its entry contents
  left of column 256, the radial row at columns 256..271 and the angular row at columns 272..275.
-/
import proofs.«210912_g7524782702854_cont_9to1c4b_744_40_alg».proof.Proof.HI.TailRegion
import Idealize.ShloMosaic.Lib.ValueIdx
import Idealize.ShloMosaic.Lib.Pipeline.Value

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

open Idealize.ShloMosaic.ValueIdx

/-- The result array after the region: the entry contents left of column 256, the radial and angular rows right of it. -/
def tailOut {α : Type} (f5 : (⟨2, ![320000, 276]⟩ : Shape).Idx → α) (a1 : (⟨2, ![320000, 16]⟩ : Shape).Idx → α)
    (a2 : (⟨2, ![320000, 4]⟩ : Shape).Idx → α) : (⟨2, ![320000, 276]⟩ : Shape).Idx → α := fun j =>
  if _h : (j 1).val < 256 then f5 j
  else if _h2 : (j 1).val < 272 then a1 (ix2 (j 0) ⟨(j 1).val - 256, by omega⟩)
  else a2 (ix2 (j 0) ⟨(j 1).val - 272, by have := (j 1).isLt; simp at this; omega⟩)

/-- Where the three windows' blocks lie at each point, and how the result's block is cut: rows `4000 u + [0, 4000)`;
    the radial and angular blocks from column 0, the result's from column 256, twenty columns wide. -/
theorem win_facts : ∀ u : Fin grid1.N,
    win1_0.index u 0 * 4000 = 4000 * u.val ∧ win1_0.index u 1 * 16 = 0
  ∧ win1_1.index u 0 * 4000 = 4000 * u.val ∧ win1_1.index u 1 * 4 = 0
  ∧ win1_2.index u 0 * 4000 = 4000 * u.val ∧ win1_2.index u 1 * 128 = 256
  ∧ win1_2.xsize (grid1.coords u) 0 = 4000 ∧ win1_2.xsize (grid1.coords u) 1 = 20 := by decide +kernel

section Value

variable (A1 : (c : Dev nD) → Buf (Elt F) ((c : Thread nD τ).loc main_arg1)) (A2 : (c : Dev nD) → Buf (Elt F) ((c : Thread nD τ).loc main_arg2))
  (F5 : (c : Dev nD) → Buf (Elt F) ((c : Thread nD τ).loc main_v5))

theorem flushed_eq (c : Dev nD) (t : Fin cfg1.N) :
    (dats A1 A2 F5 0 c).flushed (2 : Fin 3) t = (win1_2.blk t).view.read (Elt F) (tailOut (F5 c) (A1 c) (A2 c)) := by
  obtain ⟨h00, h01, h10, h11, h20, h21, hx0, hx1⟩ := win_facts t
  funext j
  have hj0 : (j 0).val < 4000 := Nat.lt_of_lt_of_eq (j 0).isLt hx0
  have hj1 : (j 1).val < 20 := Nat.lt_of_lt_of_eq (j 1).isLt hx1
  rw [View.read_apply]
  show k1_pay1 (radBlk A1 c t) (angBlk A2 c t) (win1_2.xinj (grid1.coords t) j) = tailOut (F5 c) (A1 c) (A2 c) ((win1_2.rect t).emb j)
  -- the array index the block's index lands on: row `4000 t + j 0`, column `256 + j 1`
  have he0 : ((win1_2.rect t).emb j 0).val = 4000 * t.val + (j 0).val := by
    show win1_2.index t 0 * 4000 + 1 * (j 0).val = _; omega
  have he1 : ((win1_2.rect t).emb j 1).val = 256 + (j 1).val := by
    show win1_2.index t 1 * 128 + 1 * (j 1).val = _; omega
  generalize (win1_2.rect t).emb j = e at he0 he1 ⊢
  unfold tailOut
  rw [dif_neg (by omega : ¬ (e 1).val < 256)]
  by_cases h16 : (j 1).val < 16
  · -- a radial column: the first piece of the stored block, read through the radial block
    rw [dif_pos (by omega : (e 1).val < 272)]
    refine (concatenate_apply_piece (t := S4000x128) (1 : Fin 2) [⟨S4000x16, radBlk A1 c t⟩, ⟨S4000x4, angBlk A2 c t⟩, ⟨S4000x108, broadcast S4000x108 (Scalar.ofBits .f32 0x00000000#32 : F .f32)⟩] concatenates_S4000x16_S4000x4_S4000x108_S4000x128_d1 (win1_2.xinj (grid1.coords t) j) 0 (by show (_ : Nat) < 3; omega) S4000x16
      (radBlk A1 c t) rfl rfl 0 rfl (ix2 (⟨(j 0).val, hj0⟩ : Fin 4000) (⟨(j 1).val, h16⟩ : Fin 16)) (fun b hb => ?_) ?_).trans ?_
    · match b with
      | ⟨0, _⟩ => rfl
      | ⟨1, _⟩ => exact absurd (Fin.ext rfl) hb
    · show 0 + (j 1).val = (j 1).val; omega
    · unfold radBlk; rw [View.read_apply]
      show A1 c ((win1_0.rect t).emb _) = _
      congr 1
      funext a
      match a with
      | ⟨0, _⟩ => exact Fin.ext (by show win1_0.index t 0 * 4000 + 1 * (j 0).val = (e 0).val; omega)
      | ⟨1, _⟩ => exact Fin.ext (by show win1_0.index t 1 * 16 + 1 * (j 1).val = (e 1).val - 256; omega)
  · -- an angular column: the second piece, sixteen columns in, read through the angular block
    rw [dif_neg (by omega : ¬ (e 1).val < 272)]
    have h4 : (j 1).val - 16 < 4 := by omega
    refine (concatenate_apply_piece (t := S4000x128) (1 : Fin 2) [⟨S4000x16, radBlk A1 c t⟩, ⟨S4000x4, angBlk A2 c t⟩, ⟨S4000x108, broadcast S4000x108 (Scalar.ofBits .f32 0x00000000#32 : F .f32)⟩] concatenates_S4000x16_S4000x4_S4000x108_S4000x128_d1 (win1_2.xinj (grid1.coords t) j) 1 (by show (_ : Nat) < 3; omega) S4000x4
      (angBlk A2 c t) rfl rfl 16 rfl (ix2 (⟨(j 0).val, hj0⟩ : Fin 4000) (⟨(j 1).val - 16, h4⟩ : Fin 4)) (fun b hb => ?_) ?_).trans ?_
    · match b with
      | ⟨0, _⟩ => rfl
      | ⟨1, _⟩ => exact absurd (Fin.ext rfl) hb
    · show 16 + ((j 1).val - 16) = (j 1).val; omega
    · unfold angBlk; rw [View.read_apply]
      show A2 c ((win1_1.rect t).emb _) = _
      congr 1
      funext a
      match a with
      | ⟨0, _⟩ => exact Fin.ext (by show win1_1.index t 0 * 4000 + 1 * (j 0).val = (e 0).val; omega)
      | ⟨1, _⟩ => exact Fin.ext (by show win1_1.index t 1 * 4 + 1 * ((j 1).val - 16) = (e 1).val - 272; omega)

/-- An index of the result array at or right of column 256 lies in the block of the point its row belongs to. -/
theorem mem_blk (u : Fin cfg1.N) (i : S320000x276.Idx) (h0 : 4000 * u.val ≤ (i 0).val) (h0' : (i 0).val < 4000 * u.val + 4000)
    (h1 : 256 ≤ (i 1).val) : i ∈ (win1_2.blk u).view.setOn Finset.univ := by
  obtain ⟨-, -, -, -, h20, h21, hx0, hx1⟩ := win_facts u
  rw [View.setOn_univ]
  show i ∈ ((View.whole main_v5).slice (win1_2.rect u)).set
  rw [View.set_slice_whole, Rect.mem_set_unit]
  have h276 : (i 1).val < 276 := (i 1).isLt
  intro a
  match a with
  | ⟨0, _⟩ =>
    show win1_2.index u 0 * 4000 ≤ (i 0).val ∧ (i 0).val < win1_2.index u 0 * 4000 + win1_2.xsize (grid1.coords u) 0
    omega
  | ⟨1, _⟩ =>
    show win1_2.index u 1 * 128 ≤ (i 1).val ∧ (i 1).val < win1_2.index u 1 * 128 + win1_2.xsize (grid1.coords u) 1
    omega

/-- After the write-backs of the points below `t` every entry of the result array is the closed form's or the entry
    contents', and right of column 256 the rows below `4000 t` are the closed form's. -/
theorem arrAt_inv (c : Dev nD) : ∀ t : Nat, t ≤ cfg1.N → ∀ i : S320000x276.Idx,
    ((dats A1 A2 F5 0 c).arrAt (2 : Fin 3) t i = tailOut (F5 c) (A1 c) (A2 c) i ∨ (dats A1 A2 F5 0 c).arrAt (2 : Fin 3) t i = F5 c i)
    ∧ ((i 0).val < 4000 * t → 256 ≤ (i 1).val → (dats A1 A2 F5 0 c).arrAt (2 : Fin 3) t i = tailOut (F5 c) (A1 c) (A2 c) i)
  | 0, _, i => ⟨Or.inr rfl, fun h => absurd h (by omega)⟩
  | t + 1, ht, i => by
    have ih := arrAt_inv c t (by omega) i
    have hlt : t < cfg1.N := by omega
    rw [(dats A1 A2 F5 0 c).arrAt_succ (2 : Fin 3) ⟨t, hlt⟩, if_pos (flush1_2 _), flushed_eq, View.write_read_eq_piecewise]
    unfold Finset.piecewise
    split
    · exact ⟨Or.inl rfl, fun _ _ => rfl⟩
    · rename_i hmem
      refine ⟨ih.1, fun h0 h1 => ?_⟩
      by_cases hlo : (i 0).val < 4000 * t
      · exact ih.2 hlo h1
      · exact absurd (mem_blk ⟨t, hlt⟩ i (by show 4000 * t ≤ _; omega) (by show _ < 4000 * t + 4000; omega) h1) hmem

/-- The result array after the region is the entry contents left of column 256 and the radial and angular rows right of
    it. -/
theorem tailFinal_eq (c : Dev nD) : tailFinal A1 A2 F5 c = tailOut (F5 c) (A1 c) (A2 c) := by
  funext i
  have h := arrAt_inv A1 A2 F5 c cfg1.N (le_refl _) i
  by_cases h1 : 256 ≤ (i 1).val
  · have h320 : (i 0).val < 320000 := (i 0).isLt
    have hN : cfg1.N = 80 := N_1
    exact h.2 (by rw [hN]; omega) h1
  · rcases h.1 with h' | h'
    · exact h'
    · refine h'.trans ?_
      unfold tailOut; rw [dif_pos (by omega)]

end Value

end Cert.KernelIdeal.Hand

end
-- ==== Proof.HI.TailFund.lean ====
/-
  Funding the tail pipeline's staging cells in the launch element.

  The pipeline factor of the launch element is the rounds element taken at the pipeline's staging cells on every
  device and at one duty token per transfer the pipeline issues. Owning it gives every device the launch ghost state of
  its cells (no schedule chosen, the owner at round 0, round 0 reached) and its duty tokens: what the region is entered
  with.
-/
import proofs.«210912_g7524782702854_cont_9to1c4b_744_40_alg».proof.Proof.HI.TailData

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

/-- The staging cells of the tail pipeline on every device, and the duty tokens of its transfers: what the launch
    element's pipeline factor is taken at. -/
def tailCells : Finset (GSem nD τ sig) := Pipeline.cells (nD := nD) (τ := τ) cfgs cellOf_inj
def tailToks : Finset (GSem nD τ sig × ℕ × Unit) := Pipeline.launchToks (nD := nD) (τ := τ) cfgs cellOf_inj

/-- Funding: the rounds element at the staging cells and the transfers' tokens gives every device its cells' ghost state
    and its duty tokens. -/
theorem tail_fund :
    (BI.own (EP (F := F) (initOf tailCells tailToks)) : sProp 𝕄)
      ⊢ iprop(|==> bigSep Finset.univ fun d : Dev nD =>
          iprop(Pipeline.cellsGhost (Pipeline.pin (pcfgs (F := F)) adm) EP 0 d ∗ Pipeline.toksInit (Pipeline.pin (pcfgs (F := F)) adm) EP 0 d)) := by
  have h1 : ∀ (Φ : Fin 1 → sProp 𝕄), bigSep Finset.univ Φ = Φ 0 := fun Φ =>
    bigSep_univ_eq_bigSepL [(0 : Fin 1)] (by decide) (by decide) Φ
  have key : iprop((bigSep Finset.univ fun c : Dev nD => bigSep Finset.univ fun p : Fin 1 => Pipeline.cellsGhost (cfgs) (EP (F := F)) p c)
        ∗ (bigSep Finset.univ fun c : Dev nD => bigSep Finset.univ fun p : Fin 1 => (Pipeline.toksInit (cfgs) (EP (F := F)) p c : sProp 𝕄)))
      ⊢ bigSep Finset.univ fun d : Dev nD =>
          iprop(Pipeline.cellsGhost (Pipeline.pin (pcfgs (F := F)) adm) EP 0 d ∗ Pipeline.toksInit (Pipeline.pin (pcfgs (F := F)) adm) EP 0 d) := by
    rw [bigSep_sep']; simp only [h1]; exact .rfl
  unfold tailCells tailToks
  iintro Hu
  imod (Pipeline.fund_ghost (cfgs) (EP (F := F)) cellOf_inj) $$ Hu with H
  imodintro
  iapply key; iexact H

end Cert.KernelIdeal.Hand

end
-- ==== Proof.HI.Tail.lean ====
/-
  The tail call, entered from inside the SparseCore program: the statement the TensorCore's proof uses at the
  program's last line.

  From the level facts, the TensorCore's handshake state after the one SparseCore call, its region boundary, the
  radial, angular and result arrays held whole, and the ghost state and duty tokens of the pipeline's staging cells, the
  wrapped call of the pipeline's entry runs to the same handshake state and boundary, the two inputs unchanged, and the
  result array holding its entry contents left of column 256, the radial row at columns 256..271 and the angular row at
  columns 272..275. The region needs nothing else of what the TensorCore holds; whatever else the caller holds is a
  frame.
-/
import proofs.«210912_g7524782702854_cont_9to1c4b_744_40_alg».proof.Proof.HI.TailRegion
import proofs.«210912_g7524782702854_cont_9to1c4b_744_40_alg».proof.Proof.HI.TailValue
import proofs.«210912_g7524782702854_cont_9to1c4b_744_40_alg».proof.Proof.HI.TailFund
import proofs.«210912_g7524782702854_cont_9to1c4b_744_40_alg».proof.Proof.Spec

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig (HIx 1) (Elt F) ℕ UU ℕ

open Idealize.ShloMosaic.ValueIdx

section Call

/-- The tail call from inside the SparseCore program, with the contents given device by device. -/
theorem tail_call_fam (A1 : (c : Dev nD) → Buf (Elt F) ((c : Thread nD τ).loc main_arg1)) (A2 : (c : Dev nD) → Buf (Elt F) ((c : Thread nD τ).loc main_arg2))
    (F5 : (c : Dev nD) → Buf (Elt F) ((c : Thread nD τ).loc main_v5)) (d : Dev nD) (REST : sProp 𝕄) :
    iprop(levAts (K (F := F)).L (K (F := F)).lev ∗ (K (F := F)).tcSt EH d 1 ∗ boundary (SparseCore.T d)
        ∗ (((SparseCore.T d).loc main_arg1) ↦{fullShare} A1 d) ∗ (((SparseCore.T d).loc main_arg2) ↦{fullShare} A2 d)
        ∗ (((SparseCore.T d).loc main_v5) ↦{fullShare} F5 d)
        ∗ Pipeline.cellsGhost (Pipeline.pin (pcfgs (F := F)) adm) EP 0 d ∗ Pipeline.toksInit (Pipeline.pin (pcfgs (F := F)) adm) EP 0 d ∗ REST)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ boundary (SparseCore.T d)
            ∗ (((SparseCore.T d).loc main_arg1) ↦{fullShare} A1 d) ∗ (((SparseCore.T d).loc main_arg2) ↦{fullShare} A2 d)
            ∗ (((SparseCore.T d).loc main_v5) ↦{fullShare} tailOut (F5 d) (A1 d) (A2 d)) ∗ REST) := by
  have h := tail_call_final A1 A2 F5 d REST
  rw [tailFinal_eq] at h
  exact h

/-- The tail call on device `d`'s TensorCore, entered from inside the SparseCore program after the one SparseCore call:
    from the level facts, the TensorCore's handshake state, its region boundary, the radial, angular and result arrays
    whole, and the ghost state and duty tokens of the pipeline's staging cells, the call runs to the handshake state and
    the boundary as they were, the two inputs unchanged and the result array at the closed form. `REST` is any frame. -/
theorem tail_call (d : Dev nD) (a1 : Buf (Elt F) ((SparseCore.T d).loc main_arg1)) (a2 : Buf (Elt F) ((SparseCore.T d).loc main_arg2))
    (f5 : Buf (Elt F) ((SparseCore.T d).loc main_v5)) (REST : sProp 𝕄) :
    iprop(levAts (K (F := F)).L (K (F := F)).lev ∗ (K (F := F)).tcSt EH d 1 ∗ boundary (SparseCore.T d)
        ∗ (((SparseCore.T d).loc main_arg1) ↦{fullShare} a1) ∗ (((SparseCore.T d).loc main_arg2) ↦{fullShare} a2)
        ∗ (((SparseCore.T d).loc main_v5) ↦{fullShare} f5)
        ∗ Pipeline.cellsGhost (Pipeline.pin (pcfgs (F := F)) adm) EP 0 d ∗ Pipeline.toksInit (Pipeline.pin (pcfgs (F := F)) adm) EP 0 d ∗ REST)
      ⊢ wp frame (wpE ((K (F := F)).defs (D (F := F))) 𝒱 (SparseCore.T d) none) Set.univ
          (Prog.lift (.customCall (SparseCore.inner (Pipeline.entry 0)) ()))
          fun _ => iprop((K (F := F)).tcSt EH d 1 ∗ boundary (SparseCore.T d)
            ∗ (((SparseCore.T d).loc main_arg1) ↦{fullShare} a1) ∗ (((SparseCore.T d).loc main_arg2) ↦{fullShare} a2)
            ∗ (((SparseCore.T d).loc main_v5) ↦{fullShare} tailOut f5 a1 a2) ∗ REST) :=
  tail_call_fam (fun _ => a1) (fun _ => a2) (fun _ => f5) d REST

end Call

/-- The closed form is the specification function, once the entry contents are the specification's left 256 columns. -/
theorem tailOut_eq_G {α : Type} (tbl : (⟨2, ![10000, 128]⟩ : Shape).Idx → α) (rad : (⟨2, ![320000, 16]⟩ : Shape).Idx → α)
    (ang : (⟨2, ![320000, 4]⟩ : Shape).Idx → α) (idx : (⟨2, ![2, 320000]⟩ : Shape).Idx → BitVec 32)
    (f5 : (⟨2, ![320000, 276]⟩ : Shape).Idx → α)
    (h : ∀ j : (⟨2, ![320000, 276]⟩ : Shape).Idx, (j 1).val < 256 → f5 j = Cert.Hand.Spec.G tbl rad ang idx j) :
    tailOut f5 rad ang = Cert.Hand.Spec.G tbl rad ang idx := by
  funext j
  by_cases h1 : (j 1).val < 256
  · unfold tailOut; rw [dif_pos h1]; exact h j h1
  · unfold tailOut Cert.Hand.Spec.G
    rw [dif_neg h1, dif_neg (by omega : ¬ (j 1).val < 128), dif_neg h1]

end Cert.KernelIdeal.Hand

end
-- ==== Proof.HI.Main.lean ====
/-
  @main on the TensorCore. Four host operations slice the two rows of the index array out and flatten them; the
  SparseCore call gathers the table rows into the left 256 columns of an array of the result's shape; a host operation
  copies that array into the result's buffer; the tail pipeline writes the radial and angular columns into it. The
  proof follows the program: the unscoped buffers are held whole through the host operations; for the call the node
  table is cut into thirty-two read shares, each index array into the tasks' slabs and the gathered array into the
  tasks' chunks, and what comes back is joined into one array that left of column 256 is the specification's left
  part; after the copy and the pipeline the result's buffer holds, left of column 256, that array and right of it the
  feature rows, which is the specification (`final_eq`). The four arguments are held at their launch contents at the
  end: the claim reads them and the result off the final memory.
-/
import proofs.«210912_g7524782702854_cont_9to1c4b_744_40_alg».proof.Proof.HI.Host
import proofs.«210912_g7524782702854_cont_9to1c4b_744_40_alg».proof.Proof.HI.Split
import proofs.«210912_g7524782702854_cont_9to1c4b_744_40_alg».proof.Proof.HI.Tail

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ) (ρ : Dev nD → PrngReg)

/-! ## The TensorCore's unscoped buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev SU : Finset (DevRef τ sig) := {a0', a1', a2', a3', v0', v1', v2', v3', v4', v5'}

omit m in
theorem held_SU (d : Dev nD) (W : Valuation τ sig (Elt F)) :
    (held (SparseCore.T d) SU W : sProp 𝕄) = iprop((tblLoc d ↦{fullShare} W a0') ∗ (radLoc d ↦{fullShare} W a1') ∗ (angLoc d ↦{fullShare} W a2')
      ∗ (idxLoc d ↦{fullShare} W a3') ∗ ((SparseCore.T d : Thread nD τ).loc main_v0 ↦{fullShare} W v0') ∗ (srcLoc d ↦{fullShare} W v1')
      ∗ ((SparseCore.T d : Thread nD τ).loc main_v2 ↦{fullShare} W v2') ∗ (dstLoc d ↦{fullShare} W v3') ∗ (outLoc d ↦{fullShare} W v4') ∗ (resLoc d ↦{fullShare} W v5')) := by
  unfold held SU
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit m in
theorem unscopedBufs_eq (d : Dev nD) (W : (b : Ref sig .tc) → Buf (Elt F) ((d.tc : Thread nD τ).loc b)) :
    (unscopedBufs d W : sProp 𝕄) = iprop((tblLoc d ↦{fullShare} W main_arg0) ∗ (radLoc d ↦{fullShare} W main_arg1) ∗ (angLoc d ↦{fullShare} W main_arg2)
      ∗ (idxLoc d ↦{fullShare} W main_arg3) ∗ ((SparseCore.T d : Thread nD τ).loc main_v0 ↦{fullShare} W main_v0) ∗ (srcLoc d ↦{fullShare} W main_v1)
      ∗ ((SparseCore.T d : Thread nD τ).loc main_v2 ↦{fullShare} W main_v2) ∗ (dstLoc d ↦{fullShare} W main_v3) ∗ (outLoc d ↦{fullShare} W main_v4) ∗ (resLoc d ↦{fullShare} W main_v5)) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d : Thread nD τ).loc b)) : sProp 𝕄) = held (SparseCore.T d) SU (V0 m d) := by
  rw [unscopedBufs_eq, held_SU]; rfl

theorem hop0 : (op0 (F := F)).bufs ⊆ SU := show ({a3', v0'} : Finset (DevRef τ sig)) ⊆ SU by decide
theorem hop1 : (op1 (F := F)).bufs ⊆ SU := show ({v0', v1'} : Finset (DevRef τ sig)) ⊆ SU by decide
theorem hop2 : (op2 (F := F)).bufs ⊆ SU := show ({a3', v2'} : Finset (DevRef τ sig)) ⊆ SU by decide
theorem hop3 : (op3 (F := F)).bufs ⊆ SU := show ({v2', v3'} : Finset (DevRef τ sig)) ⊆ SU by decide
theorem hop5 : (op5 (F := F)).bufs ⊆ SU := show ({v4', v5'} : Finset (DevRef τ sig)) ⊆ SU by decide

variable [FloatOps F]

/-- One host operation at the head of @main, over the unscoped buffers held whole. -/
theorem hlo_step (d : Dev nD) (SS : Finset (DevRef τ sig)) (op : HloOp τ sig (Elt F)) (hS : op.bufs ⊆ SS) (hf : op.fresh = ∅) (V : Valuation τ sig (Elt F)) (Φ : PUnit → sProp 𝕄) :
    iprop(boundary (SparseCore.T d : Thread nD τ) ∗ (held (SparseCore.T d) SS V : sProp 𝕄)
        ∗ ((boundary (SparseCore.T d : Thread nD τ) ∗ (held (SparseCore.T d) SS (op.result V) : sProp 𝕄)) -∗ Φ ⟨⟩))
      ⊢ wp frame (wpE ((K (F := F)).defs (D (F := F))) 𝒱 (SparseCore.T d) none) Set.univ (hlo rfl op (fun _ => .ret ⟨⟩)) Φ := by
  iintro ⟨Hb, Hheld, Hk⟩
  iapply (wp_hlo_within 𝒱 (SparseCore.T d) none Set.univ (op := op) (S := SS) hS (V := V) hf) $$ [Hb Hheld]
  · isplitl [Hb]; · iexact Hb
    iexact Hheld
  iintro ⟨Hb, Hheld⟩
  rw [wp_ret]; imodintro
  iapply Hk
  isplitl [Hb]; · iexact Hb
  iexact Hheld

/-- The four host operations before the call: from the launch contents to `Vh`. -/
theorem host_before (d : Dev nD) (Q : PUnit → sProp 𝕄)
    (k : Prog (TpuEff nD τ sig (Elt F) (SparseCore.Sig (Pipeline.Sig Λ₀ (Fin 1) fun p => (pcfgs (F := F) p).Adm) 1) .tc) PUnit) :
    iprop(boundary (SparseCore.T d : Thread nD τ) ∗ (held (SparseCore.T d) SU (V0 m d) : sProp 𝕄)
        ∗ ((boundary (SparseCore.T d : Thread nD τ) ∗ (held (SparseCore.T d) SU (Vh m d) : sProp 𝕄))
            -∗ wp frame (wpE ((K (F := F)).defs (D (F := F))) 𝒱 (SparseCore.T d) none) Set.univ k Q))
      ⊢ wp frame (wpE ((K (F := F)).defs (D (F := F))) 𝒱 (SparseCore.T d) none) Set.univ
          (do
            hlo rfl (op0 (F := F)) (fun _ => .ret ⟨⟩)
            hlo rfl (op1 (F := F)) (fun _ => .ret ⟨⟩)
            hlo rfl (op2 (F := F)) (fun _ => .ret ⟨⟩)
            hlo rfl (op3 (F := F)) (fun _ => .ret ⟨⟩)
            k) Q := by
  simp only [wp_bind]
  iintro ⟨Hb, Hheld, Hk⟩
  iapply (hlo_step d SU op0 hop0 rfl (V0 m d) _) $$ [Hb Hheld Hk]
  isplitl [Hb]; · iexact Hb
  isplitl [Hheld]; · iexact Hheld
  iintro ⟨Hb, Hheld⟩
  iapply (hlo_step d SU op1 hop1 rfl _ _) $$ [Hb Hheld Hk]
  isplitl [Hb]; · iexact Hb
  isplitl [Hheld]; · iexact Hheld
  iintro ⟨Hb, Hheld⟩
  iapply (hlo_step d SU op2 hop2 rfl _ _) $$ [Hb Hheld Hk]
  isplitl [Hb]; · iexact Hb
  isplitl [Hheld]; · iexact Hheld
  iintro ⟨Hb, Hheld⟩
  iapply (hlo_step d SU op3 hop3 rfl _ _) $$ [Hb Hheld Hk]
  isplitl [Hb]; · iexact Hb
  isplitl [Hheld]; · iexact Hheld
  iintro ⟨Hb, Hheld⟩
  iapply Hk
  isplitl [Hb]; · iexact Hb
  iexact Hheld

/-! ## The copy into the result's buffer -/

abbrev S5 : Finset (DevRef τ sig) := {v4', v5'}

omit m [FloatOps F] in
theorem held_S5 (d : Dev nD) (W : Valuation τ sig (Elt F)) :
    (held (SparseCore.T d) S5 W : sProp 𝕄) = iprop((outLoc d ↦{fullShare} W v4') ∗ (resLoc d ↦{fullShare} W v5')) := by
  unfold held S5
  rw [SparseCore.bigSep_insert' (by decide), bigSep_singleton]

omit m [FloatOps F] in
theorem hop5' : (op5 (F := F)).bufs ⊆ S5 := show ({v4', v5'} : Finset (DevRef τ sig)) ⊆ S5 by decide

/-- The buffer contents with the gathered array at `g`. -/
def V5 (d : Dev nD) (g : Buf (Elt F) (outLoc d)) : Valuation τ sig (Elt F) := Function.update (V0 m d) v4' g

theorem V5_v4 (d : Dev nD) (g : Buf (Elt F) (outLoc d)) : V5 m d g v4' = g := Function.update_self _ _ _
theorem V5_v5 (d : Dev nD) (g : Buf (Elt F) (outLoc d)) : V5 m d g v5' = m (resLoc d) := Function.update_of_ne (show v5' ≠ v4' by decide) _ _

theorem op5_v5 (W : Valuation τ sig (Elt F)) : (op5 (F := F)).result W v5' = W v4' := StableHlo.unary_result _ _ _ _ _ W
theorem op5_v4 (W : Valuation τ sig (Elt F)) : (op5 (F := F)).result W v4' = W v4' :=
  StableHlo.unary_result_ne _ _ _ _ _ W (show (main_v4 : Ref sig .tc) ≠ main_v5 by decide)

/-- The copy: afterwards both buffers hold the gathered array. -/
theorem copy_step (d : Dev nD) (g : Buf (Elt F) (outLoc d)) (Φ : PUnit → sProp 𝕄) :
    iprop(boundary (SparseCore.T d : Thread nD τ) ∗ (outLoc d ↦{fullShare} g) ∗ (resLoc d ↦{fullShare} m (resLoc d))
        ∗ ((boundary (SparseCore.T d : Thread nD τ) ∗ (outLoc d ↦{fullShare} g) ∗ (resLoc d ↦{fullShare} (g : Buf (Elt F) (resLoc d)))) -∗ Φ ⟨⟩))
      ⊢ wp frame (wpE ((K (F := F)).defs (D (F := F))) 𝒱 (SparseCore.T d) none) Set.univ (hlo rfl (op5 (F := F)) (fun _ => .ret ⟨⟩)) Φ := by
  iintro ⟨Hb, Ho, Hres, Hk⟩
  iapply (hlo_step d S5 op5 hop5' rfl (V5 m d g) Φ) $$ [Hb Ho Hres Hk]
  isplitl [Hb]; · iexact Hb
  isplitl [Ho Hres]
  · rw [held_S5, V5_v4, V5_v5]
    isplitl [Ho]; · iexact Ho
    iexact Hres
  iintro ⟨Hb, Hh⟩
  ihave Hh' := (Entails.of_eq (held_S5 (F := F) d _)) $$ Hh
  rw [op5_v5, op5_v4, V5_v4]
  icases Hh' with ⟨Ho, Hres⟩
  iapply Hk
  isplitl [Hb]; · iexact Hb
  isplitl [Ho]; · iexact Ho
  iexact Hres

/-! ## The value of the final array -/

/-- Left of column 256 the gathered rows, right of it the feature rows: the specification. -/
theorem final_eq (d : Dev nD) (g : Buf (Elt F) (resLoc d))
    (hg : ∀ (e : Fin 320000) (b : Fin 256), g (ix2 e ⟨b.val, by omega⟩) = Cert.Hand.Spec.Gleft (m (tblLoc d)) (srcW m d) (dstW m d) e b) :
    tailOut g (m (radLoc d)) (m (angLoc d)) = Cert.Hand.Spec.G (m (tblLoc d)) (m (radLoc d)) (m (angLoc d)) (m (idxLoc d)) := by
  funext j
  by_cases h : (j 1).val < 256
  · have e1 : tailOut g (m (radLoc d)) (m (angLoc d)) j = g j := dif_pos h
    have e2 := hg (j 0) ⟨(j 1).val, h⟩
    have e3 : g (ix2 (j 0) ⟨(j 1).val, by have : (j 1).val < 276 := (j 1).isLt; omega⟩) = g j :=
      congrArg g (Idealize.ShloMosaic.ValueIdx.eq_ix2 j).symm
    rw [e1, ← e3, e2]
    unfold Cert.Hand.Spec.Gleft Cert.Hand.Spec.G
    by_cases h1 : (j 1).val < 128
    · rw [dif_pos h1, dif_pos h1, show srcW m d (ix1 (j 0)) = m (idxLoc d) (ix2 (0 : Fin 2) (j 0)) from srcW_apply m d (j 0)]
    · have h2 : (j 1).val < 256 := h
      rw [dif_neg h1, dif_neg h1, dif_pos h2, show dstW m d (ix1 (j 0)) = m (idxLoc d) (ix2 (1 : Fin 2) (j 0)) from dstW_apply m d (j 0)]
  · have e1 : tailOut g (m (radLoc d)) (m (angLoc d)) j
        = if h2 : (j 1).val < 272 then m (radLoc d) (ix2 (j 0) ⟨(j 1).val - 256, by omega⟩)
          else m (angLoc d) (ix2 (j 0) ⟨(j 1).val - 272, by have : (j 1).val < 276 := (j 1).isLt; omega⟩) := dif_neg h
    rw [e1]
    unfold Cert.Hand.Spec.G
    have h1 : ¬ (j 1).val < 128 := by omega
    rw [dif_neg h1, dif_neg h]

/-! ## @main -/

/-- The tail pipeline's cells' ghost state on device `d`. -/
def tailGhost (d : Dev nD) : sProp 𝕄 :=
  iprop(Pipeline.cellsGhost (Pipeline.pin (pcfgs (F := F)) adm) EP 0 d ∗ Pipeline.toksInit (Pipeline.pin (pcfgs (F := F)) adm) EP 0 d)

/-- @main after its first four host operations: the SparseCore call, the copy into the result's buffer, the tail
    pipeline. -/
def mainRest (d : Dev nD) : Prog (TpuEff nD τ sig (Elt F) (SparseCore.Sig (Pipeline.Sig Λ₀ (Fin 1) fun p => (pcfgs (F := F) p).Adm) 1) .tc) PUnit := do
  (sc (F := F)).run d 0
  hlo rfl (op5 (F := F)) (fun _ => .ret ⟨⟩)
  Prog.lift (.customCall (SparseCore.inner (Pipeline.entry 0)) ())
  pure ⟨⟩

omit m in
theorem main_eq (d : Dev nD) : main (F := F) d = (do
    hlo rfl (op0 (F := F)) (fun _ => .ret ⟨⟩)
    hlo rfl (op1 (F := F)) (fun _ => .ret ⟨⟩)
    hlo rfl (op2 (F := F)) (fun _ => .ret ⟨⟩)
    hlo rfl (op3 (F := F)) (fun _ => .ret ⟨⟩)
    mainRest d) := rfl

/-- What @main leaves the claim: the four arguments at their launch contents and the result at the specification. -/
def FIN (d : Dev nD) : sProp 𝕄 :=
  iprop((tblLoc d ↦{fullShare} m (tblLoc d)) ∗ (radLoc d ↦{fullShare} m (radLoc d)) ∗ (angLoc d ↦{fullShare} m (angLoc d)) ∗ (idxLoc d ↦{fullShare} m (idxLoc d))
    ∗ (resLoc d ↦{fullShare} Cert.Hand.Spec.G (m (tblLoc d)) (m (radLoc d)) (m (angLoc d)) (m (idxLoc d))))

/-- What the tail pipeline leaves, with the other two arguments, is what @main owes the claim. -/
theorem tail_post (d : Dev nD) (g : Buf (Elt F) (resLoc d))
    (hg : ∀ (e : Fin 320000) (b : Fin 256), g (ix2 e ⟨b.val, by omega⟩) = Cert.Hand.Spec.Gleft (m (tblLoc d)) (srcW m d) (dstW m d) e b) :
    iprop((K (F := F)).tcSt EH d 1 ∗ boundary (SparseCore.T d : Thread nD τ) ∗ (radLoc d ↦{fullShare} m (radLoc d)) ∗ (angLoc d ↦{fullShare} m (angLoc d))
        ∗ (resLoc d ↦{fullShare} tailOut g (m (radLoc d)) (m (angLoc d))) ∗ (tblLoc d ↦{fullShare} m (tblLoc d)) ∗ (idxLoc d ↦{fullShare} m (idxLoc d)) : sProp 𝕄)
      ⊢ |={Set.univ}=> iprop((K (F := F)).tcSt EH d 1 ∗ FIN m d) := by
  rw [final_eq m d g hg]
  unfold FIN
  iintro ⟨Hst, -, Hr, Ha, Hres, Ht, Hi⟩
  imodintro
  isplitl [Hst]; · iexact Hst
  isplitl [Ht]; · iexact Ht
  isplitl [Hr]; · iexact Hr
  isplitl [Ha]; · iexact Ha
  isplitl [Hi]; · iexact Hi
  iexact Hres

variable {m} (hpre : PreOK m)

theorem hmain [∀ e, Nonempty (Elt F e)] (κ : GSem nD τ sig → ℕ) (d : Dev nD) :
    iprop((K (F := F)).ctx EH (P (callData hpre)) κ ∗ (K (F := F)).tcSt EH d 0 ∗ (K (F := F)).tcRes m ρ d ∗ tailGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, HG⟩
  iapply (host_before m d _ _) $$ [Hb Hheld Hst HG]
  isplitl [Hb]; · iexact Hb
  isplitl [Hheld]; · iexact Hheld
  iintro ⟨Hb, Hheld⟩
  ihave Hh := (Entails.of_eq (held_SU (F := F) d _)) $$ Hheld
  rw [Vh_arg0, Vh_arg1, Vh_arg2, Vh_arg3, Vh_v4, Vh_v5]
  icases Hh with ⟨Ht, Hr, Ha, Hi, -, Hs, -, Hd, Ho, Hres⟩
  -- the arrays cut among the thirty-two tasks
  ihave Hsp := (call_split (callData hpre) d) $$ [Ht Hs Hd Ho]
  · isplitl [Ht]; · iexact Ht
    isplitl [Hs]; · iexact Hs
    isplitl [Hd]; · iexact Hd
    iexact Ho
  icases Hsp with ⟨Hstres, Htr, Hor⟩
  unfold mainRest
  simp only [wp_bind, wp_pure]
  -- the call
  iapply ((K (F := F)).wp_run (D (F := F)) 𝒱 (EH := EH) (P := P (callData hpre)) κ d 0) $$ [Hst Hstres Hb Hr Ha Hi Hres Htr Hor HG]
  isplitr; · iexact Hctx
  isplitl [Hst]; · iexact Hst
  isplitl [Hstres]; · iexact Hstres
  iintro ⟨Hst, Hdn⟩
  -- the tasks' pieces joined
  ihave Hj := (call_join (callData hpre) d) $$ [Hdn Htr Hor]
  · isplitl [Hdn]; · iexact Hdn
    isplitl [Htr]; · iexact Htr
    iexact Hor
  icases Hj with ⟨Ht, %g, %hg, Ho⟩
  -- the copy into the result's buffer
  iapply (copy_step m d g _) $$ [Hb Ho Hres Hst Hr Ha Hi Ht HG]
  isplitl [Hb]; · iexact Hb
  isplitl [Ho]; · iexact Ho
  isplitl [Hres]; · iexact Hres
  iintro ⟨Hb, Ho, Hres⟩
  -- the tail pipeline
  ihave Hlv := ((K (F := F)).ctx_levAts κ) $$ Hctx
  unfold tailGhost
  icases HG with ⟨Hcg, Htk⟩
  iapply ((tail_call d (m (radLoc d)) (m (angLoc d)) g iprop((tblLoc d ↦{fullShare} m (tblLoc d)) ∗ (idxLoc d ↦{fullShare} m (idxLoc d)))).trans
    (wp_mono frame _ _ fun _ => tail_post m d g hg)) $$ [Hlv Hst Hb Hr Ha Hres Hcg Htk Ht Hi]
  isplitl [Hlv]; · iexact Hlv
  isplitl [Hst]; · iexact Hst
  isplitl [Hb]; · iexact Hb
  isplitl [Hr]; · iexact Hr
  isplitl [Ha]; · iexact Ha
  isplitl [Hres]; · iexact Hres
  isplitl [Hcg]; · iexact Hcg
  isplitl [Htk]; · iexact Htk
  isplitl [Ht]; · iexact Ht
  iexact Hi

end Cert.KernelIdeal.Hand

end
-- ==== Proof.HI.Run.lean ====
/-
  The launch element of the ghost state, how the final memory reads the claim, and the program's run: every weakly
  fair execution of the device's threads terminates, nothing faulting, with the four argument arrays unchanged and the
  result array at the specification.
-/
import proofs.«210912_g7524782702854_cont_9to1c4b_744_40_alg».proof.Proof.HI.Main

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {m : (ℓ : Loc nD τ sig) → Buf (Elt F) ℓ} (ρ : Dev nD → PrngReg)

/-! ## The launch element: the handshakes' rounds, the tail pipeline's cells' rounds, no transfer counted -/

def u₀ : UU := (initOf (K (F := F)).hsCells (K (F := F)).hsToks, (initOf tailCells tailToks, 1))

omit [FloatOps F] in
theorem ownU_split3 (a : UH) (b : UP) : (ownU (a, (b, (1 : Counters))) : sProp 𝕄) ⊢ iprop(BI.own (EH a) ∗ BI.own (EP (F := F) b)) :=
  ownU_pair a (b, (1 : Counters))

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun d : Dev nD => tailGhost (F := F) d)
        ∗ bigSep Finset.univ fun thr : Thread nD τ => bigSep Finset.univ fun q : Fin 1 => (P (callData hpre)).x q thr) := by
  unfold u₀
  iintro Hu
  ihave H := (ownU_split3 _ _) $$ Hu
  icases H with ⟨HH, HP⟩
  imod (tail_fund (F := F)) $$ HP with Hg
  imodintro
  isplitl [HH]; · iexact HH
  isplitl [Hg]; · unfold tailGhost; iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

variable (m)

def fq (d : Dev nD) (s' : Phys nD τ sig (Elt F)) : Prop :=
  s'.mem.mem (resLoc d) = Cert.Hand.Spec.G (m (tblLoc d)) (m (radLoc d)) (m (angLoc d)) (m (idxLoc d))
    ∧ s'.mem.mem (tblLoc d) = m (tblLoc d) ∧ s'.mem.mem (radLoc d) = m (radLoc d) ∧ s'.mem.mem (angLoc d) = m (angLoc d) ∧ s'.mem.mem (idxLoc d) = m (idxLoc d)

theorem hfin (d : Dev nD) (s' : Phys nD τ sig (Elt F)) : iprop(FIN m d ∗ SI s') ⊢ (⌜fq m d s'⌝ : sProp 𝕄) := by
  unfold FIN
  iintro ⟨⟨Ht, Hr, Ha, Hi, Hres⟩, HSI⟩
  ihave H := (persistent_entails_right (SI_pointsTo_agree (st := s') (ℓ := tblLoc d) (I := Finset.univ) (q := fullShare) (f := m (tblLoc d)))) $$ [HSI Ht]
  · isplitl [HSI] <;> iassumption
  icases H with ⟨%h1, HSI, -⟩
  ihave H := (persistent_entails_right (SI_pointsTo_agree (st := s') (ℓ := radLoc d) (I := Finset.univ) (q := fullShare) (f := m (radLoc d)))) $$ [HSI Hr]
  · isplitl [HSI] <;> iassumption
  icases H with ⟨%h2, HSI, -⟩
  ihave H := (persistent_entails_right (SI_pointsTo_agree (st := s') (ℓ := angLoc d) (I := Finset.univ) (q := fullShare) (f := m (angLoc d)))) $$ [HSI Ha]
  · isplitl [HSI] <;> iassumption
  icases H with ⟨%h3, HSI, -⟩
  ihave H := (persistent_entails_right (SI_pointsTo_agree (st := s') (ℓ := idxLoc d) (I := Finset.univ) (q := fullShare) (f := m (idxLoc d)))) $$ [HSI Hi]
  · isplitl [HSI] <;> iassumption
  icases H with ⟨%h4, HSI, -⟩
  ihave H := (SI_pointsTo_agree (st := s') (ℓ := resLoc d) (I := Finset.univ) (q := fullShare)
    (f := Cert.Hand.Spec.G (m (tblLoc d)) (m (radLoc d)) (m (angLoc d)) (m (idxLoc d)))) $$ [HSI Hres]
  · isplitl [HSI] <;> iassumption
  icases H with %h5
  ipureintro
  exact ⟨funext fun i => h5 i (Finset.mem_univ i), funext fun i => h1 i (Finset.mem_univ i), funext fun i => h2 i (Finset.mem_univ i),
    funext fun i => h3 i (Finset.mem_univ i), funext fun i => h4 i (Finset.mem_univ i)⟩

/-! ## The run -/

def QC : PUnit × MemSt nD τ sig (Elt F) → Prop := fun r => ∀ c : Dev nD,
  r.2.mem (resLoc c) = Cert.Hand.Spec.G (m (tblLoc c)) (m (radLoc c)) (m (angLoc c)) (m (idxLoc c))
    ∧ r.2.mem (tblLoc c) = m (tblLoc c) ∧ r.2.mem (radLoc c) = m (radLoc c) ∧ r.2.mem (angLoc c) = m (angLoc c) ∧ r.2.mem (idxLoc c) = m (idxLoc c)

variable {m}

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (callData hpre)) facts v₀
    (fun q hq => match q with | 0 => nomatch hq)
    (fun q _ => match q with | 0 => tileObl (callData hpre))
    (fun q _ => match q with | 0 => SparseCore.Cfg.VecSplit.of_plain (vecSplit (callData hpre)))
    m ρ main (fun d => tailGhost (F := F) d) (FIN m) (u₀ (F := F)) (sep_elim_left.trans (hu₀ hpre)) (hmain ρ hpre) (fq m) (hfin m) (QC m) (fun _ h => h)

end Cert.KernelIdeal.Hand

end
-- ==== Proof.LibNary.lean ====
/-
  A host operation with a literal family of operands (a concatenation of nine, or of two, pieces): its result
  with each operand's contents read AT ITS OWN REFERENCE, so that a fold over a list of operations can go on rewriting
  the operands' contents (the library states this form for four operands; these are the same statement at nine and two).
-/
import Idealize.ShloMosaic.Lib.StableHlo.Run

noncomputable section

namespace Cert.LibNary

open Idealize.ShloMosaic Idealize.ShloMosaic.StableHlo

variable {τ : Topo} {sig : RefSig} {Val : EltTy → Type}
variable {x0 x1 x2 x3 x4 x5 x6 x7 x8 y : Ref sig .tc}

/-- Nine operands. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) := by
  rw [nary_result]; congr 1; funext k; fin_cases k <;> rfl

theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (fun i => i.elim0)))))))))) :=
  nary9_result f hxs hy F

/-- Two operands. -/
theorem nary2_result
    (f : ((k : Fin 2) → ((![x0, x1] : Fin 2 → Ref sig .tc) k).ty.Contents Val) → y.ty.Contents Val) (hxs hy)
    (F : Valuation τ sig Val) :
    (nary (τ := τ) ![x0, x1] y f hxs hy).result F (Proc.devRef .tc y)
      = f (Fin.cons (F (Proc.devRef .tc x0)) (Fin.cons (F (Proc.devRef .tc x1)) (fun i => i.elim0))) := by
  rw [nary_result]; congr 1; funext k; fin_cases k <;> rfl

theorem nary2_result'
    (f : ((k : Fin 2) → ((![x0, x1] : Fin 2 → Ref sig .tc) k).ty.Contents Val) → y.ty.Contents Val) (hxs hy)
    (F : Valuation τ sig Val) :
    (nary (τ := τ) ![x0, x1] y f hxs hy).result F (no_index (Proc.devRef .tc y))
      = f (Fin.cons (F (Proc.devRef .tc x0)) (Fin.cons (F (Proc.devRef .tc x1)) (fun i => i.elim0))) :=
  nary2_result f hxs hy F

/-- The function of a 2-operand operation applied to its operands' contents as plain arguments. -/
def napp2 (f : ((k : Fin 2) → ((![x0, x1] : Fin 2 → Ref sig .tc) k).ty.Contents Val) → y.ty.Contents Val) (a0 : x0.ty.Contents Val) (a1 : x1.ty.Contents Val) : y.ty.Contents Val :=
  f (Fin.cons a0 (Fin.cons a1 (fun i => i.elim0)))

theorem nary2_app (f : ((k : Fin 2) → ((![x0, x1] : Fin 2 → Ref sig .tc) k).ty.Contents Val) → y.ty.Contents Val) (hxs hy) (F : Valuation τ sig Val) :
    (nary (τ := τ) ![x0, x1] y f hxs hy).result F (no_index (Proc.devRef .tc y)) = napp2 f (F (Proc.devRef .tc x0)) (F (Proc.devRef .tc x1)) := by
  rw [nary_result]; unfold napp2; congr 1; funext k; fin_cases k <;> rfl

/-- The function of a 4-operand operation applied to its operands' contents as plain arguments. -/
def napp4 (f : ((k : Fin 4) → ((![x0, x1, x2, x3] : Fin 4 → Ref sig .tc) k).ty.Contents Val) → y.ty.Contents Val) (a0 : x0.ty.Contents Val) (a1 : x1.ty.Contents Val) (a2 : x2.ty.Contents Val) (a3 : x3.ty.Contents Val) : y.ty.Contents Val :=
  f (Fin.cons a0 (Fin.cons a1 (Fin.cons a2 (Fin.cons a3 (fun i => i.elim0)))))

theorem nary4_app (f : ((k : Fin 4) → ((![x0, x1, x2, x3] : Fin 4 → Ref sig .tc) k).ty.Contents Val) → y.ty.Contents Val) (hxs hy) (F : Valuation τ sig Val) :
    (nary (τ := τ) ![x0, x1, x2, x3] y f hxs hy).result F (no_index (Proc.devRef .tc y)) = napp4 f (F (Proc.devRef .tc x0)) (F (Proc.devRef .tc x1)) (F (Proc.devRef .tc x2)) (F (Proc.devRef .tc x3)) := by
  rw [nary_result]; unfold napp4; congr 1; funext k; fin_cases k <;> rfl

/-- The function of a 9-operand operation applied to its operands' contents as plain arguments. -/
def napp9 (f : ((k : Fin 9) → ((![x0, x1, x2, x3, x4, x5, x6, x7, x8] : Fin 9 → Ref sig .tc) k).ty.Contents Val) → y.ty.Contents Val) (a0 : x0.ty.Contents Val) (a1 : x1.ty.Contents Val) (a2 : x2.ty.Contents Val) (a3 : x3.ty.Contents Val) (a4 : x4.ty.Contents Val) (a5 : x5.ty.Contents Val) (a6 : x6.ty.Contents Val) (a7 : x7.ty.Contents Val) (a8 : x8.ty.Contents Val) : y.ty.Contents Val :=
  f (Fin.cons a0 (Fin.cons a1 (Fin.cons a2 (Fin.cons a3 (Fin.cons a4 (Fin.cons a5 (Fin.cons a6 (Fin.cons a7 (Fin.cons a8 (fun i => i.elim0))))))))))

theorem nary9_app (f : ((k : Fin 9) → ((![x0, x1, x2, x3, x4, x5, x6, x7, x8] : Fin 9 → Ref sig .tc) k).ty.Contents Val) → y.ty.Contents Val) (hxs hy) (F : Valuation τ sig Val) :
    (nary (τ := τ) ![x0, x1, x2, x3, x4, x5, x6, x7, x8] y f hxs hy).result F (no_index (Proc.devRef .tc y)) = napp9 f (F (Proc.devRef .tc x0)) (F (Proc.devRef .tc x1)) (F (Proc.devRef .tc x2)) (F (Proc.devRef .tc x3)) (F (Proc.devRef .tc x4)) (F (Proc.devRef .tc x5)) (F (Proc.devRef .tc x6)) (F (Proc.devRef .tc x7)) (F (Proc.devRef .tc x8)) := by
  rw [nary_result]; unfold napp9; congr 1; funext k; fin_cases k <;> rfl

end Cert.LibNary

/-- The fold of a list of host operations read at one buffer, in one rewriting pass, the families of nine and of two
    operands included. -/
macro "after_results_fam" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Cert.LibNary.nary9_result', Cert.LibNary.nary2_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same with the families' operands as plain arguments (`napp2`, `napp4`, `napp9`): the one pass then goes on
    reading each operand's contents, which it cannot do inside a dependent family. -/
macro "after_results_lit" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary2_app, Cert.LibNary.nary4_app, Cert.LibNary.nary9_app,
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.RefRun.lean ====
/-
  The reference program's run. Its @main is a straight line of host operations once the two calls of the row look-up
  (each of which calls the three-way selection) are read at their call sites over the buffers of each call: four
  operations cutting the index array into its two rows, twenty-three per look-up, and the concatenation. Every weakly
  fair execution terminates with the result buffer at the operations' composed term of the four argument arrays and the
  arguments unchanged.
-/
import proofs.«210912_g7524782702854_cont_9to1c4b_744_40_alg».proof.Proof.Gen.ReferenceIdeal
import Idealize.ShloMosaic.Lib.StableHlo.Run
import Idealize.ShloMosaic.PureOps.Ideal
import proofs.«210912_g7524782702854_cont_9to1c4b_744_40_alg».proof.Proof.LibNary

noncomputable section

namespace Cert.ReferenceIdeal.RefHand

open Cert.ReferenceIdeal Cert.ReferenceIdeal.Gen Idealize.ShloMosaic Idealize.ShloMosaic.TcCoe Idealize.SL.Sem Idealize.ShloMosaic.StableHlo

variable {F : FTy → Type} [FloatOps F]

/-! ## The value -/

/-- Row k of the index array as a vector of 320000 words: the slice of that row, reshaped. -/
def idxRow (k : Fin 2) (hs : S2x320000.Slices ![k.val, 0] S1x320000) (a3 : IVec S2x320000 32) : IVec S320000 32 :=
  shapeCast S320000 (extractStridedSlice S1x320000 ![k.val, 0] a3 hs) shapeCasts_S1x320000_S320000

/-- The start indices of a look-up, as a column: an index below zero has the table's extent added, the others are kept. -/
def wrapIdx (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

/-- Per start index, whether it lies in [0, 9999]: the two comparisons, their conjunction, folded over the axis of
    extent one. -/
def inRange (j : IVec S320000x1 32) : IVec S320000 1 :=
  Host.reduce IntOp.andi
    (andi (cmpi .sge j (broadcastInDim S320000x1 ![] bcast_S_S320000x1 (constantI S_ 32 0#32)))
      (cmpi .sle j (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- One look-up of table rows: where the start index is in range the gathered row, elsewhere the constant. -/
def takeVal (tbl : FVec F S10000x128 .f32) (i : IVec S320000 32) : FVec F S320000x128 .f32 :=
  select (broadcastInDim S320000x128 ![0] bcast_S320000_S320000x128_0 (inRange (wrapIdx i)))
    (Host.gather gather_S10000x128_S320000x1_S320000x128_1_0_n_n_0_1_1128 tbl (wrapIdx i))
    (broadcastInDim S320000x128 ![] bcast_S_S320000x128 (constant S_ .f32 0x7FC00000#32))

/-- The reference's result as one term of its four argument arrays: the two look-ups and the two feature arrays side
    by side. -/
def refOut (a0 : FVec F S10000x128 .f32) (a1 : FVec F S320000x16 .f32) (a2 : FVec F S320000x4 .f32)
    (a3 : IVec S2x320000 32) : FVec F S320000x276 .f32 :=
  concatenate S320000x276 1
    [⟨S320000x128, takeVal a0 (idxRow 0 slices_S2x320000_S1x320000_0_0 a3)⟩,
     ⟨S320000x128, takeVal a0 (idxRow 1 slices_S2x320000_S1x320000_1_0 a3)⟩, ⟨S320000x16, a1⟩, ⟨S320000x4, a2⟩]
    concatenates_S320000x128_S320000x128_S320000x16_S320000x4_S320000x276_d1

/-! ## The operations -/

/-- @main's 51 operations in order, the calls read at their sites. -/
abbrev ops : List (HloOp τ sig (Elt F)) :=
  [ unary main_arg3 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg3 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_v3) main_call1.v0 main_call1.v1 (cmpi .slt),
    TRef.nullary main_call1.c_0 (constantI S_ 32 10000#32),
    TRef.unary main_call1.c_0 main_call1.v2 (broadcastInDim S320000 ![] bcast_S_S320000),
    TRef.binary (.of main_v3) main_call1.v2 main_call1.v3 addi,
    TRef.ternary main_call1.v1 main_call1.v3 (.of main_v3) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg0) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    nary ![main_v4, main_v5, main_arg1, main_arg2] main_v6 (fun u => concatenate S320000x276 1 [⟨S320000x128, u 0⟩, ⟨S320000x128, u 1⟩, ⟨S320000x16, u 2⟩, ⟨S320000x4, u 3⟩] concatenates_S320000x128_S320000x128_S320000x16_S320000x4_S320000x276_d1) ]

set_option maxRecDepth 2048 in
/-- @main is that straight line: the functions' definitions read at their calls, both sides are one chain of steps once
    sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub ..⟩

attribute [local irreducible] Host.reduce Host.gather concatenate select cmpi andi addi broadcastInDim constantI constant
  extractStridedSlice shapeCast in
set_option maxRecDepth 16384 in
set_option maxHeartbeats 1000000 in
/-- The fold at the result buffer is the composed term: each operation's result is read at its own buffer and every other
    buffer keeps what it held, then the two sides are the same term once the definitions of the stages are opened and the
    transports along the buffers' types, which are identities at these buffers, are dropped. The array operations stay
    closed meanwhile: the equation never looks inside one. -/
theorem out_eq (V : Valuation τ sig (Elt F)) :
    after ops V (main_v6 : DevRef τ sig)
      = refOut (V (main_arg0 : DevRef τ sig)) (V (main_arg1 : DevRef τ sig)) (V (main_arg2 : DevRef τ sig))
          (V (main_arg3 : DevRef τ sig)) := by
  after_results_lit
  rfl

set_option maxRecDepth 16384 in
theorem arg0_eq (V : Valuation τ sig (Elt F)) : after ops V (main_arg0 : DevRef τ sig) = V (main_arg0 : DevRef τ sig) := by
  after_results_simp
set_option maxRecDepth 16384 in
theorem arg1_eq (V : Valuation τ sig (Elt F)) : after ops V (main_arg1 : DevRef τ sig) = V (main_arg1 : DevRef τ sig) := by
  after_results_simp
set_option maxRecDepth 16384 in
theorem arg2_eq (V : Valuation τ sig (Elt F)) : after ops V (main_arg2 : DevRef τ sig) = V (main_arg2 : DevRef τ sig) := by
  after_results_simp
set_option maxRecDepth 16384 in
theorem arg3_eq (V : Valuation τ sig (Elt F)) : after ops V (main_arg3 : DevRef τ sig) = V (main_arg3 : DevRef τ sig) := by
  after_results_simp

/-- From any memory with zero counters: every weakly fair execution of @main terminates with the result at the composed
    term of the arguments and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v6)
            = refOut (F := Ideal) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v6).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefHand

end
-- ==== Proof.LibRefIdx.lean ====
import Idealize.ShloMosaic.Lib.ValueIdx
import Idealize.ShloMosaic.Lib.Pipeline.Value
import Idealize.ShloMosaic.PureOps.Ideal.Laws

/-!
# Array operations read at an index

Three readings the reference's value needs and the library does not state in this form: a plain matrix product
[M, K] x [K, N] at (a, c) is the sum over k of l (a, k) * r (k, c); a gather of whole rows of a [N, C] table at a
column of R start indices, read at (r, c), is the table at (the r-th start index read signed and clamped into
[0, N - 1], c); and a conjunction folded from true over words that are all true is true.
-/

noncomputable section

open scoped BigOperators

namespace Cert.ReferenceIdeal.RefIdx

open Idealize.ShloMosaic Idealize.ShloMosaic.ValueIdx

/-! ## A plain matrix product -/

theorem dot_plain_apply {φ₁ φ₂ : FTy} (M K N : Nat) (prec : Option ContractPrecision) (sched : HostSchedule)
    (l : FVec Ideal ⟨2, ![M, K]⟩ φ₁) (r : FVec Ideal ⟨2, ![K, N]⟩ φ₂) (a : Fin M) (c : Fin N) :
    FloatOps.dotGeneral (DotDims.plain M K N) prec sched l r (ix2 a c) = ∑ k : Fin K, l (ix2 a k) * r (ix2 k c) := by
  rw [Ideal.dotGeneral_apply]
  rw [← Equiv.sum_comp (contrEquiv1 (DotDims.plain M K N) K rfl rfl).symm]
  refine Finset.sum_congr rfl fun k _ => ?_
  have hl : (DotDims.plain M K N).lhsIdx (ix2 a c) ((contrEquiv1 (DotDims.plain M K N) K rfl rfl).symm k) = ix2 a k := by
    funext x; refine Fin.ext ?_
    match x with
    | ⟨0, _⟩ => rfl
    | ⟨1, _⟩ => rfl
  have hr : (DotDims.plain M K N).rhsIdx (ix2 a c) ((contrEquiv1 (DotDims.plain M K N) K rfl rfl).symm k) = ix2 k c := by
    funext x; refine Fin.ext ?_
    match x with
    | ⟨0, _⟩ => rfl
    | ⟨1, _⟩ => rfl
  rw [hl, hr]

/-! ## A gather of whole rows -/

section Rows
variable {α : Type}

/-- The dimension numbers of a look-up of whole rows: operand [N, C], start indices [R, 1] (one index component
    per row, naming operand axis 0, which is collapsed), result [R, C], slices of one row. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at (r, c): the table at row (the r-th start index, read signed and clamped into [0, N - 1])
    and column c. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) := by
  unfold Host.gather
  congr 1
  funext a
  refine Fin.ext ?_
  show (rowsDims N R C wf).start (ix2 r c) idx a + (rowsDims N R C wf).batchCoord (ix2 r c) a
    + (rowsDims N R C wf).offCoord (ix2 r c) a = _
  rw [GatherDims.batchCoord_eq_zero _ _ _ List.not_mem_nil]
  -- every start-index component of result row r is read at (r, 0): there is one component
  have hsi : ∀ p, (rowsDims N R C wf).siIdx (ix2 r c) p = ix2 r 0 := by
    intro p
    funext b; refine Fin.ext ?_
    match b with
    | ⟨0, _⟩ => rfl
    | ⟨1, _⟩ => exact Nat.lt_one_iff.mp p.isLt
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    split
    · rw [hsi]; rfl
    · rename_i ha; exact absurd (List.mem_singleton.mpr rfl) ha
  | ⟨1, h1⟩ =>
    have hs : (rowsDims N R C wf).start (ix2 r c) idx ⟨1, h1⟩ = 0 := by
      unfold GatherDims.start
      split
      · rename_i ha; exact absurd (congrArg Fin.val (List.mem_singleton.mp ha)) Nat.one_ne_zero
      · rfl
    rw [hs]
    unfold GatherDims.offCoord
    split
    · rw [Nat.zero_add]
      rfl
    · rename_i ha
      exact absurd ((GatherDims.mem_sKept _ _).mpr ⟨fun h => absurd (congrArg Fin.val (List.mem_singleton.mp h)) Nat.one_ne_zero,
        List.not_mem_nil⟩) ha

/-- An index word read signed and clamped into [0, N - 1]: the row a look-up reads. -/
def clampRow (N : Nat) (hN : 0 < N) {w : Nat} (v : BitVec w) : Fin N := ⟨min v.toInt.toNat (N - 1), by omega⟩

/-- The gather read at (r, c), the row named. -/
theorem gather_rows_clamp {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c) = x (ix2 (clampRow N hN (idx (ix2 r 0))) c) :=
  gather_rows_apply hN wf x idx r c

/-- A word that is, read signed, already in [0, N - 1] names the row of its unsigned value: the clamp is the
    identity. -/
theorem clampRow_val {N : Nat} (hN : 0 < N) (v : BitVec 32) (h0 : 0 ≤ v.toInt) (h1 : v.toInt < N) :
    (clampRow N hN v).val = v.toNat := by
  have h := BitVec.toInt_eq_toNat_cond v
  have hlt := v.isLt
  show min v.toInt.toNat (N - 1) = v.toNat
  split at h <;> omega

end Rows

/-! ## A conjunction of true words -/

/-- Folding "and" from the true word over words that are all true gives the true word, whichever words are folded. -/
theorem foldl_andi_ones {ι : Type} (x : ι → BitVec 1) (l : List ι) (h : ∀ n ∈ l, x n = 1#1) :
    l.foldl (fun r n => IntOp.andi r (x n)) 1#1 = 1#1 := by
  induction l with
  | nil => rfl
  | cons a l ih =>
    rw [List.foldl_cons, h a (List.mem_cons_self ..)]
    exact ih fun n hn => h n (List.mem_cons_of_mem _ hn)

/-! ## A sum over 48 features as three sums over 16 -/

/-- A sum over forty-eight terms is the sum of its three runs of sixteen, grouped (first + second) + third: a sum
    in a commutative monoid is split at 32, its first part again at 16. -/
theorem sum48_split {M : Type} [AddCommMonoid M] (f : Fin 48 → M) :
    ∑ k : Fin 48, f k
      = (∑ e : Fin 16, f ⟨e.val, by omega⟩) + (∑ e : Fin 16, f ⟨16 + e.val, by omega⟩)
        + (∑ e : Fin 16, f ⟨32 + e.val, by omega⟩) := by
  have h1 := Fin.sum_univ_add (a := 32) (b := 16) (f : Fin (32 + 16) → M)
  have h2 := Fin.sum_univ_add (a := 16) (b := 16) fun i : Fin (16 + 16) => f (Fin.castAdd 16 i)
  exact h1.trans (congrArg (· + _) h2)

end Cert.ReferenceIdeal.RefIdx

end
-- ==== Proof.RefValue.lean ====
/-
  The reference's composed term is the specification function on the claim's domain. Each look-up first moves a
  negative index up by the table's extent, tests the moved index against [0, 9999], gathers the table row the moved
  index names (read signed and clamped into the table), and keeps the gathered row where the test holds. For an index
  already in [0, 9999] nothing is moved, the test holds, and the clamp is the identity, so the look-up reads the table row
  of the index's unsigned value. The concatenation of the two look-ups and the two feature arrays, read at column c,
  is the piece c falls in; it is read through a statement for every row count, instantiated afterwards.
-/
import proofs.«210912_g7524782702854_cont_9to1c4b_744_40_alg».proof.Proof.RefRun
import proofs.«210912_g7524782702854_cont_9to1c4b_744_40_alg».proof.Proof.Spec
import proofs.«210912_g7524782702854_cont_9to1c4b_744_40_alg».proof.Proof.LibRefIdx
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefHand

open Cert.ReferenceIdeal Cert.ReferenceIdeal.Gen Idealize.ShloMosaic Idealize.ShloMosaic.ValueIdx

variable {F : FTy → Type} [FloatOps F]

/-! ## The stages read at an index -/

/-- Row k of the index array, read at e, is the entry (k, e). -/
theorem idxRow_apply (k : Fin 2) (hs : S2x320000.Slices ![k.val, 0] S1x320000) (a3 : IVec S2x320000 32) (e : Fin 320000) :
    idxRow k hs a3 (ix1 e) = a3 (ix2 k e) := by
  unfold idxRow
  rw [shapeCast_apply _ _ (ix1 e) (ix2 (0 : Fin 1) e) (by
    rw [Shape.rowMajor_val_two, Shape.rowMajor_val_one]
    show (0 : Nat) * _ + e.val = e.val
    omega)]
  refine extractStridedSlice_apply _ a3 hs (ix2 (0 : Fin 1) e) (ix2 k e) fun a => ?_
  match a with
  | ⟨0, _⟩ => rfl
  | ⟨1, _⟩ => show e.val = 0 + e.val; omega

/-- A start index that is not negative is kept. -/
theorem wrapIdx_apply (i : IVec S320000 32) (e : Fin 320000) (h0 : 0 ≤ (i (ix1 e)).toInt) :
    wrapIdx i (ix2 e (0 : Fin 1)) = i (ix1 e) := by
  unfold wrapIdx
  rw [broadcastInDim_apply _ _ _ (ix2 e (0 : Fin 1)) (ix1 e) (fun a => by
    match a with
    | ⟨0, _⟩ => rfl)]
  show Scalar.select (IntOp.cmpi .slt (i (ix1 e)) 0#32) _ _ = _
  have hc : IntOp.cmpi .slt (i (ix1 e)) 0#32 ≠ 1#1 := by
    intro hc
    have := IntOp.cmpi_slt.1 hc
    have z : (0#32 : BitVec 32).toInt = 0 := by decide
    omega
  rw [eq_zero_of_ne_one hc, select_zero]

/-- Start indices all in range: the range test is true everywhere. -/
theorem inRange_apply (j : IVec S320000x1 32) (hj : ∀ n, 0 ≤ (j n).toInt ∧ (j n).toInt ≤ 9999) (e : Fin 320000) :
    inRange j (ix1 e) = 1#1 := by
  unfold inRange
  rw [Host.reduce_eq_foldl]
  refine Cert.ReferenceIdeal.RefIdx.foldl_andi_ones _ _ fun n _ => ?_
  show IntOp.andi (IntOp.cmpi .sge (j n) 0#32) (IntOp.cmpi .sle (j n) 9999#32) = 1#1
  have z : (0#32 : BitVec 32).toInt = 0 := by decide
  have m : (9999#32 : BitVec 32).toInt = 9999 := by decide
  exact IntOp.andi_eq_one.2 ⟨IntOp.cmpi_sge.2 (by rw [z]; exact (hj n).1), IntOp.cmpi_sle.2 (by rw [m]; exact (hj n).2)⟩

/-- A word in [0, 9999] read signed names, clamped, the table row of its unsigned value. -/
theorem clampRow_eq_row (v : BitVec 32) (h0 : 0 ≤ v.toInt) (h1 : v.toInt ≤ 9999) :
    Cert.ReferenceIdeal.RefIdx.clampRow 10000 (by decide) v = Cert.Hand.Spec.row v := by
  refine Fin.ext ?_
  rw [Cert.ReferenceIdeal.RefIdx.clampRow_val (by decide) v h0 (by omega)]
  have hc := BitVec.toInt_eq_toNat_cond v
  have hlt := v.isLt
  exact (Cert.Hand.Spec.row_val_of_lt (by split at hc <;> omega)).symm

/-- One look-up at (e, c), its indices all in range: the table at the row the e-th index names, column c. -/
theorem takeVal_apply (tbl : FVec F S10000x128 .f32) (i : IVec S320000 32)
    (hi : ∀ n, 0 ≤ (i n).toInt ∧ (i n).toInt ≤ 9999) (e : Fin 320000) (c : Fin 128) :
    takeVal tbl i (ix2 e c) = tbl (ix2 (Cert.Hand.Spec.row (i (ix1 e))) c) := by
  have hw : ∀ n, wrapIdx i n = i (ix1 (n 0)) := fun n => by
    obtain ⟨r, z, rfl⟩ : ∃ r z, n = ix2 r z := ⟨n 0, n 1, eq_ix2 n⟩
    have hz : z = 0 := Fin.ext (Nat.lt_one_iff.mp z.isLt)
    subst hz
    exact wrapIdx_apply i r (hi _).1
  unfold takeVal
  show Scalar.select (broadcastInDim S320000x128 ![0] bcast_S320000_S320000x128_0 (inRange (wrapIdx i)) (ix2 e c)) _ _ = _
  rw [broadcastInDim_apply _ _ _ (ix2 e c) (ix1 e) (fun a => by
    match a with
    | ⟨0, _⟩ => rfl)]
  rw [inRange_apply _ (fun n => by rw [hw n]; exact hi _) e]
  rw [select_one]
  refine (Cert.ReferenceIdeal.RefIdx.gather_rows_clamp (N := 10000) (R := 320000) (C := 128) (by decide) _ tbl (wrapIdx i) e c).trans ?_
  rw [hw, clampRow_eq_row _ (hi _).1 (hi _).2]

/-! ## The four pieces side by side -/

/-- Blocks of 128, 128, 16 and 4 columns laid side by side, read at (e, c): the block column c falls in, at c less the
    columns before it. Stated for every row count. -/
theorem concat4w_apply {α : Type} {N : Nat} (P0 P1 : (⟨2, ![N, 128]⟩ : Shape).Idx → α) (P2 : (⟨2, ![N, 16]⟩ : Shape).Idx → α)
    (P3 : (⟨2, ![N, 4]⟩ : Shape).Idx → α)
    (h : Shape.Concatenates [⟨2, ![N, 128]⟩, ⟨2, ![N, 128]⟩, ⟨2, ![N, 16]⟩, ⟨2, ![N, 4]⟩] ⟨2, ![N, 276]⟩ 1)
    (e : Fin N) (c : Fin 276) :
    concatenate ⟨2, ![N, 276]⟩ 1 [⟨⟨2, ![N, 128]⟩, P0⟩, ⟨⟨2, ![N, 128]⟩, P1⟩, ⟨⟨2, ![N, 16]⟩, P2⟩, ⟨⟨2, ![N, 4]⟩, P3⟩] h (ix2 e c)
      = if h1 : c.val < 128 then P0 (ix2 e ⟨c.val, h1⟩)
        else if h2 : c.val < 256 then P1 (ix2 e ⟨c.val - 128, by omega⟩)
        else if h3 : c.val < 272 then P2 (ix2 e ⟨c.val - 256, by omega⟩)
        else P3 (ix2 e ⟨c.val - 272, by have := c.isLt; omega⟩) := by
  have hoff : ∀ {n : Nat} (i : Fin n) (b : Fin 2), b ≠ (1 : Fin 2) →
      ((ix2 e i : (⟨2, ![N, n]⟩ : Shape).Idx) b).val = ((ix2 e c : (⟨2, ![N, 276]⟩ : Shape).Idx) b).val := fun i b hb => by
    match b with
    | ⟨0, _⟩ => rfl
    | ⟨1, _⟩ => exact absurd (Fin.ext rfl) hb
  by_cases h1 : c.val < 128
  · rw [dif_pos h1]
    exact concatenate_apply_piece (t := ⟨2, ![N, 276]⟩) (1 : Fin 2) [⟨⟨2, ![N, 128]⟩, P0⟩, ⟨⟨2, ![N, 128]⟩, P1⟩, ⟨⟨2, ![N, 16]⟩, P2⟩, ⟨⟨2, ![N, 4]⟩, P3⟩] h (ix2 e c) 0 (by show (_ : Nat) < 4; omega) ⟨2, ![N, 128]⟩ P0 rfl rfl 0 rfl
      (ix2 e ⟨c.val, h1⟩) (fun b hb => hoff _ b hb) (by show 0 + c.val = c.val; omega)
  · rw [dif_neg h1]
    by_cases h2 : c.val < 256
    · rw [dif_pos h2]
      exact concatenate_apply_piece (t := ⟨2, ![N, 276]⟩) (1 : Fin 2) [⟨⟨2, ![N, 128]⟩, P0⟩, ⟨⟨2, ![N, 128]⟩, P1⟩, ⟨⟨2, ![N, 16]⟩, P2⟩, ⟨⟨2, ![N, 4]⟩, P3⟩] h (ix2 e c) 1 (by show (_ : Nat) < 4; omega) ⟨2, ![N, 128]⟩ P1 rfl rfl 128 rfl
        (ix2 e ⟨c.val - 128, by omega⟩) (fun b hb => hoff _ b hb) (by show 128 + (c.val - 128) = c.val; omega)
    · rw [dif_neg h2]
      by_cases h3 : c.val < 272
      · rw [dif_pos h3]
        exact concatenate_apply_piece (t := ⟨2, ![N, 276]⟩) (1 : Fin 2) [⟨⟨2, ![N, 128]⟩, P0⟩, ⟨⟨2, ![N, 128]⟩, P1⟩, ⟨⟨2, ![N, 16]⟩, P2⟩, ⟨⟨2, ![N, 4]⟩, P3⟩] h (ix2 e c) 2 (by show (_ : Nat) < 4; omega) ⟨2, ![N, 16]⟩ P2 rfl rfl 256 rfl
          (ix2 e ⟨c.val - 256, by omega⟩) (fun b hb => hoff _ b hb) (by show 256 + (c.val - 256) = c.val; omega)
      · rw [dif_neg h3]
        exact concatenate_apply_piece (t := ⟨2, ![N, 276]⟩) (1 : Fin 2) [⟨⟨2, ![N, 128]⟩, P0⟩, ⟨⟨2, ![N, 128]⟩, P1⟩, ⟨⟨2, ![N, 16]⟩, P2⟩, ⟨⟨2, ![N, 4]⟩, P3⟩] h (ix2 e c) 3 (by show (_ : Nat) < 4; omega) ⟨2, ![N, 4]⟩ P3 rfl rfl 272 rfl
          (ix2 e ⟨c.val - 272, by have := c.isLt; omega⟩) (fun b hb => hoff _ b hb) (by show 272 + (c.val - 272) = c.val; omega)

/-- The specification read at (e, c). -/
theorem G_apply {α : Type} (tbl : (⟨2, ![10000, 128]⟩ : Shape).Idx → α) (rad : (⟨2, ![320000, 16]⟩ : Shape).Idx → α)
    (ang : (⟨2, ![320000, 4]⟩ : Shape).Idx → α) (idx : (⟨2, ![2, 320000]⟩ : Shape).Idx → BitVec 32) (e : Fin 320000) (c : Fin 276) :
    Cert.Hand.Spec.G tbl rad ang idx (ix2 e c)
      = if h1 : c.val < 128 then tbl (ix2 (Cert.Hand.Spec.row (idx (ix2 (0 : Fin 2) e))) ⟨c.val, h1⟩)
        else if h2 : c.val < 256 then tbl (ix2 (Cert.Hand.Spec.row (idx (ix2 (1 : Fin 2) e))) ⟨c.val - 128, by omega⟩)
        else if h3 : c.val < 272 then rad (ix2 e ⟨c.val - 256, by omega⟩)
        else ang (ix2 e ⟨c.val - 272, by have := c.isLt; omega⟩) := rfl

/-! ## The reference's term is the specification -/

/-- With every index word in [0, 9999] read signed, the reference's composed term is the specification function of the
    four argument arrays. -/
theorem refOut_eq_G (a0 : FVec F S10000x128 .f32) (a1 : FVec F S320000x16 .f32) (a2 : FVec F S320000x4 .f32)
    (a3 : IVec S2x320000 32) (h : ∀ j, 0 ≤ (a3 j).toInt ∧ (a3 j).toInt ≤ 9999) :
    refOut a0 a1 a2 a3 = Cert.Hand.Spec.G a0 a1 a2 a3 := by
  funext j
  obtain ⟨e, c, rfl⟩ : ∃ e c, j = ix2 e c := ⟨j 0, j 1, eq_ix2 j⟩
  have hrow : ∀ (k : Fin 2) hs (n : S320000.Idx), 0 ≤ (idxRow k hs a3 n).toInt ∧ (idxRow k hs a3 n).toInt ≤ 9999 := fun k hs n => by
    obtain ⟨r, rfl⟩ : ∃ r, n = ix1 r := ⟨n 0, eq_ix1 n⟩
    rw [idxRow_apply]; exact h _
  unfold refOut
  rw [G_apply]
  refine (concat4w_apply (N := 320000) _ _ a1 a2 _ e c).trans ?_
  by_cases h1 : c.val < 128
  · rw [dif_pos h1, dif_pos h1, takeVal_apply _ _ (hrow _ _), idxRow_apply]
  · rw [dif_neg h1, dif_neg h1]
    by_cases h2 : c.val < 256
    · rw [dif_pos h2, dif_pos h2, takeVal_apply _ _ (hrow _ _), idxRow_apply]
    · rw [dif_neg h2, dif_neg h2]

end Cert.ReferenceIdeal.RefHand

end
-- ==== Proof.PreFacts.lean ====
/-
  What the claim's precondition says of the index array. The precondition is a conjunction of four "all" reductions, the
  last of which is over the words of the index array: each word, read signed, is at least 0 and at most 9999. From the
  precondition being all ones that last conjunct is one, so the conjunction folded over every index word is one, so each
  word's two comparisons hold.
-/
import proofs.«210912_g7524782702854_cont_9to1c4b_744_40_alg».proof.Pre_input_domain
import Idealize.ShloMosaic.Lib.ReduceAll
import Idealize.ShloMosaic.Lib.ValueIdx

namespace Cert.Hand.PreFacts

open Idealize.ShloMosaic

instance : Subsingleton Cert.Pre_input_domain.S_.Idx := ⟨fun a b => funext fun d => d.elim0⟩

/-- A word whose signed comparisons "at least 0" and "at most 9999" both hold lies in that range read signed. -/
theorem range_of_cmp (v : BitVec 32)
    (e : IntOp.andi (IntOp.cmpi .sge v 0#32) (IntOp.cmpi .sle v 9999#32) = 1#1) : 0 ≤ v.toInt ∧ v.toInt ≤ 9999 := by
  obtain ⟨h0, h1⟩ := IntOp.andi_eq_one.1 e
  have h0' := IntOp.cmpi_sge.1 h0
  have h1' := IntOp.cmpi_sle.1 h1
  have z : (0#32 : BitVec 32).toInt = 0 := by decide
  have n : (9999#32 : BitVec 32).toInt = 9999 := by decide
  omega

/-- From the precondition function being all ones: every index word, read signed, lies in [0, 9999]. -/
theorem idx_range_of_pre {F : FTy → Type} [FloatOps F] [Cert.Pre_input_domain.Facts]
    (a0 : FVec F Cert.Pre_input_domain.S10000x128 .f32) (a1 : FVec F Cert.Pre_input_domain.S320000x16 .f32)
    (a2 : FVec F Cert.Pre_input_domain.S320000x4 .f32) (a3 : IVec Cert.Pre_input_domain.S2x320000 32)
    (h : Cert.Pre_input_domain.fn (F := F) a0 a1 a2 a3 = fun _ => 1#1) :
    ∀ j, 0 ≤ (a3 j).toInt ∧ (a3 j).toInt ≤ 9999 := by
  intro j
  have e := congrFun h ValueIdx.ix0
  dsimp only [Cert.Pre_input_domain.fn, Cert.Pre_input_domain.fn_part1] at e
  have e1 := (IntOp.andi_eq_one.1 (show IntOp.andi _ _ = 1#1 from e)).2
  have e2 := Host.reduce_andi_all _ _ _ _ _ e1 j
  exact range_of_cmp _ e2

/-- Every index word's unsigned value is below the table's extent. -/
theorem idx_toNat_lt {F : FTy → Type} [FloatOps F] [Cert.Pre_input_domain.Facts]
    (a0 : FVec F Cert.Pre_input_domain.S10000x128 .f32) (a1 : FVec F Cert.Pre_input_domain.S320000x16 .f32)
    (a2 : FVec F Cert.Pre_input_domain.S320000x4 .f32) (a3 : IVec Cert.Pre_input_domain.S2x320000 32)
    (h : Cert.Pre_input_domain.fn (F := F) a0 a1 a2 a3 = fun _ => 1#1) :
    ∀ j, (a3 j).toNat < 10000 := by
  intro j
  obtain ⟨h0, h1⟩ := idx_range_of_pre a0 a1 a2 a3 h j
  have hc := BitVec.toInt_eq_toNat_cond (a3 j)
  have hlt := (a3 j).isLt
  split at hc <;> omega

end Cert.Hand.PreFacts
-- ==== Proof.lean ====
/-
  The certificate's five claims.

  Both programs compute, row by row, [table row src(e) | table row dst(e) | radial row e | angular row e], where src
  and dst are the two rows of the index array (Proof/Spec.lean). The kernel's program does it in two steps: thirty-two
  vector subcores each gather the table rows of their ten thousand edges, two hundred at a time, into the left 256
  columns of the result (Proof/HI/Tile.lean, one task's body; Proof/HI/Split.lean, the arrays cut among the tasks and
  joined back), and a pipeline over eighty blocks of four thousand rows then writes the radial and angular columns to
  the right of them (Proof/HI/Tail*.lean). The launch of the subcores, @main's host operations around it and the
  reading of the final memory are Proof/HI/Main.lean and Proof/HI/Run.lean; the word-level program's frame is the same
  text over its own names (Proof/HB). The reference gathers with a look-up that wraps negative indices, clamps, and
  masks out-of-range rows; on the claim's domain (every index word in [0, 9999]) all three are the identity
  (Proof/RefRun.lean, Proof/RefValue.lean, Proof/PreFacts.lean). No arithmetic on floats occurs on either side, so the
  two results agree as arrays of extended reals entry by entry, and the ideal pass rewrote nothing.
-/
import proofs.«210912_g7524782702854_cont_9to1c4b_744_40_alg».proof.Defs
import proofs.«210912_g7524782702854_cont_9to1c4b_744_40_alg».proof.Proof.Gen.Kernel
import proofs.«210912_g7524782702854_cont_9to1c4b_744_40_alg».proof.Proof.Gen.KernelIdeal
import proofs.«210912_g7524782702854_cont_9to1c4b_744_40_alg».proof.Proof.Gen.ReferenceIdeal
import proofs.«210912_g7524782702854_cont_9to1c4b_744_40_alg».proof.Proof.Gen.Pre_input_domain
import proofs.«210912_g7524782702854_cont_9to1c4b_744_40_alg».proof.Proof.HB.Run
import proofs.«210912_g7524782702854_cont_9to1c4b_744_40_alg».proof.Proof.HI.Run
import proofs.«210912_g7524782702854_cont_9to1c4b_744_40_alg».proof.Proof.RefRun
import proofs.«210912_g7524782702854_cont_9to1c4b_744_40_alg».proof.Proof.RefValue
import proofs.«210912_g7524782702854_cont_9to1c4b_744_40_alg».proof.Proof.PreFacts
import Idealize.ShloMosaic.Adequacy
import Idealize.ShloMosaic.Init

noncomputable section

namespace Cert.Proof

open Idealize.ShloMosaic Idealize.SL.Sem

/-! ## The precondition gives every index word a table row -/

theorem preOK_ideal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : Cert.KernelIdeal.Hand.PreOK (F := Ideal) m :=
  fun d j => Cert.Hand.PreFacts.idx_toNat_lt _ _ _ _ (h d) j

theorem preOK_bits (m : (ℓ : Loc Cert.Kernel.nD Cert.Kernel.τ Cert.Kernel.sig) → Buf (Elt Bits) ℓ)
    (h : Cert.Pre_Kernel (hPre_input_domain := Cert.Pre_input_domain.Gen.facts) m) : Cert.Kernel.Hand.PreOK (F := Bits) m :=
  fun d j => Cert.Hand.PreFacts.idx_toNat_lt _ _ _ _ (h d) j

/-! ## The claims -/

/-- The word-level program runs and leaves its arguments: its run with the result's value dropped. -/
theorem frame_kernel : Cert.frame_Kernel (hKernel := Cert.Kernel.Gen.facts) (hPre_input_domain := Cert.Pre_input_domain.Gen.facts) :=
  fun m g hp => (θ_run (Cert.Kernel.defs (F := Bits)) _ _).mono (fun _ h c => (h c).2)
    (Cert.Kernel.Hand.run_main (F := Bits) g (preOK_bits m hp))

/-- The idealized program runs and leaves its arguments. -/
theorem frame_kernelIdeal : Cert.frame_KernelIdeal (hKernelIdeal := Cert.KernelIdeal.Gen.facts) (hPre_input_domain := Cert.Pre_input_domain.Gen.facts) :=
  fun m g hp => (θ_run (Cert.KernelIdeal.defs (F := Ideal)) _ _).mono (fun _ h c => (h c).2)
    (Cert.KernelIdeal.Hand.run_main (F := Ideal) g (preOK_ideal m hp))

/-- The reference runs and leaves its arguments: its run with the result's value dropped. -/
theorem frame_reference : Cert.frame_ReferenceIdeal (hReferenceIdeal := Cert.ReferenceIdeal.Gen.facts) (hPre_input_domain := Cert.Pre_input_domain.Gen.facts) :=
  fun m g _ => (θ_run (Cert.ReferenceIdeal.defs (F := Ideal)) _ _).mono (fun _ h c => (h c).2) (Cert.ReferenceIdeal.RefHand.run m g)

/-- Both idealized programs end with the result array at the specification of the (agreeing) arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hp hagree
  refine ⟨fun c => Cert.Hand.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run (Cert.KernelIdeal.defs (F := Ideal)) _ _).mono (fun _ h c => h c)
      (Cert.KernelIdeal.Hand.run_main (F := Ideal) g (preOK_ideal m hp)), ?_⟩
  refine (θ_run (Cert.ReferenceIdeal.defs (F := Ideal)) _ _).mono (fun _ h c => ⟨(h c).1.trans ?_, (h c).2⟩)
    (Cert.ReferenceIdeal.RefHand.run m' g')
  rw [(hagree c).1, (hagree c).2.1, (hagree c).2.2.1, (hagree c).2.2.2]
  exact Cert.ReferenceIdeal.RefHand.refOut_eq_G _ _ _ _ (Cert.Hand.PreFacts.idx_range_of_pre _ _ _ _ (hp c))

theorem claim : Cert.Claim :=
  ⟨Cert.Kernel.Gen.facts, Cert.KernelIdeal.Gen.facts, Cert.ReferenceIdeal.Gen.facts, Cert.Pre_input_domain.Gen.facts,
    frame_kernel, frame_kernelIdeal, frame_reference, trivial, algebraic⟩

end Cert.Proof

end
